-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000x256 : Shape := ⟨2, ![320000, 256]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_v48 main_v49 main_v50

def fn_part1 {F : FTy → Type} [FloatOps F] (main_arg5 : FVec F S256x256 .f32) (main_arg6 : FVec F S256 .f32) (main_arg7 : FVec F S768x256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg7
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S20000x256 .f32) (main_arg1 : IVec S2x320000 32) (main_arg2 : FVec F S320000x256 .f32) (main_arg3 : FVec F S768x256 .f32) (main_arg4 : FVec F S256 .f32) (main_arg5 : FVec F S256x256 .f32) (main_arg6 : FVec F S256 .f32) (main_arg7 : FVec F S768x256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg2
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S20000x256 : Shape := ⟨2, ![20000, 256]⟩
abbrev S2x320000 : Shape := ⟨2, ![2, 320000]⟩
abbrev S320000x256 : Shape := ⟨2, ![320000, 256]⟩
abbrev S768x256 : Shape := ⟨2, ![768, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S2x8x256 : Shape := ⟨3, ![2, 8, 256]⟩
abbrev S2000x256 : Shape := ⟨2, ![2000, 256]⟩
abbrev S1x8x256 : Shape := ⟨3, ![1, 8, 256]⟩
abbrev S1x256 : Shape := ⟨2, ![1, 256]⟩
abbrev S1x1x256 : Shape := ⟨3, ![1, 1, 256]⟩
abbrev S2x1x256 : Shape := ⟨3, ![2, 1, 256]⟩
abbrev S2x256 : Shape := ⟨2, ![2, 256]⟩

abbrev nBuf : Space → Nat
  | .hbm => 127
  | .vmem => 30
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000x256, .f32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S768x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x320000, .i32⟩
  | .hbm, ⟨16, _⟩ => ⟨S320000, .i32⟩
  | .hbm, ⟨17, _⟩ => ⟨S1x320000, .i32⟩
  | .hbm, ⟨18, _⟩ => ⟨S320000, .i32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x256, .f32⟩
  | .hbm, ⟨37, _⟩ => ⟨S320000x256, .bf16⟩
  | .hbm, ⟨38, _⟩ => ⟨S320000x256, .bf16⟩
  | .hbm, ⟨39, _⟩ => ⟨S2x8x256, .f32⟩
  | .hbm, ⟨40, _⟩ => ⟨S2x8x256, .f32⟩
  | .hbm, ⟨41, _⟩ => ⟨S2x1x256, .f32⟩
  | .hbm, ⟨42, _⟩ => ⟨S2x256, .f32⟩
  | .hbm, ⟨43, _⟩ => ⟨S_, .f32⟩
  | .hbm, ⟨44, _⟩ => ⟨S256, .f32⟩
  | .hbm, ⟨45, _⟩ => ⟨S2x1x256, .f32⟩
  | .hbm, ⟨46, _⟩ => ⟨S2x256, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S320000x256, .f32⟩
  | .hbm, ⟨68, _⟩ => ⟨S1x256, .f32⟩
  | .hbm, ⟨69, _⟩ => ⟨S320000x256, .f32⟩
  | .hbm, ⟨70, _⟩ => ⟨S320000x256, .f32⟩
  | .hbm, ⟨71, _⟩ => ⟨S1x256, .f32⟩
  | .hbm, ⟨72, _⟩ => ⟨S320000x256, .f32⟩
  | .hbm, ⟨73, _⟩ => ⟨S320000x256, .f32⟩
  | .hbm, ⟨74, _⟩ => ⟨S320000x256, .f32⟩
  | .hbm, ⟨75, _⟩ => ⟨S320000x256, .f32⟩
  | .hbm, ⟨76, _⟩ => ⟨S_, .f32⟩
  | .hbm, ⟨77, _⟩ => ⟨S320000x256, .f32⟩
  | .hbm, ⟨78, _⟩ => ⟨S320000x256, .f32⟩
  | .hbm, ⟨79, _⟩ => ⟨S_, .f32⟩
  | .hbm, ⟨80, _⟩ => ⟨S320000x256, .f32⟩
  | .hbm, ⟨81, _⟩ => ⟨S320000x256, .f32⟩
  | .hbm, ⟨82, _⟩ => ⟨S320000x256, .f32⟩
  | .hbm, ⟨83, _⟩ => ⟨S320000x256, .f32⟩
  | .hbm, ⟨84, _⟩ => ⟨S_, .f32⟩
  | .hbm, ⟨85, _⟩ => ⟨S20000x256, .f32⟩
  | .hbm, ⟨86, _⟩ => ⟨S320000x1, .i32⟩
  | .hbm, ⟨87, _⟩ => ⟨S20000x256, .f32⟩
  | .hbm, ⟨88, _⟩ => ⟨S_, .f32⟩
  | .hbm, ⟨89, _⟩ => ⟨S256, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S_, .i32⟩
  | .hbm, ⟨94, _⟩ => ⟨S_, .f32⟩
  | .hbm, ⟨95, _⟩ => ⟨S256, .f32⟩
  | .hbm, ⟨96, _⟩ => ⟨S1x256, .f32⟩
  | .hbm, ⟨97, _⟩ => ⟨S_, .f32⟩
  | .hbm, ⟨98, _⟩ => ⟨S1x256, .f32⟩
  | .hbm, ⟨99, _⟩ => ⟨S1x256, .f32⟩
  | .hbm, ⟨100, _⟩ => ⟨S20000x256, .f32⟩
  | .hbm, ⟨101, _⟩ => ⟨S20000x256, .f32⟩
  | .hbm, ⟨102, _⟩ => ⟨S20000x256, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S256, .f32⟩
  | .hbm, ⟨108, _⟩ => ⟨S256, .f32⟩
  | .hbm, ⟨109, _⟩ => ⟨S256, .f32⟩
  | .hbm, ⟨110, _⟩ => ⟨S_, .f32⟩
  | .hbm, ⟨111, _⟩ => ⟨S_, .i1⟩
  | .hbm, ⟨112, _⟩ => ⟨S_, .f32⟩
  | .hbm, ⟨113, _⟩ => ⟨S_, .f32⟩
  | .hbm, ⟨114, _⟩ => ⟨S256, .f32⟩
  | .hbm, ⟨115, _⟩ => ⟨S256, .f32⟩
  | .hbm, ⟨116, _⟩ => ⟨S_, .f32⟩
  | .hbm, ⟨117, _⟩ => ⟨S256, .f32⟩
  | .hbm, ⟨118, _⟩ => ⟨S256, .f32⟩
  | .hbm, ⟨119, _⟩ => ⟨S_, .f32⟩
  | .hbm, ⟨120, _⟩ => ⟨S256, .f32⟩
  | .hbm, ⟨121, _⟩ => ⟨S256, .f32⟩
  | .hbm, ⟨122, _⟩ => ⟨S256, .f32⟩
  | .hbm, ⟨123, _⟩ => ⟨S256, .f32⟩
  | .hbm, ⟨124, _⟩ => ⟨S256, .f32⟩
  | .hbm, ⟨125, _⟩ => ⟨S256, .f32⟩
  | .hbm, ⟨126, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S768x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S768x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S2000x256, .bf16⟩
  | .local _ .vmem, ⟨15, _⟩ => ⟨S2000x256, .bf16⟩
  | .local _ .vmem, ⟨16, _⟩ => ⟨S2000x256, .bf16⟩
  | .local _ .vmem, ⟨17, _⟩ => ⟨S2000x256, .bf16⟩
  | .local _ .vmem, ⟨18, _⟩ => ⟨S1x8x256, .f32⟩
  | .local _ .vmem, ⟨19, _⟩ => ⟨S1x8x256, .f32⟩
  | .local _ .vmem, ⟨20, _⟩ => ⟨S1x8x256, .f32⟩
  | .local _ .vmem, ⟨21, _⟩ => ⟨S1x8x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256, .f32⟩
  | .local _ .vmem, ⟨27, _⟩ => ⟨S256, .f32⟩
  | .local _ .vmem, ⟨28, _⟩ => ⟨S2000x256, .f32⟩
  | .local _ .vmem, ⟨29, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_cst_0 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_cst_1 : Ref sig .tc := ⟨.hbm, 104, rfl⟩
abbrev main_call0_v8 : Ref sig .tc := ⟨.hbm, 105, rfl⟩
abbrev main_call0_cst_2 : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_call0_cst_3 : Ref sig .tc := ⟨.hbm, 110, rfl⟩
abbrev main_call0_v12 : Ref sig .tc := ⟨.hbm, 111, rfl⟩
abbrev main_call0_cst_4 : Ref sig .tc := ⟨.hbm, 112, rfl⟩
abbrev main_call0_call0_v0 : Ref sig .tc := ⟨.hbm, 113, rfl⟩
abbrev main_call0_call0_v1 : Ref sig .tc := ⟨.hbm, 114, rfl⟩
abbrev main_v60 : Ref sig .tc := ⟨.hbm, 115, rfl⟩
abbrev main_cst_14 : Ref sig .tc := ⟨.hbm, 116, rfl⟩
abbrev main_v61 : Ref sig .tc := ⟨.hbm, 117, rfl⟩
abbrev main_v62 : Ref sig .tc := ⟨.hbm, 118, rfl⟩
abbrev main_cst_15 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem4_1 : DmaSem sig := 29

abbrev nD : Nat := 1
abbrev τ : Topo := Topo.v7x

variable {F : FTy → Type} [FloatOps F]

abbrev grid0 : Pipeline.Grid := ⟨2, ![2, 80], ![false, false]⟩

def cc0_transform_0 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2000x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2000x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  inb_S1x8x256_S1x8x256_0_0_0 : ∀ a, (![0, 0, 0] : Fin 3 → Nat) a + S1x8x256.size a ≤ S1x8x256.size a
  h_S1x8x256 : 0 < S1x8x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S768x256_S256x256_0_0 : ∀ a, (![0, 0] : Fin 2 → Nat) a + S256x256.size a ≤ S768x256.size a
  h_S256x256 : 0 < S256x256.numel
  inb_S768x256_S256x256_256_0 : ∀ a, (![256, 0] : Fin 2 → Nat) a + S256x256.size a ≤ S768x256.size a
  inb_S768x256_S256x256_512_0 : ∀ a, (![512, 0] : Fin 2 → Nat) a + S256x256.size a ≤ S768x256.size a
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  reduces_S2000x256_S256 : S2000x256.Reduces [0] S256
  shapeCasts_S1x8x256_S1x8x256 : S1x8x256.ShapeCasts S1x8x256
  shapeCasts_S1x256_S1x1x256 : S1x256.ShapeCasts S1x1x256
  shapeCasts_S1x1x256_S1x1x256 : S1x1x256.ShapeCasts S1x1x256
  broadcasts_S1x1x256_S1x8x256 : S1x1x256.Broadcasts S1x8x256
  packedbf16_S2000x256_S2000x256_0_0 : (Rect.unit (s := S2000x256) ![0, 0] S2000x256.size inb_S2000x256_S2000x256_0_0).PackedRows (EltTy.packing .bf16)
  slices_S2x8x256_S2x1x256_0_0_0 : S2x8x256.Slices ![0, 0, 0] S2x1x256
  shapeCasts_S2x1x256_S2x256 : S2x1x256.ShapeCasts S2x256
  reducesTo_S2x256_S256_d0 : S2x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S20000x256 : S_.BroadcastsInDim S20000x256 (![] : Fin 0 → Fin S20000x256.rank)
  reducesTo_S20000x256_S256_d0 : S20000x256.ReducesTo [0] S256
  bcast_S_S1x256 : S_.BroadcastsInDim S1x256 (![] : Fin 0 → Fin S1x256.rank)
  bcast_S1x256_S20000x256_0_1 : S1x256.BroadcastsInDim S20000x256 (![0, 1] : Fin 2 → Fin S20000x256.rank)
  shapeCasts_S256_S256 : S256.ShapeCasts S256
  gather_S20000x256_S320000x1_S320000x256_1_0_n_n_0_1_1256_wf : GatherDims.WF S20000x256 S320000x1 S320000x256 [1] [0] [] [0] [] 1 ![1, 256]
  dot_S2000x256_S256x256_S2000x256_1_0_0_1_n_n_wf : DotDims.WF S2000x256 S256x256 S2000x256 [1] [0] [0] [1] [] []
  scatter_S20000x256_S320000x1_S320000x256_1_0_0_1_wf : ScatterDims.WF S20000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S320000x256.size a
  hwx0_0 : ∀ i : grid0.Coords, EltTy.bits .f32 = 32 ∨ (Rect.block (s := S320000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S320000x256.size a
  hwx0_1 : ∀ i : grid0.Coords, EltTy.bits .f32 = 32 ∨ (Rect.block (s := S320000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S320000x256.size a
  hwx0_2 : ∀ i : grid0.Coords, EltTy.bits .f32 = 32 ∨ (Rect.block (s := S320000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x256.size a ≤ S768x256.size a
  hwx0_7 : ∀ i : grid0.Coords, EltTy.bits .f32 = 32 ∨ (Rect.block (s := S768x256) S768x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S320000x256.size a
  hwx0_11 : ∀ i : grid0.Coords, EltTy.bits .bf16 = 32 ∨ (Rect.block (s := S320000x256) S2000x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x256.size a ≤ S320000x256.size a
  hwx0_12 : ∀ i : grid0.Coords, EltTy.bits .bf16 = 32 ∨ (Rect.block (s := S320000x256) S2000x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x256.size a ≤ S2x8x256.size a
  hwx0_13 : ∀ i : grid0.Coords, EltTy.bits .f32 = 32 ∨ (Rect.block (s := S2x8x256) S1x8x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x8x256.size a ≤ S2x8x256.size a
  hwx0_14 : ∀ i : grid0.Coords, EltTy.bits .f32 = 32 ∨ (Rect.block (s := S2x8x256) S1x8x256.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

abbrev win0_0 : Pipeline.Window sig grid0 :=
  Pipeline.Window.ofSpec (Memref.whole main_v10) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S768x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18_0) S2000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v18_1) S2000x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v18_2) S1x8x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v18_3) S1x8x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000x256 : Shape := ⟨2, ![320000, 256]⟩
abbrev S768x256 : Shape := ⟨2, ![768, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x768 : Shape := ⟨2, ![320000, 768]⟩
abbrev S1x256 : Shape := ⟨2, ![1, 256]⟩

abbrev nBuf : Space → Nat
  | .hbm => 177
  | .vmem => 0
  | .smem => 0
  | _ => 0

abbrev hbmTy0_0 (i : Nat) : BufTy := match i % 128 with
  | 0 => ⟨S20000x256, .f32⟩
  | 1 => ⟨S2x320000, .i32⟩
  | 2 => ⟨S320000x256, .f32⟩
  | 3 => ⟨S768x256, .f32⟩
  | 4 => ⟨S256, .f32⟩
  | 5 => ⟨S256x256, .f32⟩
  | 6 => ⟨S256, .f32⟩
  | 7 => ⟨S768x256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S1x320000, .i32⟩
  | 16 => ⟨S320000, .i32⟩
  | 17 => ⟨S1x320000, .i32⟩
  | 18 => ⟨S320000, .i32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x256, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x256, .f32⟩
  | 37 => ⟨S320000x768, .f32⟩
  | 38 => ⟨S320000x256, .f32⟩
  | 39 => ⟨S1x256, .f32⟩
  | 40 => ⟨S320000x256, .f32⟩
  | 41 => ⟨S320000x256, .f32⟩
  | 42 => ⟨S320000x256, .f32⟩
  | 43 => ⟨S320000x256, .f32⟩
  | 44 => ⟨S_, .f32⟩
  | 45 => ⟨S320000x256, .f32⟩
  | 46 => ⟨S320000x256, .f32⟩
  | 47 => ⟨S_, .f32⟩
  | 48 => ⟨S320000x256, .f32⟩
  | 49 => ⟨S320000x256, .f32⟩
  | 50 => ⟨S320000x256, .f32⟩
  | 51 => ⟨S320000x256, .f32⟩
  | 52 => ⟨S1x256, .f32⟩
  | 53 => ⟨S320000x256, .f32⟩
  | 54 => ⟨S320000x256, .f32⟩
  | 55 => ⟨S_, .f32⟩
  | 56 => ⟨S256, .f32⟩
  | 57 => ⟨S_, .f32⟩
  | 58 => ⟨S256, .f32⟩
  | 59 => ⟨S256, .f32⟩
  | 60 => ⟨S_, .i32⟩
  | 61 => ⟨S_, .f32⟩
  | 62 => ⟨S256, .f32⟩
  | 63 => ⟨S1x256, .f32⟩
  | 64 => ⟨S_, .f32⟩
  | 65 => ⟨S1x256, .f32⟩
  | 66 => ⟨S1x256, .f32⟩
  | 67 => ⟨S320000x256, .f32⟩
  | 68 => ⟨S320000x256, .f32⟩
  | 69 => ⟨S320000x256, .f32⟩
  | 70 => ⟨S_, .f32⟩
  | 71 => ⟨S_, .f32⟩
  | 72 => ⟨S_, .f32⟩
  | 73 => ⟨S_, .f32⟩
  | 74 => ⟨S256, .f32⟩
  | 75 => ⟨S256, .f32⟩
  | 76 => ⟨S256, .f32⟩
  | 77 => ⟨S_, .f32⟩
  | 78 => ⟨S_, .i1⟩
  | 79 => ⟨S_, .f32⟩
  | 80 => ⟨S_, .f32⟩
  | 81 => ⟨S256, .f32⟩
  | 82 => ⟨S256, .f32⟩
  | 83 => ⟨S1x256, .f32⟩
  | 84 => ⟨S320000x256, .f32⟩
  | 85 => ⟨S320000x256, .f32⟩
  | 86 => ⟨S_, .f32⟩
  | 87 => ⟨S256, .f32⟩
  | 88 => ⟨S256, .f32⟩
  | 89 => ⟨S256, .f32⟩
  | 90 => ⟨S1x256, .f32⟩
  | 91 => ⟨S320000x256, .f32⟩
  | 92 => ⟨S320000x256, .f32⟩
  | 93 => ⟨S1x256, .f32⟩
  | 94 => ⟨S320000x256, .f32⟩
  | 95 => ⟨S320000x256, .f32⟩
  | 96 => ⟨S1x256, .f32⟩
  | 97 => ⟨S320000x256, .f32⟩
  | 98 => ⟨S320000x256, .f32⟩
  | 99 => ⟨S320000x256, .f32⟩
  | 100 => ⟨S320000x256, .f32⟩
  | 101 => ⟨S_, .f32⟩
  | 102 => ⟨S320000x256, .f32⟩
  | 103 => ⟨S320000x256, .f32⟩
  | 104 => ⟨S_, .f32⟩
  | 105 => ⟨S320000x256, .f32⟩
  | 106 => ⟨S320000x256, .f32⟩
  | 107 => ⟨S320000x256, .f32⟩
  | 108 => ⟨S1x256, .f32⟩
  | 109 => ⟨S320000x256, .f32⟩
  | 110 => ⟨S320000x256, .f32⟩
  | 111 => ⟨S320000x256, .f32⟩
  | 112 => ⟨S320000x256, .f32⟩
  | 113 => ⟨S_, .f32⟩
  | 114 => ⟨S320000x256, .f32⟩
  | 115 => ⟨S320000x256, .f32⟩
  | 116 => ⟨S_, .f32⟩
  | 117 => ⟨S320000x256, .f32⟩
  | 118 => ⟨S320000x256, .f32⟩
  | 119 => ⟨S320000x256, .f32⟩
  | 120 => ⟨S320000x256, .f32⟩
  | 121 => ⟨S1x256, .f32⟩
  | 122 => ⟨S320000x256, .f32⟩
  | 123 => ⟨S320000x256, .f32⟩
  | 124 => ⟨S320000x256, .f32⟩
  | 125 => ⟨S_, .f32⟩
  | 126 => ⟨S20000x256, .f32⟩
  | 127 => ⟨S320000x1, .i32⟩
  | _ => ⟨S20000x256, .f32⟩

abbrev hbmTy0_1 (i : Nat) : BufTy := match i % 128 with
  | 0 => ⟨S20000x256, .f32⟩
  | 1 => ⟨S_, .f32⟩
  | 2 => ⟨S256, .f32⟩
  | 3 => ⟨S_, .f32⟩
  | 4 => ⟨S256, .f32⟩
  | 5 => ⟨S256, .f32⟩
  | 6 => ⟨S_, .i32⟩
  | 7 => ⟨S_, .f32⟩
  | 8 => ⟨S256, .f32⟩
  | 9 => ⟨S1x256, .f32⟩
  | 10 => ⟨S_, .f32⟩
  | 11 => ⟨S1x256, .f32⟩
  | 12 => ⟨S1x256, .f32⟩
  | 13 => ⟨S20000x256, .f32⟩
  | 14 => ⟨S20000x256, .f32⟩
  | 15 => ⟨S20000x256, .f32⟩
  | 16 => ⟨S_, .f32⟩
  | 17 => ⟨S_, .f32⟩
  | 18 => ⟨S_, .f32⟩
  | 19 => ⟨S_, .f32⟩
  | 20 => ⟨S256, .f32⟩
  | 21 => ⟨S256, .f32⟩
  | 22 => ⟨S256, .f32⟩
  | 23 => ⟨S_, .f32⟩
  | 24 => ⟨S_, .i1⟩
  | 25 => ⟨S_, .f32⟩
  | 26 => ⟨S_, .f32⟩
  | 27 => ⟨S256, .f32⟩
  | 28 => ⟨S256, .f32⟩
  | 29 => ⟨S1x256, .f32⟩
  | 30 => ⟨S20000x256, .f32⟩
  | 31 => ⟨S20000x256, .f32⟩
  | 32 => ⟨S_, .f32⟩
  | 33 => ⟨S256, .f32⟩
  | 34 => ⟨S256, .f32⟩
  | 35 => ⟨S256, .f32⟩
  | 36 => ⟨S1x256, .f32⟩
  | 37 => ⟨S20000x256, .f32⟩
  | 38 => ⟨S20000x256, .f32⟩
  | 39 => ⟨S1x256, .f32⟩
  | 40 => ⟨S20000x256, .f32⟩
  | 41 => ⟨S20000x256, .f32⟩
  | 42 => ⟨S1x256, .f32⟩
  | 43 => ⟨S20000x256, .f32⟩
  | 44 => ⟨S20000x256, .f32⟩
  | 45 => ⟨S20000x256, .f32⟩
  | 46 => ⟨S_, .f32⟩
  | 47 => ⟨S20000x256, .f32⟩
  | 48 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_c_4 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_cst_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_cst_1 : Ref sig .tc := ⟨.hbm, 71, rfl⟩
abbrev main_call1_v8 : Ref sig .tc := ⟨.hbm, 72, rfl⟩
abbrev main_call1_cst_2 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_cst_3 : Ref sig .tc := ⟨.hbm, 77, rfl⟩
abbrev main_call1_v12 : Ref sig .tc := ⟨.hbm, 78, rfl⟩
abbrev main_call1_cst_4 : Ref sig .tc := ⟨.hbm, 79, rfl⟩
abbrev main_call1_call0_v0 : Ref sig .tc := ⟨.hbm, 80, rfl⟩
abbrev main_call1_call0_v1 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_5 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_6 : Ref sig .tc := ⟨.hbm, 101, rfl⟩
abbrev main_v49 : Ref sig .tc := ⟨.hbm, 102, rfl⟩
abbrev main_v50 : Ref sig .tc := ⟨.hbm, 103, rfl⟩
abbrev main_cst_7 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_8 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_cst_9 : Ref sig .tc := ⟨.hbm, 129, rfl⟩
abbrev main_v66 : Ref sig .tc := ⟨.hbm, 130, rfl⟩
abbrev main_cst_10 : Ref sig .tc := ⟨.hbm, 131, rfl⟩
abbrev main_v67 : Ref sig .tc := ⟨.hbm, 132, rfl⟩
abbrev main_v68 : Ref sig .tc := ⟨.hbm, 133, rfl⟩
abbrev main_c_11 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_cst_1 : Ref sig .tc := ⟨.hbm, 145, rfl⟩
abbrev main_call3_v8 : Ref sig .tc := ⟨.hbm, 146, rfl⟩
abbrev main_call3_cst_2 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_cst_3 : Ref sig .tc := ⟨.hbm, 151, rfl⟩
abbrev main_call3_v12 : Ref sig .tc := ⟨.hbm, 152, rfl⟩
abbrev main_call3_cst_4 : Ref sig .tc := ⟨.hbm, 153, rfl⟩
abbrev main_call3_call0_v0 : Ref sig .tc := ⟨.hbm, 154, rfl⟩
abbrev main_call3_call0_v1 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_cst_12 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_call4_cst : Ref sig .tc := ⟨.hbm, 174, rfl⟩
abbrev main_call4_v0 : Ref sig .tc := ⟨.hbm, 175, rfl⟩
abbrev main_v86 : Ref sig .tc := ⟨.hbm, 176, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x256_S320000x768_d1 : Shape.Concatenates [S320000x256, S320000x256, S320000x256] S320000x768 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  reducesTo_S320000x256_S256_d0 : S320000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S20000x256 : S_.BroadcastsInDim S20000x256 (![] : Fin 0 → Fin S20000x256.rank)
  reducesTo_S20000x256_S256_d0 : S20000x256.ReducesTo [0] S256
  bcast_S1x256_S20000x256_0_1 : S1x256.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  dot_S320000x768_S768x256_S320000x256_1_0_0_1_n_n_wf : DotDims.WF S320000x768 S768x256 S320000x256 [1] [0] [0] [1] [] []
  dot_S320000x256_S256x256_S320000x256_1_0_0_1_n_n_wf : DotDims.WF S320000x256 S256x256 S320000x256 [1] [0] [0] [1] [] []
  scatter_S20000x256_S320000x1_S320000x256_1_0_0_1_wf : ScatterDims.WF S20000x256 S320000x1 S320000x256 [1] [0] [0] 1

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x768_S768x256_S320000x256_1_0_0_1_n_n : DotDims S320000x768 S768x256 S320000x256 where
  lhsContracting := [1]
  rhsContracting := [0]
  lhsNonContracting := [0]
  rhsNonContracting := [1]
  lhsBatch := []
  rhsBatch := []
  wf := dot_S320000x768_S768x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

class Facts : Prop extends Facts₀ where

variable [Facts]
-- ==== Proof.KRun.lean ====
import proofs.«159511_j60833916780661_2_alg».proof.Proof.Gen.KernelIdeal.Frame
import Idealize.ShloMosaic.PureOps.Ideal

/-!
# The kernel program's run, with its result named

Every weakly fair execution of the program from a memory with zero counters ends, without a fault, in a state
whose result buffer holds the last region's output array — what its ten grid points wrote back — and whose
fifteen argument arrays are as launched.  The run is the chain of the program's six segments (three stretches
of host operations around two regions); the final thread state holds every unscoped buffer at the contents
after the last segment, and the result buffer is one of them.
-/

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with the result named: the result buffer ends at the contents after the last segment, the arguments
    end as launched. -/
theorem run_named : θ_run defs (onTc (τ := τ) (main (F := Ideal))) ⟨m, fun _ => 0, ρ⟩ (fun r => ∀ c : Dev nD,
      r.2.mem ((c.tc : Thread nD τ).loc main_v69) = Gen.W6 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W6 m ρ c) s')
      isplitl [Hh] <;> iassumption)
    (hQ := fun s h c =>
      ⟨h c _ (Gen.mem_uc main_v69 (by decide)),
       (h c _ (Gen.mem_uc main_arg0 (by decide))).trans (Gen.W6_main_arg0 m ρ c),
       (h c _ (Gen.mem_uc main_arg1 (by decide))).trans (Gen.W6_main_arg1 m ρ c),
       (h c _ (Gen.mem_uc main_arg2 (by decide))).trans (Gen.W6_main_arg2 m ρ c),
       (h c _ (Gen.mem_uc main_arg3 (by decide))).trans (Gen.W6_main_arg3 m ρ c),
       (h c _ (Gen.mem_uc main_arg4 (by decide))).trans (Gen.W6_main_arg4 m ρ c),
       (h c _ (Gen.mem_uc main_arg5 (by decide))).trans (Gen.W6_main_arg5 m ρ c),
       (h c _ (Gen.mem_uc main_arg6 (by decide))).trans (Gen.W6_main_arg6 m ρ c),
       (h c _ (Gen.mem_uc main_arg7 (by decide))).trans (Gen.W6_main_arg7 m ρ c),
       (h c _ (Gen.mem_uc main_arg8 (by decide))).trans (Gen.W6_main_arg8 m ρ c),
       (h c _ (Gen.mem_uc main_arg9 (by decide))).trans (Gen.W6_main_arg9 m ρ c),
       (h c _ (Gen.mem_uc main_arg10 (by decide))).trans (Gen.W6_main_arg10 m ρ c),
       (h c _ (Gen.mem_uc main_arg11 (by decide))).trans (Gen.W6_main_arg11 m ρ c),
       (h c _ (Gen.mem_uc main_arg12 (by decide))).trans (Gen.W6_main_arg12 m ρ c),
       (h c _ (Gen.mem_uc main_arg13 (by decide))).trans (Gen.W6_main_arg13 m ρ c),
       (h c _ (Gen.mem_uc main_arg14 (by decide))).trans (Gen.W6_main_arg14 m ρ c)⟩)

/-- The result buffer after the run is the last region's output array: window 4 of that region is the result
    buffer, and the region leaves each of its arrays at what its write-backs fold to. -/
theorem result_arr (c : Dev nD) :
    Gen.W6 m ρ c (Proc.devRef .tc main_v69) = (Gen.dat1 (Gen.V5 m ρ) c).arrAt 4 cfg1.N :=
  Gen.W6_arr m ρ c 4

end Cert.KernelIdeal.KValue

end
-- ==== Proof.RefStages.lean ====
import proofs.«159511_j60833916780661_2_alg».proof.Proof.Gen.ReferenceIdeal

noncomputable section

/-! The reference layer cut into named stages, each a pure function of earlier stages and of the
    argument arrays, over any float family: the edge gathers, the concatenation, the two-layer perceptron
    (used twice, with the gate's and the message's weights), the column statistics over the edge axis,
    the gate, the message, the scatter-add over target nodes, the column statistics over the node axis and
    the residual output. -/

namespace Cert.ReferenceIdeal.RefValue

open Cert.ReferenceIdeal Cert.ReferenceIdeal.Gen Idealize.ShloMosaic Idealize.SL.Sem

variable {F : FTy → Type} [FloatOps F]

/-! ## Edge ends and gathers -/

/-- The target node of every edge: row 1 of the edge index array. -/
def dstRow (ei : IVec S2x320000 32) : IVec S320000 32 :=
  shapeCast S320000 (extractStridedSlice S1x320000 ![1, 0] ei slices_S2x320000_S1x320000_1_0) shapeCasts_S1x320000_S320000

/-- The source node of every edge: row 0 of the edge index array. -/
def srcRow (ei : IVec S2x320000 32) : IVec S320000 32 :=
  shapeCast S320000 (extractStridedSlice S1x320000 ![0, 0] ei slices_S2x320000_S1x320000_0_0) shapeCasts_S1x320000_S320000

/-- A row of node numbers as a column of gather indices, a negative number wrapped by adding 20000. -/
def wrapIdx (r : IVec S320000 32) : IVec S320000x1 32 :=
  broadcastInDim S320000x1 ![0] bcast_S320000_S320000x1_0
    (select (cmpi .slt r (broadcastInDim S320000 ![] bcast_S_S320000 (constantI S_ 32 0#32)))
      (addi r (broadcastInDim S320000 ![] bcast_S_S320000 (constantI S_ 32 20000#32))) r)

/-- The node features at every edge's target. -/
def xd (x : FVec F S20000x256 .f32) (ei : IVec S2x320000 32) : FVec F S320000x256 .f32 :=
  Host.gather gather_S20000x256_S320000x1_S320000x256_1_0_n_n_0_1_1256 x (wrapIdx (dstRow ei))

/-- The node features at every edge's source. -/
def xs (x : FVec F S20000x256 .f32) (ei : IVec S2x320000 32) : FVec F S320000x256 .f32 :=
  Host.gather gather_S20000x256_S320000x1_S320000x256_1_0_n_n_0_1_1256 x (wrapIdx (srcRow ei))

/-- Target features, source features and edge attributes side by side: 768 columns per edge. -/
def hcat (a b c : FVec F S320000x256 .f32) : FVec F S320000x768 .f32 :=
  concatenate S320000x768 1 [⟨S320000x256, a⟩, ⟨S320000x256, b⟩, ⟨S320000x256, c⟩]
    concatenates_S320000x256_S320000x256_S320000x256_S320000x768_d1

/-! ## The perceptron -/

/-- A vector of 256 columns repeated on every edge row. -/
def rowBcastE (b : FVec F S256 .f32) : FVec F S320000x256 .f32 :=
  broadcastInDim S320000x256 ![0, 1] bcast_S1x256_S320000x256_0_1 (broadcastInDim S1x256 ![1] bcast_S256_S1x256_1 b)

/-- A vector of 256 columns repeated on every node row. -/
def rowBcastN (b : FVec F S256 .f32) : FVec F S20000x256 .f32 :=
  broadcastInDim S20000x256 ![0, 1] bcast_S1x256_S20000x256_0_1 (broadcastInDim S1x256 ![1] bcast_S256_S1x256_1 b)

/-- The constant one on the edge array. -/
def oneE : FVec F S320000x256 .f32 :=
  broadcastInDim S320000x256 ![] bcast_S_S320000x256 (constant S_ .f32 0x3F800000#32)

/-- `v · (1 / (1 + exp (−v)))`, entry by entry. -/
def silu (v : FVec F S320000x256 .f32) : FVec F S320000x256 .f32 :=
  mulf v (Host.divf oneE (addf oneE (Host.exp (Host.negf v))))

/-- `silu (h · W1 + b1) · W2 + b2`: the two-layer perceptron on every edge row. -/
def mlp (h : FVec F S320000x768 .f32) (W1 : FVec F S768x256 .f32) (b1 : FVec F S256 .f32) (W2 : FVec F S256x256 .f32) (b2 : FVec F S256 .f32) :
    FVec F S320000x256 .f32 :=
  addf (Host.dotGeneral dot_S320000x256_S256x256_S320000x256_1_0_0_1_n_n none
      (silu (addf (Host.dotGeneral dot_S320000x768_S768x256_S320000x256_1_0_0_1_n_n none h W1) (rowBcastE b1))) W2)
    (rowBcastE b2)

/-! ## Column statistics over the edge axis -/

/-- The sum of every column over the 320000 edges, from zero. -/
def colSumE (h : FVec F S320000x256 .f32) : FVec F S256 .f32 :=
  Host.reduceAdd h (constant S_ .f32 0x00000000#32) reducesTo_S320000x256_S256_d0 h_S_

/-- The column means over the edges: the column sums divided by 320000. -/
def mean1 (h : FVec F S320000x256 .f32) : FVec F S256 .f32 :=
  Host.divf (colSumE h) (broadcastInDim S256 ![] bcast_S_S256 (constant S_ .f32 0x489C4000#32))

/-- Every entry minus its column's mean (the mean computed once more, through a 1 × 256 row). -/
def centeredE (h : FVec F S320000x256 .f32) : FVec F S320000x256 .f32 :=
  subf h (broadcastInDim S320000x256 ![0, 1] bcast_S1x256_S320000x256_0_1
    (Host.divf (broadcastInDim S1x256 ![1] bcast_S256_S1x256_1 (colSumE h))
      (broadcastInDim S1x256 ![] bcast_S_S1x256 (constant S_ .f32 0x489C4000#32))))

/-- The variance's divisor: 320000 minus the (zero) degrees-of-freedom correction, a scalar. -/
def divisorE : FVec F S_ .f32 :=
  subf (constant S_ .f32 0x489C4000#32) (sitofp .f32 (constantI S_ 32 0#32))

/-- The biased column variances over the edges: the column sums of the squared centred entries divided by the
    divisor, where the divisor is positive (else the not-a-number literal). -/
def var1 (h : FVec F S320000x256 .f32) : FVec F S256 .f32 :=
  select (broadcastInDim S256 ![] bcast_S_S256 (cmpf .ogt (divisorE (F := F)) (constant S_ .f32 0x00000000#32)))
    (Host.divf (Host.reduceAdd (mulf (centeredE h) (centeredE h)) (constant S_ .f32 0x00000000#32) reducesTo_S320000x256_S256_d0 h_S_)
      (broadcastInDim S256 ![] bcast_S_S256 divisorE))
    (broadcastInDim S256 ![] bcast_S_S256 (constant S_ .f32 0x7FC00000#32))

/-! ## The gate and the message -/

/-- The batch-norm epsilon on 256 columns. -/
def epsV : FVec F S256 .f32 := broadcastInDim S256 ![] bcast_S_S256 (constant S_ .f32 0x3727C5AC#32)

/-- `(h − mean) · rsqrt (var + ε) · g + beta` on the edge array, the four vectors repeated on every row. -/
def bnE (h : FVec F S320000x256 .f32) (mean var g beta : FVec F S256 .f32) : FVec F S320000x256 .f32 :=
  addf (mulf (mulf (subf h (rowBcastE mean)) (rowBcastE (Host.rsqrt (addf var epsV)))) (rowBcastE g)) (rowBcastE beta)

/-- The gate: `1 / (1 + exp (−·))` of the normalized pre-activation. -/
def gate (h : FVec F S320000x256 .f32) (mean var g beta : FVec F S256 .f32) : FVec F S320000x256 .f32 :=
  Host.divf oneE (addf oneE (Host.exp (Host.negf (bnE h mean var g beta))))

/-- The message: the gate times the message perceptron of the same concatenated rows. -/
def msg (gt : FVec F S320000x256 .f32) (h : FVec F S320000x768 .f32) (W1 : FVec F S768x256 .f32) (b1 : FVec F S256 .f32) (W2 : FVec F S256x256 .f32) (b2 : FVec F S256 .f32) :
    FVec F S320000x256 .f32 :=
  mulf gt (mlp h W1 b1 W2 b2)

/-! ## Aggregation over target nodes and the output -/

/-- The messages added up per target node, from zero: row `n` is the sum of the edge rows whose target is `n`. -/
def agg (d : IVec S320000 32) (ms : FVec F S320000x256 .f32) : FVec F S20000x256 .f32 :=
  Host.scatterAdd scatter_S20000x256_S320000x1_S320000x256_1_0_0_1
    (broadcastInDim S20000x256 ![] bcast_S_S20000x256 (constant S_ .f32 0x00000000#32))
    (broadcastInDim S320000x1 ![0] bcast_S320000_S320000x1_0 d) ms

/-- The sum of every column over the 20000 nodes, from zero. -/
def colSumN (a : FVec F S20000x256 .f32) : FVec F S256 .f32 :=
  Host.reduceAdd a (constant S_ .f32 0x00000000#32) reducesTo_S20000x256_S256_d0 h_S_

/-- The column means over the nodes: the column sums divided by 20000. -/
def mean2 (a : FVec F S20000x256 .f32) : FVec F S256 .f32 :=
  Host.divf (colSumN a) (broadcastInDim S256 ![] bcast_S_S256 (constant S_ .f32 0x469C4000#32))

/-- Every entry minus its column's mean over the nodes. -/
def centeredN (a : FVec F S20000x256 .f32) : FVec F S20000x256 .f32 :=
  subf a (broadcastInDim S20000x256 ![0, 1] bcast_S1x256_S20000x256_0_1
    (Host.divf (broadcastInDim S1x256 ![1] bcast_S256_S1x256_1 (colSumN a))
      (broadcastInDim S1x256 ![] bcast_S_S1x256 (constant S_ .f32 0x469C4000#32))))

/-- The variance's divisor over the nodes: 20000 minus the (zero) correction. -/
def divisorN : FVec F S_ .f32 :=
  subf (constant S_ .f32 0x469C4000#32) (sitofp .f32 (constantI S_ 32 0#32))

/-- The biased column variances over the nodes. -/
def var2 (a : FVec F S20000x256 .f32) : FVec F S256 .f32 :=
  select (broadcastInDim S256 ![] bcast_S_S256 (cmpf .ogt (divisorN (F := F)) (constant S_ .f32 0x00000000#32)))
    (Host.divf (Host.reduceAdd (mulf (centeredN a) (centeredN a)) (constant S_ .f32 0x00000000#32) reducesTo_S20000x256_S256_d0 h_S_)
      (broadcastInDim S256 ![] bcast_S_S256 divisorN))
    (broadcastInDim S256 ![] bcast_S_S256 (constant S_ .f32 0x7FC00000#32))

/-- `(a − mean) · rsqrt (var + ε) · g + beta` on the node array. -/
def bnN (a : FVec F S20000x256 .f32) (mean var g beta : FVec F S256 .f32) : FVec F S20000x256 .f32 :=
  addf (mulf (mulf (subf a (rowBcastN mean)) (rowBcastN (Host.rsqrt (addf var epsV)))) (rowBcastN g)) (rowBcastN beta)

/-- The layer's output: the larger of zero and the node features plus the normalized aggregate. -/
def result (x a : FVec F S20000x256 .f32) (mean var g beta : FVec F S256 .f32) : FVec F S20000x256 .f32 :=
  maximumf (addf x (bnN a mean var g beta))
    (broadcastInDim S20000x256 ![] bcast_S_S20000x256 (constant S_ .f32 0x00000000#32))

/-! ## The stages composed over the fifteen arguments -/

/-- The concatenated edge rows of the arguments. -/
def hcatOf (x : FVec F S20000x256 .f32) (ei : IVec S2x320000 32) (ea : FVec F S320000x256 .f32) : FVec F S320000x768 .f32 :=
  hcat (xd x ei) (xs x ei) ea

/-- The gate's pre-activation of the arguments. -/
def gatePreOf (x : FVec F S20000x256 .f32) (ei : IVec S2x320000 32) (ea : FVec F S320000x256 .f32)
    (W1f : FVec F S768x256 .f32) (b1f : FVec F S256 .f32) (W2f : FVec F S256x256 .f32) (b2f : FVec F S256 .f32) : FVec F S320000x256 .f32 :=
  mlp (hcatOf x ei ea) W1f b1f W2f b2f

/-- The gate of the arguments. -/
def gateOf (x : FVec F S20000x256 .f32) (ei : IVec S2x320000 32) (ea : FVec F S320000x256 .f32)
    (W1f : FVec F S768x256 .f32) (b1f : FVec F S256 .f32) (W2f : FVec F S256x256 .f32) (b2f g_int beta_int : FVec F S256 .f32) : FVec F S320000x256 .f32 :=
  gate (gatePreOf x ei ea W1f b1f W2f b2f) (mean1 (gatePreOf x ei ea W1f b1f W2f b2f)) (var1 (gatePreOf x ei ea W1f b1f W2f b2f)) g_int beta_int

/-- The aggregate of the arguments. -/
def aggOf (x : FVec F S20000x256 .f32) (ei : IVec S2x320000 32) (ea : FVec F S320000x256 .f32)
    (W1f : FVec F S768x256 .f32) (b1f : FVec F S256 .f32) (W2f : FVec F S256x256 .f32) (b2f : FVec F S256 .f32)
    (W1m : FVec F S768x256 .f32) (b1m : FVec F S256 .f32) (W2m : FVec F S256x256 .f32) (b2m g_int beta_int : FVec F S256 .f32) : FVec F S20000x256 .f32 :=
  agg (dstRow ei) (msg (gateOf x ei ea W1f b1f W2f b2f g_int beta_int) (hcatOf x ei ea) W1m b1m W2m b2m)

/-- The reference's result as one function of its fifteen arguments. -/
def out (x : FVec F S20000x256 .f32) (ei : IVec S2x320000 32) (ea : FVec F S320000x256 .f32)
    (W1f : FVec F S768x256 .f32) (b1f : FVec F S256 .f32) (W2f : FVec F S256x256 .f32) (b2f : FVec F S256 .f32)
    (W1m : FVec F S768x256 .f32) (b1m : FVec F S256 .f32) (W2m : FVec F S256x256 .f32) (b2m g_int beta_int g_bn beta_bn : FVec F S256 .f32) : FVec F S20000x256 .f32 :=
  result x (aggOf x ei ea W1f b1f W2f b2f W1m b1m W2m b2m g_int beta_int)
    (mean2 (aggOf x ei ea W1f b1f W2f b2f W1m b1m W2m b2m g_int beta_int))
    (var2 (aggOf x ei ea W1f b1f W2f b2f W1m b1m W2m b2m g_int beta_int)) g_bn beta_bn

end Cert.ReferenceIdeal.RefValue

end
-- ==== Proof.RefRun.lean ====
import proofs.«159511_j60833916780661_2_alg».proof.Proof.RefStages
import Idealize.ShloMosaic.Lib.StableHlo.Run
import proofs.«159511_j60833916780661_2_alg».proof.Defs
import proofs.«159511_j60833916780661_2_alg».proof.Proof.Gen.Pre_finite_inputs

noncomputable section

/-! The reference program's @main as a list of its 162 host operations (the outlined functions' operations
    listed at their call sites, over the calls' own buffers), cut into eight consecutive windows, one per
    stage of the layer; what each window leaves in the buffers later windows read, as the stage functions
    of what it found; and the run: every weakly fair execution terminates with the result buffer at the
    composed stages of the fifteen arguments, the arguments unchanged. -/

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Folding two lists of operations one after the other is folding their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Window 0: the two rows of edge ends, wrapped, and the two gathers (22 operations). -/
abbrev W0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v3 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 20000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v3 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v3 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_arg0 main_v9 main_v10 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_c_1 (constantI S_ 32 0#32),
    StableHlo.unary main_c_1 main_v11 (broadcastInDim S320000 ![] bcast_S_S320000 : (⟨S_, .i32⟩ : BufTy).Contents (Elt F) → (⟨S320000, .i32⟩ : BufTy).Contents (Elt F)),
    StableHlo.binary main_v1 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 20000#32),
    StableHlo.unary main_c_2 main_v13 (broadcastInDim S320000 ![] bcast_S_S320000 : (⟨S_, .i32⟩ : BufTy).Contents (Elt F) → (⟨S320000, .i32⟩ : BufTy).Contents (Elt F)),
    StableHlo.binary main_v1 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v1 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_arg0 main_v16 main_v17 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

/-- Window 1: the concatenation and the gate's perceptron (18 operations). -/
abbrev W1 : List (HloOp τ sig (Elt F)) :=
  [ StableHlo.nary ![main_v10, main_v17, main_arg2] main_v18 (fun u => concatenate S320000x768 1 [⟨S320000x256, u 0⟩, ⟨S320000x256, u 1⟩, ⟨S320000x256, u 2⟩] concatenates_S320000x256_S320000x256_S320000x256_S320000x768_d1),
    StableHlo.binary main_v18 main_arg3 main_v19 ((fun l r => Host.dotGeneral dot_S320000x768_S768x256_S320000x256_1_0_0_1_n_n none l r) : (⟨S320000x768, .f32⟩ : BufTy).Contents (Elt F) → (⟨S768x256, .f32⟩ : BufTy).Contents (Elt F) → (⟨S320000x256, .f32⟩ : BufTy).Contents (Elt F)),
    StableHlo.unary main_arg4 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S320000x256 ![0, 1] bcast_S1x256_S320000x256_0_1 : (⟨S1x256, .f32⟩ : BufTy).Contents (Elt F) → (⟨S320000x256, .f32⟩ : BufTy).Contents (Elt F)),
    StableHlo.binary main_v19 main_v21 main_v22 (addf : (⟨S320000x256, .f32⟩ : BufTy).Contents (Elt F) → (⟨S320000x256, .f32⟩ : BufTy).Contents (Elt F) → (⟨S320000x256, .f32⟩ : BufTy).Contents (Elt F)),
    StableHlo.unary main_v22 main_call0_v0 (Host.negf : (⟨S320000x256, .f32⟩ : BufTy).Contents (Elt F) → (⟨S320000x256, .f32⟩ : BufTy).Contents (Elt F)),
    StableHlo.unary main_call0_v0 main_call0_v1 (Host.exp : (⟨S320000x256, .f32⟩ : BufTy).Contents (Elt F) → (⟨S320000x256, .f32⟩ : BufTy).Contents (Elt F)),
    StableHlo.nullary main_call0_cst (constant S_ .f32 0x3F800000#32),
    StableHlo.unary main_call0_cst main_call0_v2 ((broadcastInDim S320000x256 ![] bcast_S_S320000x256) : (⟨S_, .f32⟩ : BufTy).Contents (Elt F) → (⟨S320000x256, .f32⟩ : BufTy).Contents (Elt F)),
    StableHlo.binary main_call0_v2 main_call0_v1 main_call0_v3 (addf : (⟨S320000x256, .f32⟩ : BufTy).Contents (Elt F) → (⟨S320000x256, .f32⟩ : BufTy).Contents (Elt F) → (⟨S320000x256, .f32⟩ : BufTy).Contents (Elt F)),
    StableHlo.nullary main_call0_cst_0 (constant S_ .f32 0x3F800000#32),
    StableHlo.unary main_call0_cst_0 main_call0_v4 ((broadcastInDim S320000x256 ![] bcast_S_S320000x256) : (⟨S_, .f32⟩ : BufTy).Contents (Elt F) → (⟨S320000x256, .f32⟩ : BufTy).Contents (Elt F)),
    StableHlo.binary main_call0_v4 main_call0_v3 main_call0_v5 (Host.divf : (⟨S320000x256, .f32⟩ : BufTy).Contents (Elt F) → (⟨S320000x256, .f32⟩ : BufTy).Contents (Elt F) → (⟨S320000x256, .f32⟩ : BufTy).Contents (Elt F)),
    StableHlo.binary main_v22 main_call0_v5 main_v23 (mulf : (⟨S320000x256, .f32⟩ : BufTy).Contents (Elt F) → (⟨S320000x256, .f32⟩ : BufTy).Contents (Elt F) → (⟨S320000x256, .f32⟩ : BufTy).Contents (Elt F)),
    StableHlo.binary main_v23 main_arg5 main_v24 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.unary main_arg6 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S320000x256 ![0, 1] bcast_S1x256_S320000x256_0_1 : (⟨S1x256, .f32⟩ : BufTy).Contents (Elt F) → (⟨S320000x256, .f32⟩ : BufTy).Contents (Elt F)),
    StableHlo.binary main_v24 main_v26 main_v27 (addf : (⟨S320000x256, .f32⟩ : BufTy).Contents (Elt F) → (⟨S320000x256, .f32⟩ : BufTy).Contents (Elt F) → (⟨S320000x256, .f32⟩ : BufTy).Contents (Elt F)) ]

/-- Window 2: the column statistics over the edges (28 operations). -/
abbrev W2 : List (HloOp τ sig (Elt F)) :=
  [ StableHlo.nullary main_cst (constant S_ .f32 0x00000000#32),
    StableHlo.binary main_v27 main_cst main_v28 ((fun x v => Host.reduceAdd x v reducesTo_S320000x256_S256_d0 h_S_) : (⟨S320000x256, .f32⟩ : BufTy).Contents (Elt F) → (⟨S_, .f32⟩ : BufTy).Contents (Elt F) → (⟨S256, .f32⟩ : BufTy).Contents (Elt F)),
    StableHlo.nullary main_cst_3 (constant S_ .f32 0x489C4000#32),
    StableHlo.unary main_cst_3 main_v29 (broadcastInDim S256 ![] bcast_S_S256 : (⟨S_, .f32⟩ : BufTy).Contents (Elt F) → (⟨S256, .f32⟩ : BufTy).Contents (Elt F)),
    StableHlo.binary main_v28 main_v29 main_v30 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.nullary main_call1_cst (constant S_ .f32 0x00000000#32),
    StableHlo.binary main_v27 main_call1_cst main_call1_v0 ((fun x v => Host.reduceAdd x v reducesTo_S320000x256_S256_d0 h_S_) : (⟨S320000x256, .f32⟩ : BufTy).Contents (Elt F) → (⟨S_, .f32⟩ : BufTy).Contents (Elt F) → (⟨S256, .f32⟩ : BufTy).Contents (Elt F)),
    StableHlo.unary main_call1_v0 main_call1_v1 ((broadcastInDim S1x256 ![1] bcast_S256_S1x256_1) : (⟨S256, .f32⟩ : BufTy).Contents (Elt F) → (⟨S1x256, .f32⟩ : BufTy).Contents (Elt F)),
    StableHlo.nullary main_call1_cst_0 (constant S_ .f32 0x489C4000#32),
    StableHlo.unary main_call1_cst_0 main_call1_v2 ((broadcastInDim S1x256 ![] bcast_S_S1x256) : (⟨S_, .f32⟩ : BufTy).Contents (Elt F) → (⟨S1x256, .f32⟩ : BufTy).Contents (Elt F)),
    StableHlo.binary main_call1_v1 main_call1_v2 main_call1_v3 (Host.divf : (⟨S1x256, .f32⟩ : BufTy).Contents (Elt F) → (⟨S1x256, .f32⟩ : BufTy).Contents (Elt F) → (⟨S1x256, .f32⟩ : BufTy).Contents (Elt F)),
    StableHlo.unary main_call1_v3 main_call1_v4 ((broadcastInDim S320000x256 ![0, 1] bcast_S1x256_S320000x256_0_1) : (⟨S1x256, .f32⟩ : BufTy).Contents (Elt F) → (⟨S320000x256, .f32⟩ : BufTy).Contents (Elt F)),
    StableHlo.binary main_v27 main_call1_v4 main_call1_v5 (subf : (⟨S320000x256, .f32⟩ : BufTy).Contents (Elt F) → (⟨S320000x256, .f32⟩ : BufTy).Contents (Elt F) → (⟨S320000x256, .f32⟩ : BufTy).Contents (Elt F)),
    StableHlo.binary main_call1_v5 main_call1_v5 main_call1_v6 (mulf : (⟨S320000x256, .f32⟩ : BufTy).Contents (Elt F) → (⟨S320000x256, .f32⟩ : BufTy).Contents (Elt F) → (⟨S320000x256, .f32⟩ : BufTy).Contents (Elt F)),
    StableHlo.unary main_c_4 main_call1_v7 ((sitofp .f32) : (⟨S_, .i32⟩ : BufTy).Contents (Elt F) → (⟨S_, .f32⟩ : BufTy).Contents (Elt F)),
    StableHlo.nullary main_call1_cst_1 (constant S_ .f32 0x489C4000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S320000x256_S256_d0 h_S_) : (⟨S320000x256, .f32⟩ : BufTy).Contents (Elt F) → (⟨S_, .f32⟩ : BufTy).Contents (Elt F) → (⟨S256, .f32⟩ : BufTy).Contents (Elt F)),
    StableHlo.unary main_call1_v8 main_call1_v10 ((broadcastInDim S256 ![] bcast_S_S256) : (⟨S_, .f32⟩ : BufTy).Contents (Elt F) → (⟨S256, .f32⟩ : BufTy).Contents (Elt F)),
    StableHlo.binary main_call1_v9 main_call1_v10 main_call1_v11 (Host.divf : (⟨S256, .f32⟩ : BufTy).Contents (Elt F) → (⟨S256, .f32⟩ : BufTy).Contents (Elt F) → (⟨S256, .f32⟩ : BufTy).Contents (Elt F)),
    StableHlo.nullary main_call1_cst_3 (constant S_ .f32 0x00000000#32),
    StableHlo.binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 ((broadcastInDim S256 ![] bcast_S_S256) : (⟨S_, .f32⟩ : BufTy).Contents (Elt F) → (⟨S256, .f32⟩ : BufTy).Contents (Elt F)),
    StableHlo.ternary main_call1_v12 main_call1_v11 main_call1_call0_v1 main_v31 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)) ]

/-- Window 3: the gate (24 operations). -/
abbrev W3 : List (HloOp τ sig (Elt F)) :=
  [ StableHlo.unary main_v30 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S320000x256 ![0, 1] bcast_S1x256_S320000x256_0_1 : (⟨S1x256, .f32⟩ : BufTy).Contents (Elt F) → (⟨S320000x256, .f32⟩ : BufTy).Contents (Elt F)),
    StableHlo.binary main_v27 main_v33 main_v34 (subf : (⟨S320000x256, .f32⟩ : BufTy).Contents (Elt F) → (⟨S320000x256, .f32⟩ : BufTy).Contents (Elt F) → (⟨S320000x256, .f32⟩ : BufTy).Contents (Elt F)),
    StableHlo.nullary main_cst_5 (constant S_ .f32 0x3727C5AC#32),
    StableHlo.unary main_cst_5 main_v35 (broadcastInDim S256 ![] bcast_S_S256 : (⟨S_, .f32⟩ : BufTy).Contents (Elt F) → (⟨S256, .f32⟩ : BufTy).Contents (Elt F)),
    StableHlo.binary main_v31 main_v35 main_v36 (addf : (⟨S256, .f32⟩ : BufTy).Contents (Elt F) → (⟨S256, .f32⟩ : BufTy).Contents (Elt F) → (⟨S256, .f32⟩ : BufTy).Contents (Elt F)),
    StableHlo.unary main_v36 main_v37 (Host.rsqrt : (⟨S256, .f32⟩ : BufTy).Contents (Elt F) → (⟨S256, .f32⟩ : BufTy).Contents (Elt F)),
    StableHlo.unary main_v37 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S320000x256 ![0, 1] bcast_S1x256_S320000x256_0_1 : (⟨S1x256, .f32⟩ : BufTy).Contents (Elt F) → (⟨S320000x256, .f32⟩ : BufTy).Contents (Elt F)),
    StableHlo.binary main_v34 main_v39 main_v40 (mulf : (⟨S320000x256, .f32⟩ : BufTy).Contents (Elt F) → (⟨S320000x256, .f32⟩ : BufTy).Contents (Elt F) → (⟨S320000x256, .f32⟩ : BufTy).Contents (Elt F)),
    StableHlo.unary main_arg11 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S320000x256 ![0, 1] bcast_S1x256_S320000x256_0_1 : (⟨S1x256, .f32⟩ : BufTy).Contents (Elt F) → (⟨S320000x256, .f32⟩ : BufTy).Contents (Elt F)),
    StableHlo.binary main_v40 main_v42 main_v43 (mulf : (⟨S320000x256, .f32⟩ : BufTy).Contents (Elt F) → (⟨S320000x256, .f32⟩ : BufTy).Contents (Elt F) → (⟨S320000x256, .f32⟩ : BufTy).Contents (Elt F)),
    StableHlo.unary main_arg12 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S320000x256 ![0, 1] bcast_S1x256_S320000x256_0_1 : (⟨S1x256, .f32⟩ : BufTy).Contents (Elt F) → (⟨S320000x256, .f32⟩ : BufTy).Contents (Elt F)),
    StableHlo.binary main_v43 main_v45 main_v46 (addf : (⟨S320000x256, .f32⟩ : BufTy).Contents (Elt F) → (⟨S320000x256, .f32⟩ : BufTy).Contents (Elt F) → (⟨S320000x256, .f32⟩ : BufTy).Contents (Elt F)),
    StableHlo.unary main_v46 main_v47 (Host.negf : (⟨S320000x256, .f32⟩ : BufTy).Contents (Elt F) → (⟨S320000x256, .f32⟩ : BufTy).Contents (Elt F)),
    StableHlo.unary main_v47 main_v48 (Host.exp : (⟨S320000x256, .f32⟩ : BufTy).Contents (Elt F) → (⟨S320000x256, .f32⟩ : BufTy).Contents (Elt F)),
    StableHlo.nullary main_cst_6 (constant S_ .f32 0x3F800000#32),
    StableHlo.unary main_cst_6 main_v49 (broadcastInDim S320000x256 ![] bcast_S_S320000x256 : (⟨S_, .f32⟩ : BufTy).Contents (Elt F) → (⟨S320000x256, .f32⟩ : BufTy).Contents (Elt F)),
    StableHlo.binary main_v49 main_v48 main_v50 (addf : (⟨S320000x256, .f32⟩ : BufTy).Contents (Elt F) → (⟨S320000x256, .f32⟩ : BufTy).Contents (Elt F) → (⟨S320000x256, .f32⟩ : BufTy).Contents (Elt F)),
    StableHlo.nullary main_cst_7 (constant S_ .f32 0x3F800000#32),
    StableHlo.unary main_cst_7 main_v51 (broadcastInDim S320000x256 ![] bcast_S_S320000x256 : (⟨S_, .f32⟩ : BufTy).Contents (Elt F) → (⟨S320000x256, .f32⟩ : BufTy).Contents (Elt F)),
    StableHlo.binary main_v51 main_v50 main_v52 (Host.divf : (⟨S320000x256, .f32⟩ : BufTy).Contents (Elt F) → (⟨S320000x256, .f32⟩ : BufTy).Contents (Elt F) → (⟨S320000x256, .f32⟩ : BufTy).Contents (Elt F)) ]

/-- Window 4: the message perceptron and the message (18 operations). -/
abbrev W4 : List (HloOp τ sig (Elt F)) :=
  [ StableHlo.binary main_v18 main_arg7 main_v53 ((fun l r => Host.dotGeneral dot_S320000x768_S768x256_S320000x256_1_0_0_1_n_n none l r) : (⟨S320000x768, .f32⟩ : BufTy).Contents (Elt F) → (⟨S768x256, .f32⟩ : BufTy).Contents (Elt F) → (⟨S320000x256, .f32⟩ : BufTy).Contents (Elt F)),
    StableHlo.unary main_arg8 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S320000x256 ![0, 1] bcast_S1x256_S320000x256_0_1 : (⟨S1x256, .f32⟩ : BufTy).Contents (Elt F) → (⟨S320000x256, .f32⟩ : BufTy).Contents (Elt F)),
    StableHlo.binary main_v53 main_v55 main_v56 (addf : (⟨S320000x256, .f32⟩ : BufTy).Contents (Elt F) → (⟨S320000x256, .f32⟩ : BufTy).Contents (Elt F) → (⟨S320000x256, .f32⟩ : BufTy).Contents (Elt F)),
    StableHlo.unary main_v56 main_call2_v0 (Host.negf : (⟨S320000x256, .f32⟩ : BufTy).Contents (Elt F) → (⟨S320000x256, .f32⟩ : BufTy).Contents (Elt F)),
    StableHlo.unary main_call2_v0 main_call2_v1 (Host.exp : (⟨S320000x256, .f32⟩ : BufTy).Contents (Elt F) → (⟨S320000x256, .f32⟩ : BufTy).Contents (Elt F)),
    StableHlo.nullary main_call2_cst (constant S_ .f32 0x3F800000#32),
    StableHlo.unary main_call2_cst main_call2_v2 ((broadcastInDim S320000x256 ![] bcast_S_S320000x256) : (⟨S_, .f32⟩ : BufTy).Contents (Elt F) → (⟨S320000x256, .f32⟩ : BufTy).Contents (Elt F)),
    StableHlo.binary main_call2_v2 main_call2_v1 main_call2_v3 (addf : (⟨S320000x256, .f32⟩ : BufTy).Contents (Elt F) → (⟨S320000x256, .f32⟩ : BufTy).Contents (Elt F) → (⟨S320000x256, .f32⟩ : BufTy).Contents (Elt F)),
    StableHlo.nullary main_call2_cst_0 (constant S_ .f32 0x3F800000#32),
    StableHlo.unary main_call2_cst_0 main_call2_v4 ((broadcastInDim S320000x256 ![] bcast_S_S320000x256) : (⟨S_, .f32⟩ : BufTy).Contents (Elt F) → (⟨S320000x256, .f32⟩ : BufTy).Contents (Elt F)),
    StableHlo.binary main_call2_v4 main_call2_v3 main_call2_v5 (Host.divf : (⟨S320000x256, .f32⟩ : BufTy).Contents (Elt F) → (⟨S320000x256, .f32⟩ : BufTy).Contents (Elt F) → (⟨S320000x256, .f32⟩ : BufTy).Contents (Elt F)),
    StableHlo.binary main_v56 main_call2_v5 main_v57 (mulf : (⟨S320000x256, .f32⟩ : BufTy).Contents (Elt F) → (⟨S320000x256, .f32⟩ : BufTy).Contents (Elt F) → (⟨S320000x256, .f32⟩ : BufTy).Contents (Elt F)),
    StableHlo.binary main_v57 main_arg9 main_v58 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.unary main_arg10 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S320000x256 ![0, 1] bcast_S1x256_S320000x256_0_1 : (⟨S1x256, .f32⟩ : BufTy).Contents (Elt F) → (⟨S320000x256, .f32⟩ : BufTy).Contents (Elt F)),
    StableHlo.binary main_v58 main_v60 main_v61 (addf : (⟨S320000x256, .f32⟩ : BufTy).Contents (Elt F) → (⟨S320000x256, .f32⟩ : BufTy).Contents (Elt F) → (⟨S320000x256, .f32⟩ : BufTy).Contents (Elt F)),
    StableHlo.binary main_v52 main_v61 main_v62 (mulf : (⟨S320000x256, .f32⟩ : BufTy).Contents (Elt F) → (⟨S320000x256, .f32⟩ : BufTy).Contents (Elt F) → (⟨S320000x256, .f32⟩ : BufTy).Contents (Elt F)) ]

/-- Window 5: the scatter-add over target nodes (4 operations). -/
abbrev W5 : List (HloOp τ sig (Elt F)) :=
  [ StableHlo.nullary main_cst_8 (constant S_ .f32 0x00000000#32),
    StableHlo.unary main_cst_8 main_v63 (broadcastInDim S20000x256 ![] bcast_S_S20000x256 : (⟨S_, .f32⟩ : BufTy).Contents (Elt F) → (⟨S20000x256, .f32⟩ : BufTy).Contents (Elt F)),
    StableHlo.unary main_v3 main_v64 (broadcastInDim S320000x1 ![0] bcast_S320000_S320000x1_0 : (⟨S320000, .i32⟩ : BufTy).Contents (Elt F) → (⟨S320000x1, .i32⟩ : BufTy).Contents (Elt F)),
    StableHlo.ternary main_v63 main_v64 main_v62 main_v65 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- Window 6: the column statistics over the nodes (28 operations). -/
abbrev W6 : List (HloOp τ sig (Elt F)) :=
  [ StableHlo.nullary main_cst_9 (constant S_ .f32 0x00000000#32),
    StableHlo.binary main_v65 main_cst_9 main_v66 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_10 (constant S_ .f32 0x469C4000#32),
    StableHlo.unary main_cst_10 main_v67 (broadcastInDim S256 ![] bcast_S_S256 : (⟨S_, .f32⟩ : BufTy).Contents (Elt F) → (⟨S256, .f32⟩ : BufTy).Contents (Elt F)),
    StableHlo.binary main_v66 main_v67 main_v68 (Host.divf : (⟨S256, .f32⟩ : BufTy).Contents (Elt F) → (⟨S256, .f32⟩ : BufTy).Contents (Elt F) → (⟨S256, .f32⟩ : BufTy).Contents (Elt F)),
    StableHlo.nullary main_c_11 (constantI S_ 32 0#32),
    StableHlo.nullary main_call3_cst (constant S_ .f32 0x00000000#32),
    StableHlo.binary main_v65 main_call3_cst main_call3_v0 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.unary main_call3_v0 main_call3_v1 ((broadcastInDim S1x256 ![1] bcast_S256_S1x256_1) : (⟨S256, .f32⟩ : BufTy).Contents (Elt F) → (⟨S1x256, .f32⟩ : BufTy).Contents (Elt F)),
    StableHlo.nullary main_call3_cst_0 (constant S_ .f32 0x469C4000#32),
    StableHlo.unary main_call3_cst_0 main_call3_v2 ((broadcastInDim S1x256 ![] bcast_S_S1x256) : (⟨S_, .f32⟩ : BufTy).Contents (Elt F) → (⟨S1x256, .f32⟩ : BufTy).Contents (Elt F)),
    StableHlo.binary main_call3_v1 main_call3_v2 main_call3_v3 (Host.divf : (⟨S1x256, .f32⟩ : BufTy).Contents (Elt F) → (⟨S1x256, .f32⟩ : BufTy).Contents (Elt F) → (⟨S1x256, .f32⟩ : BufTy).Contents (Elt F)),
    StableHlo.unary main_call3_v3 main_call3_v4 ((broadcastInDim S20000x256 ![0, 1] bcast_S1x256_S20000x256_0_1) : (⟨S1x256, .f32⟩ : BufTy).Contents (Elt F) → (⟨S20000x256, .f32⟩ : BufTy).Contents (Elt F)),
    StableHlo.binary main_v65 main_call3_v4 main_call3_v5 (subf : (⟨S20000x256, .f32⟩ : BufTy).Contents (Elt F) → (⟨S20000x256, .f32⟩ : BufTy).Contents (Elt F) → (⟨S20000x256, .f32⟩ : BufTy).Contents (Elt F)),
    StableHlo.binary main_call3_v5 main_call3_v5 main_call3_v6 (mulf : (⟨S20000x256, .f32⟩ : BufTy).Contents (Elt F) → (⟨S20000x256, .f32⟩ : BufTy).Contents (Elt F) → (⟨S20000x256, .f32⟩ : BufTy).Contents (Elt F)),
    StableHlo.unary main_c_11 main_call3_v7 ((sitofp .f32) : (⟨S_, .i32⟩ : BufTy).Contents (Elt F) → (⟨S_, .f32⟩ : BufTy).Contents (Elt F)),
    StableHlo.nullary main_call3_cst_1 (constant S_ .f32 0x469C4000#32),
    StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.unary main_call3_v8 main_call3_v10 ((broadcastInDim S256 ![] bcast_S_S256) : (⟨S_, .f32⟩ : BufTy).Contents (Elt F) → (⟨S256, .f32⟩ : BufTy).Contents (Elt F)),
    StableHlo.binary main_call3_v9 main_call3_v10 main_call3_v11 (Host.divf : (⟨S256, .f32⟩ : BufTy).Contents (Elt F) → (⟨S256, .f32⟩ : BufTy).Contents (Elt F) → (⟨S256, .f32⟩ : BufTy).Contents (Elt F)),
    StableHlo.nullary main_call3_cst_3 (constant S_ .f32 0x00000000#32),
    StableHlo.binary main_call3_v8 main_call3_cst_3 main_call3_v12 ((cmpf .ogt) : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 (id : (⟨S_, .f32⟩ : BufTy).Contents (Elt F) → (⟨S_, .f32⟩ : BufTy).Contents (Elt F)),
    StableHlo.unary main_call3_call0_v0 main_call3_call0_v1 ((broadcastInDim S256 ![] bcast_S_S256) : (⟨S_, .f32⟩ : BufTy).Contents (Elt F) → (⟨S256, .f32⟩ : BufTy).Contents (Elt F)),
    StableHlo.ternary main_call3_v12 main_call3_v11 main_call3_call0_v1 main_v69 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)) ]

/-- Window 7: the normalized residual output (20 operations). -/
abbrev W7 : List (HloOp τ sig (Elt F)) :=
  [ StableHlo.unary main_v68 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S20000x256 ![0, 1] bcast_S1x256_S20000x256_0_1 : (⟨S1x256, .f32⟩ : BufTy).Contents (Elt F) → (⟨S20000x256, .f32⟩ : BufTy).Contents (Elt F)),
    StableHlo.binary main_v65 main_v71 main_v72 (subf : (⟨S20000x256, .f32⟩ : BufTy).Contents (Elt F) → (⟨S20000x256, .f32⟩ : BufTy).Contents (Elt F) → (⟨S20000x256, .f32⟩ : BufTy).Contents (Elt F)),
    StableHlo.nullary main_cst_12 (constant S_ .f32 0x3727C5AC#32),
    StableHlo.unary main_cst_12 main_v73 (broadcastInDim S256 ![] bcast_S_S256 : (⟨S_, .f32⟩ : BufTy).Contents (Elt F) → (⟨S256, .f32⟩ : BufTy).Contents (Elt F)),
    StableHlo.binary main_v69 main_v73 main_v74 (addf : (⟨S256, .f32⟩ : BufTy).Contents (Elt F) → (⟨S256, .f32⟩ : BufTy).Contents (Elt F) → (⟨S256, .f32⟩ : BufTy).Contents (Elt F)),
    StableHlo.unary main_v74 main_v75 (Host.rsqrt : (⟨S256, .f32⟩ : BufTy).Contents (Elt F) → (⟨S256, .f32⟩ : BufTy).Contents (Elt F)),
    StableHlo.unary main_v75 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S20000x256 ![0, 1] bcast_S1x256_S20000x256_0_1 : (⟨S1x256, .f32⟩ : BufTy).Contents (Elt F) → (⟨S20000x256, .f32⟩ : BufTy).Contents (Elt F)),
    StableHlo.binary main_v72 main_v77 main_v78 (mulf : (⟨S20000x256, .f32⟩ : BufTy).Contents (Elt F) → (⟨S20000x256, .f32⟩ : BufTy).Contents (Elt F) → (⟨S20000x256, .f32⟩ : BufTy).Contents (Elt F)),
    StableHlo.unary main_arg13 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S20000x256 ![0, 1] bcast_S1x256_S20000x256_0_1 : (⟨S1x256, .f32⟩ : BufTy).Contents (Elt F) → (⟨S20000x256, .f32⟩ : BufTy).Contents (Elt F)),
    StableHlo.binary main_v78 main_v80 main_v81 (mulf : (⟨S20000x256, .f32⟩ : BufTy).Contents (Elt F) → (⟨S20000x256, .f32⟩ : BufTy).Contents (Elt F) → (⟨S20000x256, .f32⟩ : BufTy).Contents (Elt F)),
    StableHlo.unary main_arg14 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S20000x256 ![0, 1] bcast_S1x256_S20000x256_0_1 : (⟨S1x256, .f32⟩ : BufTy).Contents (Elt F) → (⟨S20000x256, .f32⟩ : BufTy).Contents (Elt F)),
    StableHlo.binary main_v81 main_v83 main_v84 (addf : (⟨S20000x256, .f32⟩ : BufTy).Contents (Elt F) → (⟨S20000x256, .f32⟩ : BufTy).Contents (Elt F) → (⟨S20000x256, .f32⟩ : BufTy).Contents (Elt F)),
    StableHlo.binary main_arg0 main_v84 main_v85 (addf : (⟨S20000x256, .f32⟩ : BufTy).Contents (Elt F) → (⟨S20000x256, .f32⟩ : BufTy).Contents (Elt F) → (⟨S20000x256, .f32⟩ : BufTy).Contents (Elt F)),
    StableHlo.nullary main_call4_cst (constant S_ .f32 0x00000000#32),
    StableHlo.unary main_call4_cst main_call4_v0 ((broadcastInDim S20000x256 ![] bcast_S_S20000x256) : (⟨S_, .f32⟩ : BufTy).Contents (Elt F) → (⟨S20000x256, .f32⟩ : BufTy).Contents (Elt F)),
    StableHlo.binary main_v85 main_call4_v0 main_v86 (maximumf : (⟨S20000x256, .f32⟩ : BufTy).Contents (Elt F) → (⟨S20000x256, .f32⟩ : BufTy).Contents (Elt F) → (⟨S20000x256, .f32⟩ : BufTy).Contents (Elt F)) ]

/-- @main's 162 operations, in order. -/
abbrev ops : List (HloOp τ sig (Elt F)) :=
  W0 ++ (W1 ++ (W2 ++ (W3 ++ (W4 ++ (W5 ++ (W6 ++ (W7)))))))

set_option maxRecDepth 8192 in
theorem W0_sub : (W0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem W1_sub : (W1 : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
set_option maxRecDepth 8192 in
theorem W2_sub : (W2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem W3_sub : (W3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
set_option maxRecDepth 8192 in
theorem W4_sub : (W4 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩
set_option maxRecDepth 8192 in
theorem W5_sub : (W5 : List (HloOp τ sig (Elt F))).Forall fun op => op.bufs ⊆ tcRefs τ sig :=
  ⟨nullary_bufs_sub .., unary_bufs_sub .., unary_bufs_sub .., ternary_bufs_sub ..⟩
set_option maxRecDepth 8192 in
theorem W6_sub : (W6 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem W7_sub : (W7 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp W0_sub op h, List.forall_iff_forall_mem.mp W1_sub op h, List.forall_iff_forall_mem.mp W2_sub op h, List.forall_iff_forall_mem.mp W3_sub op h, List.forall_iff_forall_mem.mp W4_sub op h, List.forall_iff_forall_mem.mp W5_sub op h, List.forall_iff_forall_mem.mp W6_sub op h, List.forall_iff_forall_mem.mp W7_sub op h]

/-- The buffers window 0 writes. -/
abbrev W0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]
set_option maxRecDepth 8192 in
theorem W0_writes : (W0 : List (HloOp τ sig (Elt F))).Forall fun op => op.writes ⊆ (W0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers window 1 writes. -/
abbrev W1_W : List (Ref sig .tc) := [main_v18, main_v19, main_v20, main_v21, main_v22, main_call0_v0, main_call0_v1, main_call0_cst, main_call0_v2, main_call0_v3, main_call0_cst_0, main_call0_v4, main_call0_v5, main_v23, main_v24, main_v25, main_v26, main_v27]
set_option maxRecDepth 8192 in
theorem W1_writes : (W1 : List (HloOp τ sig (Elt F))).Forall fun op => op.writes ⊆ (W1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers window 2 writes. -/
abbrev W2_W : List (Ref sig .tc) := [main_cst, main_v28, main_cst_3, main_v29, main_v30, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v31]
set_option maxRecDepth 8192 in
theorem W2_writes : (W2 : List (HloOp τ sig (Elt F))).Forall fun op => op.writes ⊆ (W2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers window 3 writes. -/
abbrev W3_W : List (Ref sig .tc) := [main_v32, main_v33, main_v34, main_cst_5, main_v35, main_v36, main_v37, main_v38, main_v39, main_v40, main_v41, main_v42, main_v43, main_v44, main_v45, main_v46, main_v47, main_v48, main_cst_6, main_v49, main_v50, main_cst_7, main_v51, main_v52]
set_option maxRecDepth 8192 in
theorem W3_writes : (W3 : List (HloOp τ sig (Elt F))).Forall fun op => op.writes ⊆ (W3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers window 4 writes. -/
abbrev W4_W : List (Ref sig .tc) := [main_v53, main_v54, main_v55, main_v56, main_call2_v0, main_call2_v1, main_call2_cst, main_call2_v2, main_call2_v3, main_call2_cst_0, main_call2_v4, main_call2_v5, main_v57, main_v58, main_v59, main_v60, main_v61, main_v62]
set_option maxRecDepth 8192 in
theorem W4_writes : (W4 : List (HloOp τ sig (Elt F))).Forall fun op => op.writes ⊆ (W4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers window 5 writes. -/
abbrev W5_W : List (Ref sig .tc) := [main_cst_8, main_v63, main_v64, main_v65]
set_option maxRecDepth 8192 in
theorem W5_writes : (W5 : List (HloOp τ sig (Elt F))).Forall fun op => op.writes ⊆ (W5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers window 6 writes. -/
abbrev W6_W : List (Ref sig .tc) := [main_cst_9, main_v66, main_cst_10, main_v67, main_v68, main_c_11, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v69]
set_option maxRecDepth 8192 in
theorem W6_writes : (W6 : List (HloOp τ sig (Elt F))).Forall fun op => op.writes ⊆ (W6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers window 7 writes. -/
abbrev W7_W : List (Ref sig .tc) := [main_v70, main_v71, main_v72, main_cst_12, main_v73, main_v74, main_v75, main_v76, main_v77, main_v78, main_v79, main_v80, main_v81, main_v82, main_v83, main_v84, main_v85, main_call4_cst, main_call4_v0, main_v86]
set_option maxRecDepth 8192 in
theorem W7_writes : (W7 : List (HloOp τ sig (Elt F))).Forall fun op => op.writes ⊆ (W7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-! ## What each window leaves, from any contents -/

set_option maxRecDepth 8192 in
set_option maxHeartbeats 2000000 in
theorem W0_main_v3 (V : Valuation τ sig (Elt F)) :
    after W0 V (no_index (Proc.devRef .tc main_v3)) = dstRow (V (Proc.devRef .tc main_arg1)) := by
  unfold W0
  after_results_simp <;> rfl

set_option maxRecDepth 8192 in
set_option maxHeartbeats 2000000 in
theorem W0_main_v10 (V : Valuation τ sig (Elt F)) :
    after W0 V (no_index (Proc.devRef .tc main_v10)) = xd (V (Proc.devRef .tc main_arg0)) (V (Proc.devRef .tc main_arg1)) := by
  unfold W0
  after_results_simp <;> rfl

set_option maxRecDepth 8192 in
set_option maxHeartbeats 2000000 in
theorem W0_main_v17 (V : Valuation τ sig (Elt F)) :
    after W0 V (no_index (Proc.devRef .tc main_v17)) = xs (V (Proc.devRef .tc main_arg0)) (V (Proc.devRef .tc main_arg1)) := by
  unfold W0
  after_results_simp <;> rfl

set_option maxRecDepth 8192 in
set_option maxHeartbeats 2000000 in
theorem W1_main_v18 (V : Valuation τ sig (Elt F)) :
    after W1 V (no_index (Proc.devRef .tc main_v18)) = hcat (V (Proc.devRef .tc main_v10)) (V (Proc.devRef .tc main_v17)) (V (Proc.devRef .tc main_arg2)) := by
  unfold W1
  after_results_simp <;> rfl

set_option maxRecDepth 8192 in
set_option maxHeartbeats 2000000 in
theorem W1_main_v27 (V : Valuation τ sig (Elt F)) :
    after W1 V (no_index (Proc.devRef .tc main_v27)) = mlp (hcat (V (Proc.devRef .tc main_v10)) (V (Proc.devRef .tc main_v17)) (V (Proc.devRef .tc main_arg2))) (V (Proc.devRef .tc main_arg3)) (V (Proc.devRef .tc main_arg4)) (V (Proc.devRef .tc main_arg5)) (V (Proc.devRef .tc main_arg6)) := by
  unfold W1
  after_results_simp <;> rfl

set_option maxRecDepth 8192 in
set_option maxHeartbeats 2000000 in
theorem W2_main_v30 (V : Valuation τ sig (Elt F)) :
    after W2 V (no_index (Proc.devRef .tc main_v30)) = mean1 (V (Proc.devRef .tc main_v27)) := by
  unfold W2
  after_results_simp <;> rfl

set_option maxRecDepth 8192 in
set_option maxHeartbeats 2000000 in
theorem W2_main_v31 (V : Valuation τ sig (Elt F)) :
    after W2 V (no_index (Proc.devRef .tc main_v31)) = var1 (V (Proc.devRef .tc main_v27)) := by
  unfold W2
  after_results_simp <;> rfl

set_option maxRecDepth 8192 in
set_option maxHeartbeats 2000000 in
theorem W3_main_v52 (V : Valuation τ sig (Elt F)) :
    after W3 V (no_index (Proc.devRef .tc main_v52)) = gate (V (Proc.devRef .tc main_v27)) (V (Proc.devRef .tc main_v30)) (V (Proc.devRef .tc main_v31)) (V (Proc.devRef .tc main_arg11)) (V (Proc.devRef .tc main_arg12)) := by
  unfold W3
  after_results_simp <;> rfl

set_option maxRecDepth 8192 in
set_option maxHeartbeats 2000000 in
theorem W4_main_v62 (V : Valuation τ sig (Elt F)) :
    after W4 V (no_index (Proc.devRef .tc main_v62)) = msg (V (Proc.devRef .tc main_v52)) (V (Proc.devRef .tc main_v18)) (V (Proc.devRef .tc main_arg7)) (V (Proc.devRef .tc main_arg8)) (V (Proc.devRef .tc main_arg9)) (V (Proc.devRef .tc main_arg10)) := by
  unfold W4
  after_results_simp <;> rfl

set_option maxRecDepth 8192 in
set_option maxHeartbeats 2000000 in
theorem W5_main_v65 (V : Valuation τ sig (Elt F)) :
    after W5 V (no_index (Proc.devRef .tc main_v65)) = agg (V (Proc.devRef .tc main_v3)) (V (Proc.devRef .tc main_v62)) := by
  unfold W5
  after_results_simp <;> rfl

set_option maxRecDepth 8192 in
set_option maxHeartbeats 2000000 in
theorem W6_main_v68 (V : Valuation τ sig (Elt F)) :
    after W6 V (no_index (Proc.devRef .tc main_v68)) = mean2 (V (Proc.devRef .tc main_v65)) := by
  unfold W6
  after_results_simp <;> rfl

set_option maxRecDepth 8192 in
set_option maxHeartbeats 2000000 in
theorem W6_main_v69 (V : Valuation τ sig (Elt F)) :
    after W6 V (no_index (Proc.devRef .tc main_v69)) = var2 (V (Proc.devRef .tc main_v65)) := by
  unfold W6
  after_results_simp <;> rfl

set_option maxRecDepth 8192 in
set_option maxHeartbeats 2000000 in
theorem W7_main_v86 (V : Valuation τ sig (Elt F)) :
    after W7 V (no_index (Proc.devRef .tc main_v86)) = result (V (Proc.devRef .tc main_arg0)) (V (Proc.devRef .tc main_v65)) (V (Proc.devRef .tc main_v68)) (V (Proc.devRef .tc main_v69)) (V (Proc.devRef .tc main_arg13)) (V (Proc.devRef .tc main_arg14)) := by
  unfold W7
  after_results_simp <;> rfl

/-! ## The contents after each window, from the launch contents -/

/-- The contents after the first 1 window. -/
def val1 (V0 : Valuation τ sig (Elt F)) : Valuation τ sig (Elt F) := after W0 V0
theorem val1_keep (V0 : Valuation τ sig (Elt F)) (r : Ref sig .tc) (h : r ∉ W0_W) :
    val1 V0 (Proc.devRef .tc r) = V0 (Proc.devRef .tc r) :=
  after_of_writes_sub W0 _ W0_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)
theorem val1_main_arg8 (V0 : Valuation τ sig (Elt F)) : val1 V0 (no_index (Proc.devRef .tc main_arg8)) = V0 (Proc.devRef .tc main_arg8) :=
  val1_keep V0 main_arg8 (by decide)
theorem val1_main_arg9 (V0 : Valuation τ sig (Elt F)) : val1 V0 (no_index (Proc.devRef .tc main_arg9)) = V0 (Proc.devRef .tc main_arg9) :=
  val1_keep V0 main_arg9 (by decide)
theorem val1_main_arg10 (V0 : Valuation τ sig (Elt F)) : val1 V0 (no_index (Proc.devRef .tc main_arg10)) = V0 (Proc.devRef .tc main_arg10) :=
  val1_keep V0 main_arg10 (by decide)
theorem val1_main_arg11 (V0 : Valuation τ sig (Elt F)) : val1 V0 (no_index (Proc.devRef .tc main_arg11)) = V0 (Proc.devRef .tc main_arg11) :=
  val1_keep V0 main_arg11 (by decide)
theorem val1_main_arg12 (V0 : Valuation τ sig (Elt F)) : val1 V0 (no_index (Proc.devRef .tc main_arg12)) = V0 (Proc.devRef .tc main_arg12) :=
  val1_keep V0 main_arg12 (by decide)
theorem val1_main_arg13 (V0 : Valuation τ sig (Elt F)) : val1 V0 (no_index (Proc.devRef .tc main_arg13)) = V0 (Proc.devRef .tc main_arg13) :=
  val1_keep V0 main_arg13 (by decide)
theorem val1_main_arg14 (V0 : Valuation τ sig (Elt F)) : val1 V0 (no_index (Proc.devRef .tc main_arg14)) = V0 (Proc.devRef .tc main_arg14) :=
  val1_keep V0 main_arg14 (by decide)
theorem val1_main_v3 (V0 : Valuation τ sig (Elt F)) : val1 V0 (no_index (Proc.devRef .tc main_v3)) = dstRow (V0 (Proc.devRef .tc main_arg1)) :=
  W0_main_v3 V0
theorem val1_main_v10 (V0 : Valuation τ sig (Elt F)) : val1 V0 (no_index (Proc.devRef .tc main_v10)) = xd (V0 (Proc.devRef .tc main_arg0)) (V0 (Proc.devRef .tc main_arg1)) :=
  W0_main_v10 V0
theorem val1_main_v17 (V0 : Valuation τ sig (Elt F)) : val1 V0 (no_index (Proc.devRef .tc main_v17)) = xs (V0 (Proc.devRef .tc main_arg0)) (V0 (Proc.devRef .tc main_arg1)) :=
  W0_main_v17 V0

/-- The contents after the first 2 windows. -/
def val2 (V0 : Valuation τ sig (Elt F)) : Valuation τ sig (Elt F) := after W1 (val1 V0)
theorem val2_keep (V0 : Valuation τ sig (Elt F)) (r : Ref sig .tc) (h : r ∉ W1_W) :
    val2 V0 (Proc.devRef .tc r) = val1 V0 (Proc.devRef .tc r) :=
  after_of_writes_sub W1 _ W1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_v3 (V0 : Valuation τ sig (Elt F)) : val2 V0 (no_index (Proc.devRef .tc main_v3)) = dstRow (V0 (Proc.devRef .tc main_arg1)) :=
  (val2_keep V0 main_v3 (by decide)).trans (val1_main_v3 V0)
theorem val2_main_v18 (V0 : Valuation τ sig (Elt F)) : val2 V0 (no_index (Proc.devRef .tc main_v18)) = hcatOf (V0 (Proc.devRef .tc main_arg0)) (V0 (Proc.devRef .tc main_arg1)) (V0 (Proc.devRef .tc main_arg2)) := by
  unfold val2
  rw [W1_main_v18]
  (try simp only [val1_main_v10, val1_main_v17, val1_main_arg2]) <;> rfl
theorem val2_main_v27 (V0 : Valuation τ sig (Elt F)) : val2 V0 (no_index (Proc.devRef .tc main_v27)) = gatePreOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val2
  rw [W1_main_v27]
  (try simp only [val1_main_v10, val1_main_v17, val1_main_arg2, val1_main_arg3, val1_main_arg4, val1_main_arg5, val1_main_arg6]) <;> rfl

/-- The contents after the first 3 windows. -/
def val3 (V0 : Valuation τ sig (Elt F)) : Valuation τ sig (Elt F) := after W2 (val2 V0)
theorem val3_keep (V0 : Valuation τ sig (Elt F)) (r : Ref sig .tc) (h : r ∉ W2_W) :
    val3 V0 (Proc.devRef .tc r) = val2 V0 (Proc.devRef .tc r) :=
  after_of_writes_sub W2 _ W2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_v3 (V0 : Valuation τ sig (Elt F)) : val3 V0 (no_index (Proc.devRef .tc main_v3)) = dstRow (V0 (Proc.devRef .tc main_arg1)) :=
  (val3_keep V0 main_v3 (by decide)).trans (val2_main_v3 V0)
theorem val3_main_v18 (V0 : Valuation τ sig (Elt F)) : val3 V0 (no_index (Proc.devRef .tc main_v18)) = hcatOf (V0 (Proc.devRef .tc main_arg0)) (V0 (Proc.devRef .tc main_arg1)) (V0 (Proc.devRef .tc main_arg2)) :=
  (val3_keep V0 main_v18 (by decide)).trans (val2_main_v18 V0)
theorem val3_main_v27 (V0 : Valuation τ sig (Elt F)) : val3 V0 (no_index (Proc.devRef .tc main_v27)) = gatePreOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (val3_keep V0 main_v27 (by decide)).trans (val2_main_v27 V0)
theorem val3_main_v30 (V0 : Valuation τ sig (Elt F)) : val3 V0 (no_index (Proc.devRef .tc main_v30)) = mean1 (gatePreOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) := by
  unfold val3
  rw [W2_main_v30]
  (try simp only [val2_main_v27]) <;> rfl
theorem val3_main_v31 (V0 : Valuation τ sig (Elt F)) : val3 V0 (no_index (Proc.devRef .tc main_v31)) = var1 (gatePreOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) := by
  unfold val3
  rw [W2_main_v31]
  (try simp only [val2_main_v27]) <;> rfl

/-- The contents after the first 4 windows. -/
def val4 (V0 : Valuation τ sig (Elt F)) : Valuation τ sig (Elt F) := after W3 (val3 V0)
theorem val4_keep (V0 : Valuation τ sig (Elt F)) (r : Ref sig .tc) (h : r ∉ W3_W) :
    val4 V0 (Proc.devRef .tc r) = val3 V0 (Proc.devRef .tc r) :=
  after_of_writes_sub W3 _ W3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_v3 (V0 : Valuation τ sig (Elt F)) : val4 V0 (no_index (Proc.devRef .tc main_v3)) = dstRow (V0 (Proc.devRef .tc main_arg1)) :=
  (val4_keep V0 main_v3 (by decide)).trans (val3_main_v3 V0)
theorem val4_main_v18 (V0 : Valuation τ sig (Elt F)) : val4 V0 (no_index (Proc.devRef .tc main_v18)) = hcatOf (V0 (Proc.devRef .tc main_arg0)) (V0 (Proc.devRef .tc main_arg1)) (V0 (Proc.devRef .tc main_arg2)) :=
  (val4_keep V0 main_v18 (by decide)).trans (val3_main_v18 V0)
theorem val4_main_v52 (V0 : Valuation τ sig (Elt F)) : val4 V0 (no_index (Proc.devRef .tc main_v52)) = gateOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg11)) (V0 (Proc.devRef .tc main_arg12)) := by
  unfold val4
  rw [W3_main_v52]
  (try simp only [val3_main_v27, val3_main_v30, val3_main_v31, val3_main_arg11, val3_main_arg12]) <;> rfl

/-- The contents after the first 5 windows. -/
def val5 (V0 : Valuation τ sig (Elt F)) : Valuation τ sig (Elt F) := after W4 (val4 V0)
theorem val5_keep (V0 : Valuation τ sig (Elt F)) (r : Ref sig .tc) (h : r ∉ W4_W) :
    val5 V0 (Proc.devRef .tc r) = val4 V0 (Proc.devRef .tc r) :=
  after_of_writes_sub W4 _ W4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_v3 (V0 : Valuation τ sig (Elt F)) : val5 V0 (no_index (Proc.devRef .tc main_v3)) = dstRow (V0 (Proc.devRef .tc main_arg1)) :=
  (val5_keep V0 main_v3 (by decide)).trans (val4_main_v3 V0)
theorem val5_main_v62 (V0 : Valuation τ sig (Elt F)) : val5 V0 (no_index (Proc.devRef .tc main_v62)) = msg (gateOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg11)) (V0 (Proc.devRef .tc main_arg12))) (hcatOf (V0 (Proc.devRef .tc main_arg0)) (V0 (Proc.devRef .tc main_arg1)) (V0 (Proc.devRef .tc main_arg2))) (V0 (Proc.devRef .tc main_arg7)) (V0 (Proc.devRef .tc main_arg8)) (V0 (Proc.devRef .tc main_arg9)) (V0 (Proc.devRef .tc main_arg10)) := by
  unfold val5
  rw [W4_main_v62]
  (try simp only [val4_main_v52, val4_main_v18, val4_main_arg7, val4_main_arg8, val4_main_arg9, val4_main_arg10]) <;> rfl

/-- The contents after the first 6 windows. -/
def val6 (V0 : Valuation τ sig (Elt F)) : Valuation τ sig (Elt F) := after W5 (val5 V0)
theorem val6_keep (V0 : Valuation τ sig (Elt F)) (r : Ref sig .tc) (h : r ∉ W5_W) :
    val6 V0 (Proc.devRef .tc r) = val5 V0 (Proc.devRef .tc r) :=
  after_of_writes_sub W5 _ W5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_v65 (V0 : Valuation τ sig (Elt F)) : val6 V0 (no_index (Proc.devRef .tc main_v65)) = aggOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val6
  rw [W5_main_v65]
  (try simp only [val5_main_v3, val5_main_v62]) <;> rfl

/-- The contents after the first 7 windows. -/
def val7 (V0 : Valuation τ sig (Elt F)) : Valuation τ sig (Elt F) := after W6 (val6 V0)
theorem val7_keep (V0 : Valuation τ sig (Elt F)) (r : Ref sig .tc) (h : r ∉ W6_W) :
    val7 V0 (Proc.devRef .tc r) = val6 V0 (Proc.devRef .tc r) :=
  after_of_writes_sub W6 _ W6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_v65 (V0 : Valuation τ sig (Elt F)) : val7 V0 (no_index (Proc.devRef .tc main_v65)) = aggOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (val7_keep V0 main_v65 (by decide)).trans (val6_main_v65 V0)
theorem val7_main_v68 (V0 : Valuation τ sig (Elt F)) : val7 V0 (no_index (Proc.devRef .tc main_v68)) = mean2 (aggOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))) := by
  unfold val7
  rw [W6_main_v68]
  (try simp only [val6_main_v65]) <;> rfl
theorem val7_main_v69 (V0 : Valuation τ sig (Elt F)) : val7 V0 (no_index (Proc.devRef .tc main_v69)) = var2 (aggOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))) := by
  unfold val7
  rw [W6_main_v69]
  (try simp only [val6_main_v65]) <;> rfl

/-- The contents after the first 8 windows. -/
def val8 (V0 : Valuation τ sig (Elt F)) : Valuation τ sig (Elt F) := after W7 (val7 V0)
theorem val8_keep (V0 : Valuation τ sig (Elt F)) (r : Ref sig .tc) (h : r ∉ W7_W) :
    val8 V0 (Proc.devRef .tc r) = val7 V0 (Proc.devRef .tc r) :=
  after_of_writes_sub W7 _ W7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_v86 (V0 : Valuation τ sig (Elt F)) : val8 V0 (no_index (Proc.devRef .tc main_v86)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val8
  rw [W7_main_v86]
  (try simp only [val7_main_arg0, val7_main_v65, val7_main_v68, val7_main_v69, val7_main_arg13, val7_main_arg14]) <;> rfl

theorem after_ops (V0 : Valuation τ sig (Elt F)) : after ops V0 = val8 V0 := by
  simp only [ops, after_app]
  rfl

/-! ## The program is that line, and its run -/

set_option maxRecDepth 16384 in
set_option maxHeartbeats 4000000 in
/-- @main is the straight line of those operations: the two halves of @main and the outlined functions unfolded
    at their calls, both sides are one chain of host steps once sequencing is reassociated. -/
theorem main_eq (c : Dev nD) : main (F := F) c = seq ops := by
  simp only [main, main_part0, main_part1, fn_silu.body, fn_var.body, fn_var_0.body, fn_where.body, fn_relu.body,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
set_option maxHeartbeats 4000000 in
/-- On the one device, for any float values, from any memory with zero counters: every weakly fair execution of
    @main terminates with the result at the composed stages of the arguments and the arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r => ∀ c : Dev nD,
      r.2.mem ((c.tc : Thread nD τ).loc main_v86) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v86).trans (by rw [after_ops]; exact val8_main_v86 (launchContents m c)),
      (h c main_arg0).trans (by rw [after_ops]; exact val8_main_arg0 (launchContents m c)),
      (h c main_arg1).trans (by rw [after_ops]; exact val8_main_arg1 (launchContents m c)),
      (h c main_arg2).trans (by rw [after_ops]; exact val8_main_arg2 (launchContents m c)),
      (h c main_arg3).trans (by rw [after_ops]; exact val8_main_arg3 (launchContents m c)),
      (h c main_arg4).trans (by rw [after_ops]; exact val8_main_arg4 (launchContents m c)),
      (h c main_arg5).trans (by rw [after_ops]; exact val8_main_arg5 (launchContents m c)),
      (h c main_arg6).trans (by rw [after_ops]; exact val8_main_arg6 (launchContents m c)),
      (h c main_arg7).trans (by rw [after_ops]; exact val8_main_arg7 (launchContents m c)),
      (h c main_arg8).trans (by rw [after_ops]; exact val8_main_arg8 (launchContents m c)),
      (h c main_arg9).trans (by rw [after_ops]; exact val8_main_arg9 (launchContents m c)),
      (h c main_arg10).trans (by rw [after_ops]; exact val8_main_arg10 (launchContents m c)),
      (h c main_arg11).trans (by rw [after_ops]; exact val8_main_arg11 (launchContents m c)),
      (h c main_arg12).trans (by rw [after_ops]; exact val8_main_arg12 (launchContents m c)),
      (h c main_arg13).trans (by rw [after_ops]; exact val8_main_arg13 (launchContents m c)),
      (h c main_arg14).trans (by rw [after_ops]; exact val8_main_arg14 (launchContents m c))⟩)
    (run_seq scopedRefs_eq scopedSems_eq defs main (fun _ => ops) main_eq (fun _ => ops_sub) m ρ)

/-- The reference's frame: its run with the result dropped. -/
theorem frame_ri : Cert.frame_ReferenceIdeal :=
  fun m ρ _ => (θ_run Cert.ReferenceIdeal.defs _ _).mono (fun _ h c => (h c).2) (run m ρ)

end Cert.ReferenceIdeal.RefValue

end
-- ==== Proof.Finite.lean ====
/-
  The precondition says of every float argument that each entry's absolute value is below +∞. Over the extended reals
  that is: each entry is a real number. So every float argument is the coercion of a real array.
-/
import proofs.«159511_j60833916780661_2_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.Finite

open Idealize.ShloMosaic Cert.Pre_finite_inputs

/-- An extended real whose absolute value compares below the word of +∞ is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => exfalso; simp [Ideal.cmp] at h
  | coe r => exact ⟨r, rfl⟩
  | top => exfalso; simp [Ideal.cmp] at h

instance : Subsingleton S_.Idx := ⟨fun a b => funext fun d => d.elim0⟩

/-- One conjunct of the precondition: all entries of `x` compare below +∞, hence `x` is a real array. -/
theorem real_of_all {s : Shape} {axes : List (Fin s.rank)} (x bc : FVec Ideal s .f32)
    (hbc : ∀ i, bc i = FloatOps.ofBits .f32 0x7F800000#32) (init : S_.Idx → BitVec 1) (h : s.ReducesTo axes S_)
    (hu : 0 < S_.numel) (e : Host.reduce IntOp.andi (cmpf .olt (Host.absf x) bc) init h hu ValueIdx.ix0 = 1#1) :
    ∃ X : s.Idx → ℝ, x = fun i => ((X i : ℝ) : EReal) := by
  have hall : ∀ i, ∃ r : ℝ, x i = (r : EReal) := fun i => by
    have hi := Host.reduce_andi_all _ init h hu ValueIdx.ix0 e i
    have : FloatOps.cmpf (F := Ideal) (φ := .f32) .olt (FloatOps.hostAbsf (x i)) (FloatOps.ofBits .f32 0x7F800000#32) = 1#1 := by
      rw [← hbc i]; exact hi
    exact real_of_abs_lt_top _ this
  choose X hX using hall
  exact ⟨X, funext hX⟩

variable [Facts]

/-- Under the precondition every float argument is the coercion of a real array. -/
theorem reals_of_pre (a0 : FVec Ideal S20000x256 .f32) (a1 : IVec S2x320000 32) (a2 : FVec Ideal S320000x256 .f32)
    (a3 : FVec Ideal S768x256 .f32) (a4 : FVec Ideal S256 .f32) (a5 : FVec Ideal S256x256 .f32) (a6 : FVec Ideal S256 .f32)
    (a7 : FVec Ideal S768x256 .f32) (a8 : FVec Ideal S256 .f32) (a9 : FVec Ideal S256x256 .f32) (a10 : FVec Ideal S256 .f32)
    (a11 : FVec Ideal S256 .f32) (a12 : FVec Ideal S256 .f32) (a13 : FVec Ideal S256 .f32) (a14 : FVec Ideal S256 .f32)
    (h : fn (F := Ideal) a0 a1 a2 a3 a4 a5 a6 a7 a8 a9 a10 a11 a12 a13 a14 = fun _ => 1#1) :
    (∃ X : S20000x256.Idx → ℝ, a0 = fun i => ((X i : ℝ) : EReal))
    ∧ (∃ X : S320000x256.Idx → ℝ, a2 = fun i => ((X i : ℝ) : EReal))
    ∧ (∃ X : S768x256.Idx → ℝ, a3 = fun i => ((X i : ℝ) : EReal))
    ∧ (∃ X : S256.Idx → ℝ, a4 = fun i => ((X i : ℝ) : EReal))
    ∧ (∃ X : S256x256.Idx → ℝ, a5 = fun i => ((X i : ℝ) : EReal))
    ∧ (∃ X : S256.Idx → ℝ, a6 = fun i => ((X i : ℝ) : EReal))
    ∧ (∃ X : S768x256.Idx → ℝ, a7 = fun i => ((X i : ℝ) : EReal))
    ∧ (∃ X : S256.Idx → ℝ, a8 = fun i => ((X i : ℝ) : EReal))
    ∧ (∃ X : S256x256.Idx → ℝ, a9 = fun i => ((X i : ℝ) : EReal))
    ∧ (∃ X : S256.Idx → ℝ, a10 = fun i => ((X i : ℝ) : EReal))
    ∧ (∃ X : S256.Idx → ℝ, a11 = fun i => ((X i : ℝ) : EReal))
    ∧ (∃ X : S256.Idx → ℝ, a12 = fun i => ((X i : ℝ) : EReal))
    ∧ (∃ X : S256.Idx → ℝ, a13 = fun i => ((X i : ℝ) : EReal))
    ∧ (∃ X : S256.Idx → ℝ, a14 = fun i => ((X i : ℝ) : EReal)) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := h0
  exact ⟨real_of_all a0 _ (fun _ => rfl) _ _ _ e0, real_of_all a2 _ (fun _ => rfl) _ _ _ e2,
    real_of_all a3 _ (fun _ => rfl) _ _ _ e3, real_of_all a4 _ (fun _ => rfl) _ _ _ e4,
    real_of_all a5 _ (fun _ => rfl) _ _ _ e5, real_of_all a6 _ (fun _ => rfl) _ _ _ e6,
    real_of_all a7 _ (fun _ => rfl) _ _ _ e7, real_of_all a8 _ (fun _ => rfl) _ _ _ e8,
    real_of_all a9 _ (fun _ => rfl) _ _ _ e9, real_of_all a10 _ (fun _ => rfl) _ _ _ e10,
    real_of_all a11 _ (fun _ => rfl) _ _ _ e11, real_of_all a12 _ (fun _ => rfl) _ _ _ e12,
    real_of_all a13 _ (fun _ => rfl) _ _ _ e13, real_of_all a14 _ (fun _ => rfl) _ _ _ e14⟩

end Cert.Finite

end
-- ==== Proof.Region1.lean ====
import proofs.«159511_j60833916780661_2_alg».proof.Proof.Gen.KernelIdeal.Frame
import Idealize.ShloMosaic.Lib.Pipeline.Value
import Idealize.ShloMosaic.Lib.ValueIdx
import Idealize.ShloMosaic.Lib.ValueLayout

/-!
# The last region, as one function of the arrays it finds

The last region is pointwise.  Its grid has ten points; point `t` reads rows `2000 t … 2000 t + 1999` of the node
features `x` and of the aggregated messages `agg`, the whole scale and shift rows, and writes the same rows of the
result:

  out (r, k) = max (x (r, k) + (agg (r, k) · scale k + shift k)) 0.

The ten blocks tile the 20000 rows, so the result array after the region is this function at every index,
whatever the region finds in its four input arrays.
-/

set_option maxRecDepth 16384

noncomputable section

namespace Cert.KernelIdeal.KValue

open Idealize.ShloMosaic Idealize.ShloMosaic.TcCoe Idealize.SL.Sem
open Idealize.ShloMosaic.Pipeline (Dat)
open Idealize.ShloMosaic.ValueIdx

/-- The pointwise closing step: add to `x` the affinely rescaled aggregate (scale and shift per column), and
    clamp below at zero (the zero is the program's literal). -/
def finalize (x agg : S20000x256.Idx → Elt Ideal .f32) (scale shift : S256.Idx → Elt Ideal .f32) :
    S20000x256.Idx → Elt Ideal .f32 :=
  fun i => max (x i + (agg i * scale (ix1 (i 1)) + shift (ix1 (i 1)))) (Ideal.ofBits .f32 0x00000000#32)

/-- The body's one stored value at row `p`, column `q` of its block, from the four loaded blocks:
    `v12` is the block of `x`, `v0` of `agg`, `v2` the scale row, `v7` the shift row. -/
theorem pay_apply (v0 : Vec Ideal S2000x256 .f32) (v2 v7 : Vec Ideal S256 .f32) (v12 : Vec Ideal S2000x256 .f32)
    (p : Fin 2000) (q : Fin 256) :
    Gen.k1_pay1 v0 v2 v7 v12 (ix2 p q)
      = max (v12 (ix2 p q) + (v0 (ix2 p q) * v2 (ix1 q) + v7 (ix1 q))) (Ideal.ofBits .f32 0x00000000#32) := by
  unfold Gen.k1_pay1
  rw [maximumf_apply, addf_apply, addf_apply, mulf_apply, broadcast_apply,
    broadcastTo_1b_ab_apply, broadcastTo_1b_ab_apply, shapeCast_a_1a_apply, shapeCast_a_1a_apply,
    shapeCast_self, shapeCast_self, shapeCast_self]
  rfl

/-- The same at any index of the block. -/
theorem pay_apply_idx (v0 : Vec Ideal S2000x256 .f32) (v2 v7 : Vec Ideal S256 .f32) (v12 : Vec Ideal S2000x256 .f32)
    (j : S2000x256.Idx) :
    Gen.k1_pay1 v0 v2 v7 v12 j
      = max (v12 j + (v0 j * v2 (ix1 (j 1)) + v7 (ix1 (j 1)))) (Ideal.ofBits .f32 0x00000000#32) := by
  obtain ⟨p, q, rfl⟩ : ∃ (p : Fin 2000) (q : Fin 256), j = ix2 p q := ⟨j 0, j 1, eq_ix2 j⟩
  exact pay_apply v0 v2 v7 v12 p q

/-- The closing step at an array index, from the four arrays read where the blocks' coordinates say. -/
theorem blk_eq (X A : S20000x256.Idx → Elt Ideal .f32) (S H : S256.Idx → Elt Ideal .f32)
    (y0 y1 : S20000x256.Idx) (y2 y3 : S256.Idx) (y4 : S20000x256.Idx)
    (h0 : y0 = y4) (h1 : y1 = y4) (h2 : y2 = ix1 (y4 1)) (h3 : y3 = ix1 (y4 1)) :
    max (X y0 + (A y1 * S y2 + H y3)) (Ideal.ofBits .f32 0x00000000#32) = finalize X A S H y4 := by
  subst h0 h1 h2 h3; rfl

section Region

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The program's index maps over the ten points: the three row-tiled windows sit at block row `t`, column block
    0; the two whole-row windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = t.val ∧ win1_4.index t (1 : Fin 2) = 0 :=
  (by decide +kernel : ∀ t : Fin grid1.N, _)

set_option maxHeartbeats 1000000 in
/-- What point `t` writes back is block `t` of `finalize` of the four arrays the region finds: window 0 is `x`,
    window 1 is `agg`, window 2 the scale row, window 3 the shift row. -/
theorem flushed_eq (c : Dev nD) (t : Fin cfg1.N) :
    (Gen.dat1 V c).flushed 4 t = ((cfg1.win 4).blk t).view.read (Elt Ideal)
      (finalize (V c (Pipeline.arrRef spec1 0)) (V c (Pipeline.arrRef spec1 1))
        (V c (Pipeline.arrRef spec1 2)) (V c (Pipeline.arrRef spec1 3))) := by
  show (cfg1.win 4).cut (grid1.coords t) ((Gen.dat1 V c).after 4 t) = _
  rw [Gen.after1_4]
  unfold Gen.out1_4
  rw [View.canon_unit_zero hz2]
  simp only [View.ld_unit_zero (S := S2000x256) hz2, View.ld_unit_zero (S := S256) hz1]
  obtain ⟨e00, e01, e10, e11, e2, e3, e40, e41⟩ := idx_facts t
  funext j
  refine (pay_apply_idx (Gen.iblk1 V c 1 t) (Gen.iblk1 V c 2 t) (Gen.iblk1 V c 3 t) (Gen.iblk1 V c 0 t) j).trans ?_
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * (j 1).val = win1_4.index t (1 : Fin 2) * 256 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 256 + 1 * (j 1).val = win1_4.index t (1 : Fin 2) * 256 + 1 * (j 1).val; omega
  have h2 : ((cfg1.win 2).blk t).view.emb (ix1 (j 1)) = ix1 ((((cfg1.win 4).blk t).view.emb j) 1) := by
    funext a; apply Fin.ext
    match a with
    | ⟨0, _⟩ => show win1_2.index t (0 : Fin 1) * 256 + 1 * (j 1).val = win1_4.index t (1 : Fin 2) * 256 + 1 * (j 1).val; omega
  have h3 : ((cfg1.win 3).blk t).view.emb (ix1 (j 1)) = ix1 ((((cfg1.win 4).blk t).view.emb j) 1) := by
    funext a; apply Fin.ext
    match a with
    | ⟨0, _⟩ => show win1_3.index t (0 : Fin 1) * 256 + 1 * (j 1).val = win1_4.index t (1 : Fin 2) * 256 + 1 * (j 1).val; omega
  exact blk_eq (V c (Pipeline.arrRef spec1 0)) (V c (Pipeline.arrRef spec1 1)) (V c (Pipeline.arrRef spec1 2))
    (V c (Pipeline.arrRef spec1 3)) (((cfg1.win 0).blk t).view.emb j) (((cfg1.win 1).blk t).view.emb j)
    (((cfg1.win 2).blk t).view.emb (ix1 (j 1))) (((cfg1.win 3).blk t).view.emb (ix1 (j 1)))
    (((cfg1.win 4).blk t).view.emb j) h0 h1 h2 h3

/-- An index of the result array is in point `t`'s block iff each coordinate is in the block's range. -/
theorem mem_blk (t : Fin cfg1.N) (i : S20000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v69).slice (win1_4.rect t)).set ↔ _
  rw [View.set_slice_whole, Rect.mem_set_unit]
  exact Iff.rfl

/-- The ten blocks cover the array: row `r` is in the block of point `r / 2000`. -/
theorem cover (i : S20000x256.Idx) :
    ∃ t : Fin cfg1.N, (cfg1.win 4).flush t = true ∧ i ∈ ((cfg1.win 4).blk t).view.set := by
  have hi0 : (i 0).val < 20000 := (i 0).isLt
  have hi1 : (i 1).val < 256 := (i 1).isLt
  obtain ⟨t, ht⟩ : ∃ t : Fin cfg1.N, t.val = (i 0).val / 2000 :=
    ⟨⟨(i 0).val / 2000, by show (i 0).val / 2000 < grid1.N; rw [Gen.N_1]; omega⟩, rfl⟩
  obtain ⟨-, -, -, -, -, -, e40, e41⟩ := idx_facts t
  refine ⟨t, Gen.flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- THE RESULT ARRAY after the last region: `finalize` of the arrays the region finds — window 0 (`x`, the first
    argument), window 1 (`agg`, the scatter's result), window 2 (the scale row), window 3 (the shift row). -/
theorem fin_arr (c : Dev nD) :
    (Gen.dat1 V c).arrAt 4 cfg1.N
      = finalize (V c (Pipeline.arrRef spec1 0)) (V c (Pipeline.arrRef spec1 1))
          (V c (Pipeline.arrRef spec1 2)) (V c (Pipeline.arrRef spec1 3)) :=
  (Gen.dat1 V c).arrAt_eq_of_cover 4 _ (fun t _ => flushed_eq V c t) cover

end Region

end Cert.KernelIdeal.KValue

end
-- ==== Proof.Region0Blocks.lean ====
/-
  The blocks a grid point is given, as parts of the arrays the region finds.

  Point `t` of the grid (core `t / 80`, tile `t % 80`) reads row block `t` of each of the three feature arrays —
  rows `t·2000 ‥ t·2000 + 1999` —, every weight and bias whole, and writes row block `t` of the two perceptron
  outputs and block `t / 80` of the two statistics arrays. These are facts about the index maps alone, decided
  once over the 160 points.
-/
import proofs.«159511_j60833916780661_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.R0Value

open Cert.KernelIdeal Cert.KernelIdeal.Gen

variable {F : FTy → Type} [FloatOps F]
variable (V : (c : Dev nD) → (b : Ref sig .tc) → Buf (Elt F) ((c : Thread nD τ).loc b))

/-- A tile's row lies inside the edge array. -/
theorem lt_tile (t : Fin cfg0.N) (r : Fin 2000) : t.val * 2000 + r.val < 320000 := by
  have hN : cfg0.N = 160 := N_0
  have := t.isLt; have := r.isLt; omega

/-! ## The index maps over the grid -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows11 : ∀ t : Fin cfg0.N, win0_11.index t (0 : Fin 2) = t.val ∧ win0_11.index t (1 : Fin 2) = 0 :=
  (by decide +kernel : ∀ t : Fin grid0.N, _)
theorem idx_rows12 : ∀ t : Fin cfg0.N, win0_12.index t (0 : Fin 2) = t.val ∧ win0_12.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole4 : ∀ t : Fin cfg0.N, win0_4.index t (0 : Fin 1) = 0 :=
  (by decide +kernel : ∀ t : Fin grid0.N, _)
theorem idx_whole6 : ∀ t : Fin cfg0.N, win0_6.index t (0 : Fin 1) = 0 :=
  (by decide +kernel : ∀ t : Fin grid0.N, _)
theorem idx_whole8 : ∀ t : Fin cfg0.N, win0_8.index t (0 : Fin 1) = 0 :=
  (by decide +kernel : ∀ t : Fin grid0.N, _)
theorem idx_whole10 : ∀ t : Fin cfg0.N, win0_10.index t (0 : Fin 1) = 0 :=
  (by decide +kernel : ∀ t : Fin grid0.N, _)
theorem idx_stats13 : ∀ t : Fin cfg0.N, win0_13.index t (0 : Fin 3) = t.val / 80 ∧ win0_13.index t (1 : Fin 3) = 0 ∧ win0_13.index t (2 : Fin 3) = 0 :=
  (by decide +kernel : ∀ t : Fin grid0.N, _)
theorem idx_stats14 : ∀ t : Fin cfg0.N, win0_14.index t (0 : Fin 3) = t.val / 80 ∧ win0_14.index t (1 : Fin 3) = 0 ∧ win0_14.index t (2 : Fin 3) = 0 :=
  (by decide +kernel : ∀ t : Fin grid0.N, _)

/-! ## The input blocks at a point -/

theorem iblk_rows0 (c : Dev nD) (t : Fin cfg0.N) (r : Fin 2000) (j : Fin 256) :
    iblk0 V c 0 t (ix2 r j) = V c (Pipeline.arrRef spec0 0) (ix2 (⟨t.val * 2000 + r.val, lt_tile t r⟩ : Fin 320000) j) := by
  have e := idx_rows0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 2000 + 1 * r.val = t.val * 2000 + r.val; rw [e.1]; omega
  | ⟨1, _⟩ => show win0_0.index t (1 : Fin 2) * 256 + 1 * j.val = j.val; rw [e.2]; omega

theorem iblk_rows1 (c : Dev nD) (t : Fin cfg0.N) (r : Fin 2000) (j : Fin 256) :
    iblk0 V c 1 t (ix2 r j) = V c (Pipeline.arrRef spec0 1) (ix2 (⟨t.val * 2000 + r.val, lt_tile t r⟩ : Fin 320000) j) := by
  have e := idx_rows1 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 2000 + 1 * r.val = t.val * 2000 + r.val; rw [e.1]; omega
  | ⟨1, _⟩ => show win0_1.index t (1 : Fin 2) * 256 + 1 * j.val = j.val; rw [e.2]; omega

theorem iblk_rows2 (c : Dev nD) (t : Fin cfg0.N) (r : Fin 2000) (j : Fin 256) :
    iblk0 V c 2 t (ix2 r j) = V c (Pipeline.arrRef spec0 2) (ix2 (⟨t.val * 2000 + r.val, lt_tile t r⟩ : Fin 320000) j) := by
  have e := idx_rows2 t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 2000 + 1 * r.val = t.val * 2000 + r.val; rw [e.1]; omega
  | ⟨1, _⟩ => show win0_2.index t (1 : Fin 2) * 256 + 1 * j.val = j.val; rw [e.2]; omega

theorem iblk_whole3 (c : Dev nD) (t : Fin cfg0.N) (j : Fin 768) (k : Fin 256) :
    iblk0 V c 3 t (ix2 j k) = V c (Pipeline.arrRef spec0 3) (ix2 j k) := by
  have e := idx_whole3 t
  unfold iblk0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t (0 : Fin 2) * 768 + 1 * j.val = j.val; rw [e.1]; omega
  | ⟨1, _⟩ => show win0_3.index t (1 : Fin 2) * 256 + 1 * k.val = k.val; rw [e.2]; omega

theorem iblk_whole5 (c : Dev nD) (t : Fin cfg0.N) (j : Fin 256) (k : Fin 256) :
    iblk0 V c 5 t (ix2 j k) = V c (Pipeline.arrRef spec0 5) (ix2 j k) := by
  have e := idx_whole5 t
  unfold iblk0
  rw [View.read_apply]
  show V c (Pipeline.arrRef spec0 5) _ = V c (Pipeline.arrRef spec0 5) _
  refine congrArg (V c (Pipeline.arrRef spec0 5)) (funext fun a => Fin.ext ?_)
  match a with
  | ⟨0, _⟩ => show win0_5.index t (0 : Fin 2) * 256 + 1 * j.val = j.val; rw [e.1]; omega
  | ⟨1, _⟩ => show win0_5.index t (1 : Fin 2) * 256 + 1 * k.val = k.val; rw [e.2]; omega

theorem iblk_whole7 (c : Dev nD) (t : Fin cfg0.N) (j : Fin 768) (k : Fin 256) :
    iblk0 V c 7 t (ix2 j k) = V c (Pipeline.arrRef spec0 7) (ix2 j k) := by
  have e := idx_whole7 t
  unfold iblk0
  rw [View.read_apply]
  show V c (Pipeline.arrRef spec0 7) _ = V c (Pipeline.arrRef spec0 7) _
  refine congrArg (V c (Pipeline.arrRef spec0 7)) (funext fun a => Fin.ext ?_)
  match a with
  | ⟨0, _⟩ => show win0_7.index t (0 : Fin 2) * 768 + 1 * j.val = j.val; rw [e.1]; omega
  | ⟨1, _⟩ => show win0_7.index t (1 : Fin 2) * 256 + 1 * k.val = k.val; rw [e.2]; omega

theorem iblk_whole9 (c : Dev nD) (t : Fin cfg0.N) (j : Fin 256) (k : Fin 256) :
    iblk0 V c 9 t (ix2 j k) = V c (Pipeline.arrRef spec0 9) (ix2 j k) := by
  have e := idx_whole9 t
  unfold iblk0
  rw [View.read_apply]
  show V c (Pipeline.arrRef spec0 9) _ = V c (Pipeline.arrRef spec0 9) _
  refine congrArg (V c (Pipeline.arrRef spec0 9)) (funext fun a => Fin.ext ?_)
  match a with
  | ⟨0, _⟩ => show win0_9.index t (0 : Fin 2) * 256 + 1 * j.val = j.val; rw [e.1]; omega
  | ⟨1, _⟩ => show win0_9.index t (1 : Fin 2) * 256 + 1 * k.val = k.val; rw [e.2]; omega

theorem iblk_whole4 (c : Dev nD) (t : Fin cfg0.N) (k : Fin 256) :
    iblk0 V c 4 t (ix1 k) = V c (Pipeline.arrRef spec0 4) (ix1 k) := by
  have e := idx_whole4 t
  unfold iblk0
  rw [View.read_apply]
  show V c (Pipeline.arrRef spec0 4) _ = V c (Pipeline.arrRef spec0 4) _
  refine congrArg (V c (Pipeline.arrRef spec0 4)) (funext fun a => Fin.ext ?_)
  match a with
  | ⟨0, _⟩ => show win0_4.index t (0 : Fin 1) * 256 + 1 * k.val = k.val; rw [e]; omega

theorem iblk_whole6 (c : Dev nD) (t : Fin cfg0.N) (k : Fin 256) :
    iblk0 V c 6 t (ix1 k) = V c (Pipeline.arrRef spec0 6) (ix1 k) := by
  have e := idx_whole6 t
  unfold iblk0
  rw [View.read_apply]
  show V c (Pipeline.arrRef spec0 6) _ = V c (Pipeline.arrRef spec0 6) _
  refine congrArg (V c (Pipeline.arrRef spec0 6)) (funext fun a => Fin.ext ?_)
  match a with
  | ⟨0, _⟩ => show win0_6.index t (0 : Fin 1) * 256 + 1 * k.val = k.val; rw [e]; omega

theorem iblk_whole8 (c : Dev nD) (t : Fin cfg0.N) (k : Fin 256) :
    iblk0 V c 8 t (ix1 k) = V c (Pipeline.arrRef spec0 8) (ix1 k) := by
  have e := idx_whole8 t
  unfold iblk0
  rw [View.read_apply]
  show V c (Pipeline.arrRef spec0 8) _ = V c (Pipeline.arrRef spec0 8) _
  refine congrArg (V c (Pipeline.arrRef spec0 8)) (funext fun a => Fin.ext ?_)
  match a with
  | ⟨0, _⟩ => show win0_8.index t (0 : Fin 1) * 256 + 1 * k.val = k.val; rw [e]; omega

theorem iblk_whole10 (c : Dev nD) (t : Fin cfg0.N) (k : Fin 256) :
    iblk0 V c 10 t (ix1 k) = V c (Pipeline.arrRef spec0 10) (ix1 k) := by
  have e := idx_whole10 t
  unfold iblk0
  rw [View.read_apply]
  show V c (Pipeline.arrRef spec0 10) _ = V c (Pipeline.arrRef spec0 10) _
  refine congrArg (V c (Pipeline.arrRef spec0 10)) (funext fun a => Fin.ext ?_)
  match a with
  | ⟨0, _⟩ => show win0_10.index t (0 : Fin 1) * 256 + 1 * k.val = k.val; rw [e]; omega

end Cert.KernelIdeal.R0Value

end
-- ==== Proof.Region0Pieces.lean ====
/-
  What one run of the body leaves in each of its four output blocks, as values of the blocks it was given.

  The body reads its three feature blocks, the two perceptrons' weights and biases whole (the 768-row first-layer
  weights as their three 256-row slices), and stores each output block once, whole; so each output block is one
  payload of the loaded blocks. The two statistics blocks are read before they are stored: at a core's first tile
  the body first stores the zero block there and reads that back, at every other tile it reads what the tile
  before left. Nothing here depends on the float instance.
-/
import proofs.«159511_j60833916780661_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R0Value

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The three 256-row slices of a 768-row weight block, as the body loads them. -/
abbrev rows0 (x : Vec F S768x256 .f32) : Vec F S256x256 .f32 := View.ld x (Rect.unit ![0, 0] S256x256.size inb_S768x256_S256x256_0_0)
abbrev rows256 (x : Vec F S768x256 .f32) : Vec F S256x256 .f32 := View.ld x (Rect.unit ![256, 0] S256x256.size inb_S768x256_S256x256_256_0)
abbrev rows512 (x : Vec F S768x256 .f32) : Vec F S256x256 .f32 := View.ld x (Rect.unit ![512, 0] S256x256.size inb_S768x256_S256x256_512_0)

/-! ## A core's first tile (the statistics blocks start from the zero block) -/

theorem piece_A_11 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay2 (k0_pay11 (k0_pay9 x0 x1 x2 (rows0 x3) (rows256 x3) (rows512 x3) x4 x5) (k0_pay10 x6)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

theorem piece_A_12 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay3 (k0_pay12 (k0_pay6 x0) (k0_pay7 x1) (k0_pay8 x2) (rows0 x7) (rows256 x7) (rows512 x7) x8 x9 x10) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

theorem piece_A_13 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay14 (k0_pay9 x0 x1 x2 (rows0 x3) (rows256 x3) (rows512 x3) x4 x5) (k0_pay10 x6) k0_pay4 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_cons_unit_zero (S := S1x8x256) hz3, View.readCov_unit_zero (S := S1x8x256) _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

theorem piece_A_14 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay1 (k0_pay13 (k0_pay9 x0 x1 x2 (rows0 x3) (rows256 x3) (rows512 x3) x4 x5) (k0_pay10 x6)) k0_pay5 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_cons_unit_zero (S := S1x8x256) hz3, View.readCov_unit_zero (S := S1x8x256) _ hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

/-! ## Every other tile (the statistics blocks continue from what the tile before left) -/

theorem piece_B_11 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : ¬cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) (xo13 : Vec F S1x8x256 .f32) (xo14 : Vec F S1x8x256 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14 = k0_pay2 (k0_pay11 (k0_pay9 x0 x1 x2 (rows0 x3) (rows256 x3) (rows512 x3) x4 x5) (k0_pay10 x6)) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

theorem piece_B_12 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : ¬cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) (xo13 : Vec F S1x8x256 .f32) (xo14 : Vec F S1x8x256 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14 = k0_pay3 (k0_pay12 (k0_pay6 x0) (k0_pay7 x1) (k0_pay8 x2) (rows0 x7) (rows256 x7) (rows512 x7) x8 x9 x10) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

theorem piece_B_13 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : ¬cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) (xo13 : Vec F S1x8x256 .f32) (xo14 : Vec F S1x8x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14 = k0_pay14 (k0_pay9 x0 x1 x2 (rows0 x3) (rows256 x3) (rows512 x3) x4 x5) (k0_pay10 x6) xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

theorem piece_B_14 (c : Dev nD) (i : grid0.Coords) (arg2 : Memref sig .tc .vmem S2000x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S768x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S768x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S2000x256 .bf16) (harg13 : arg13.IsWhole) (arg14 : Memref sig .tc .vmem S2000x256 .bf16) (harg14 : arg14.IsWhole) (arg15 : Memref sig .tc .vmem S1x8x256 .f32) (harg15 : arg15.IsWhole) (arg16 : Memref sig .tc .vmem S1x8x256 .f32) (harg16 : arg16.IsWhole) (hc0 : ¬cond0_0 i)
    (x0 : Vec F S2000x256 .f32) (x1 : Vec F S2000x256 .f32) (x2 : Vec F S2000x256 .f32) (x3 : Vec F S768x256 .f32) (x4 : Vec F S256 .f32) (x5 : Vec F S256x256 .f32) (x6 : Vec F S256 .f32) (x7 : Vec F S768x256 .f32) (x8 : Vec F S256 .f32) (x9 : Vec F S256x256 .f32) (x10 : Vec F S256 .f32) (xo13 : Vec F S1x8x256 .f32) (xo14 : Vec F S1x8x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14 = k0_pay1 (k0_pay13 (k0_pay9 x0 x1 x2 (rows0 x3) (rows256 x3) (rows512 x3) x4 x5) (k0_pay10 x6)) xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo13 xo14)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg15.read_unread, harg16.read_unread, View.ld_unit_zero (S := S2000x256) hz2, View.ld_unit_zero (S := S256x256) hz2,
    View.ld_unit_zero (S := S256) hz1, View.ld_unit_zero (S := S1x8x256) hz3]

end Cert.KernelIdeal.R0Value

end
-- ==== Proof.Region0Spec.lean ====
/-
  The two perceptrons of the message-passing layer, entry by entry over the extended reals.

  An edge `e` carries three feature rows of width 256: the destination node's `xd e`, the source node's `xs e`
  and the edge's own `ea e`. The first layer's weight matrix `W1` has 768 rows: rows 0‥255 meet `xd`, rows
  256‥511 meet `xs`, rows 512‥767 meet `ea`. The hidden pre-activation is the sum of the three partial products,
  added left to right, plus the bias; the hidden activation is `z · logistic z`; the second layer is one more
  product with `W2` plus its bias. The grouping of the additions is fixed here once and for all: it is the one
  the per-block computation uses, so no re-association is ever needed to compare the two.
-/
import Idealize.ShloMosaic.Lib.ValueIdx

noncomputable section

open scoped BigOperators
open Idealize.ShloMosaic Idealize.ShloMosaic.ValueIdx

namespace Cert.KernelIdeal.R0Value

/-- The hidden pre-activation of edge `e` at hidden unit `k`:
    `((xd e · W1[0:256, k] + xs e · W1[256:512, k]) + ea e · W1[512:768, k]) + b1 k`. -/
def hidK (xd xs ea : (⟨2, ![320000, 256]⟩ : Shape).Idx → EReal) (W1 : (⟨2, ![768, 256]⟩ : Shape).Idx → EReal)
    (b1 : (⟨1, ![256]⟩ : Shape).Idx → EReal) (e : Fin 320000) (k : Fin 256) : EReal :=
  (((∑ j : Fin 256, xd (ix2 e j) * W1 (ix2 (⟨j.val, by have := j.isLt; omega⟩ : Fin 768) k))
      + (∑ j : Fin 256, xs (ix2 e j) * W1 (ix2 (⟨256 + j.val, by have := j.isLt; omega⟩ : Fin 768) k)))
      + (∑ j : Fin 256, ea (ix2 e j) * W1 (ix2 (⟨512 + j.val, by have := j.isLt; omega⟩ : Fin 768) k)))
    + b1 (ix1 k)

/-- The perceptron's output for edge `e` at feature `f`: `∑ₖ (z k · logistic (z k)) · W2[k, f] + b2 f` with
    `z = hidK … e`. -/
def mlpAt (xd xs ea : (⟨2, ![320000, 256]⟩ : Shape).Idx → EReal) (W1 : (⟨2, ![768, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (e : Fin 320000) (f : Fin 256) : EReal :=
  (∑ k : Fin 256, (hidK xd xs ea W1 b1 e k * Ideal.logistic (hidK xd xs ea W1 b1 e k)) * W2 (ix2 k f)) + b2 (ix1 f)

/-- The same, as a function of an index of the [320000, 256] array. -/
def mlpK (xd xs ea : (⟨2, ![320000, 256]⟩ : Shape).Idx → EReal) (W1 : (⟨2, ![768, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (i : (⟨2, ![320000, 256]⟩ : Shape).Idx) : EReal :=
  mlpAt xd xs ea W1 b1 W2 b2 (i 0) (i 1)

theorem mlpK_ix2 (xd xs ea : (⟨2, ![320000, 256]⟩ : Shape).Idx → EReal) (W1 : (⟨2, ![768, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (e : Fin 320000) (f : Fin 256) :
    mlpK xd xs ea W1 b1 W2 b2 (ix2 e f) = mlpAt xd xs ea W1 b1 W2 b2 e f := rfl

end Cert.KernelIdeal.R0Value

end
-- ==== Proof.Region0Pay.lean ====
/-
  The body's arithmetic, read at one entry of a block over the extended reals.

  A block of 2000 edges carries three feature blocks `a`, `b`, `c` (each 2000 × 256); the first layer's weight is
  met as its three 256-row slices `wa`, `wb`, `wc`. Every matrix product below is accumulated into a zero block, so
  at an entry `(r, k)` it is the plain sum `∑ⱼ A (r, j) · B (j, k)`; a change of float format is the identity on
  extended reals; a bias is one row laid along every row of the block. Hence the perceptron's block at `(r, f)`
  is `mlpB … r f`, literally the grouping of `mlpAt` with the block's row in place of the edge. The column sums
  add, to each of the 8 sublane rows of the carried statistics block, the sum over the block's 2000 rows.
-/
import proofs.«159511_j60833916780661_2_alg».proof.Proof.Gen.KernelIdeal.Skeleton
import proofs.«159511_j60833916780661_2_alg».proof.Proof.Region0Spec
import Idealize.ShloMosaic.PureOps.Ideal.Laws
import Idealize.ShloMosaic.Lib.ValueLayout
import Idealize.ShloMosaic.Lib.Pipeline.Value

noncomputable section

open scoped BigOperators
open Idealize.ShloMosaic Idealize.ShloMosaic.ValueIdx Idealize.SL.Sem

namespace Cert.KernelIdeal.R0Value

open Cert.KernelIdeal Cert.KernelIdeal.Gen

/-- The dimension numbers of every product in the body: rows × contraction times contraction × columns. -/
abbrev dotR : DotDims S2000x256 S256x256 S2000x256 := dot_S2000x256_S256x256_S2000x256_1_0_0_1_n_n

/-! ## The operand indices of the product at an output entry -/

theorem lhs_row (i : S2000x256.Idx) (q : dotR.contr.Idx) : (dotR.lhsIdx i q 0).val = (i 0).val := by
  unfold DotDims.lhsIdx
  rw [dif_neg (show ¬(0 : Fin S2000x256.rank) ∈ dotR.lhsBatch by decide),
    dif_pos (show (0 : Fin S2000x256.rank) ∈ dotR.lhsNonContracting by decide)]
  rfl
theorem lhs_con (i : S2000x256.Idx) (q : dotR.contr.Idx) : (dotR.lhsIdx i q 1).val = (q ⟨0, by decide⟩).val :=
  dotR.lhsIdx_val_of_single rfl i q
theorem rhs_con (i : S2000x256.Idx) (q : dotR.contr.Idx) : (dotR.rhsIdx i q 0).val = (q ⟨0, by decide⟩).val :=
  dotR.rhsIdx_val_of_single rfl i q
theorem rhs_col (i : S2000x256.Idx) (q : dotR.contr.Idx) : (dotR.rhsIdx i q 1).val = (i 1).val := by
  unfold DotDims.rhsIdx
  rw [dif_neg (show ¬(1 : Fin S256x256.rank) ∈ dotR.rhsBatch by decide),
    dif_pos (show (1 : Fin S256x256.rank) ∈ dotR.rhsNonContracting by decide)]
  rfl

/-- A product accumulated into the zero block, at entry `(r, k)`: `∑ⱼ A (r, j) · B (j, k)`. -/
theorem matmul_ix {φ₁ φ₂ : FTy} (A : FVec Ideal S2000x256 φ₁) (B : FVec Ideal S256x256 φ₂) (r : Fin 2000) (k : Fin 256) :
    matmul dotR none A B (constant (F := Ideal) S2000x256 .f32 0x00000000#32) (ix2 r k)
      = ∑ j : Fin 256, A (ix2 r j) * B (ix2 j k) := by
  refine (Ideal.matmul_constant_zero_apply dotR none A B (ix2 r k)).trans ?_
  rw [← Equiv.sum_comp (contrEquiv1 dotR 256 rfl rfl).symm]
  refine Finset.sum_congr rfl fun j _ => ?_
  have hk := contrEquiv1_symm_val dotR 256 rfl rfl j
  have el : dotR.lhsIdx (ix2 r k) ((contrEquiv1 dotR 256 rfl rfl).symm j) = ix2 r j := funext fun a => Fin.ext (by
    match a with
    | ⟨0, _⟩ => exact lhs_row _ _
    | ⟨1, _⟩ => exact (lhs_con _ _).trans hk)
  have er : dotR.rhsIdx (ix2 r k) ((contrEquiv1 dotR 256 rfl rfl).symm j) = ix2 j k := funext fun a => Fin.ext (by
    match a with
    | ⟨0, _⟩ => exact (rhs_con _ _).trans hk
    | ⟨1, _⟩ => exact rhs_col _ _)
  rw [el, er]

/-- A bias vector laid along every row of the block, at entry `(r, k)`: its entry `k`. -/
theorem bias_ix {α : Type} (b : S256.Idx → α) (r : Fin 2000) (k : Fin 256) :
    broadcastTo S2000x256 (shapeCast S1x256 b shapeCasts_S256_S1x256) broadcasts_S1x256_S2000x256 (ix2 r k) = b (ix1 k) :=
  (broadcastTo_1b_ab_apply _ broadcasts_S1x256_S2000x256 r k).trans (shapeCast_a_1a_apply b shapeCasts_S256_S1x256 0 k)

/-! ## The perceptron on a block -/

/-- The hidden pre-activation of the block's row `r` at hidden unit `k`. -/
def hidB (a b c : S2000x256.Idx → EReal) (wa wb wc : S256x256.Idx → EReal) (b1 : S256.Idx → EReal)
    (r : Fin 2000) (k : Fin 256) : EReal :=
  (((∑ j : Fin 256, a (ix2 r j) * wa (ix2 j k)) + (∑ j : Fin 256, b (ix2 r j) * wb (ix2 j k)))
      + (∑ j : Fin 256, c (ix2 r j) * wc (ix2 j k)))
    + b1 (ix1 k)

/-- The perceptron's output for the block's row `r` at feature `f`. -/
def mlpB (a b c : S2000x256.Idx → EReal) (wa wb wc : S256x256.Idx → EReal) (b1 : S256.Idx → EReal)
    (w2 : S256x256.Idx → EReal) (b2 : S256.Idx → EReal) (r : Fin 2000) (f : Fin 256) : EReal :=
  (∑ k : Fin 256, (hidB a b c wa wb wc b1 r k * Ideal.logistic (hidB a b c wa wb wc b1 r k)) * w2 (ix2 k f)) + b2 (ix1 f)

/-- The three partial products added left to right, plus the bias, at `(r, k)`. -/
theorem pre_ix {φ : FTy} (a b c : FVec Ideal S2000x256 φ) (wa wb wc : FVec Ideal S256x256 φ) (b1 : FVec Ideal S256 .f32)
    (r : Fin 2000) (k : Fin 256) :
    addf (addf (addf (matmul dotR none a wa (constant (F := Ideal) S2000x256 .f32 0x00000000#32))
        (matmul dotR none b wb (constant (F := Ideal) S2000x256 .f32 0x00000000#32)))
        (matmul dotR none c wc (constant (F := Ideal) S2000x256 .f32 0x00000000#32)))
      (broadcastTo S2000x256 (shapeCast S1x256 b1 shapeCasts_S256_S1x256) broadcasts_S1x256_S2000x256) (ix2 r k)
      = hidB a b c wa wb wc b1 r k := by
  show ((matmul dotR none a wa _ (ix2 r k) + matmul dotR none b wb _ (ix2 r k)) + matmul dotR none c wc _ (ix2 r k))
    + broadcastTo S2000x256 (shapeCast S1x256 b1 shapeCasts_S256_S1x256) broadcasts_S1x256_S2000x256 (ix2 r k) = _
  rw [matmul_ix, matmul_ix, matmul_ix, bias_ix]
  rfl

/-- The first perceptron's product block (before its output bias) at `(r, f)`. -/
theorem pay9_ix (v3 v6 v9 : Vec Ideal S2000x256 .f32) (v11 v13 v15 : Vec Ideal S256x256 .f32) (v22 : Vec Ideal S256 .f32)
    (v28 : Vec Ideal S256x256 .f32) (r : Fin 2000) (f : Fin 256) :
    k0_pay9 v3 v6 v9 v11 v13 v15 v22 v28 (ix2 r f)
      = ∑ k : Fin 256, (hidB v3 v6 v9 v11 v13 v15 v22 r k * Ideal.logistic (hidB v3 v6 v9 v11 v13 v15 v22 r k)) * v28 (ix2 k f) := by
  unfold k0_pay9 k0_pay6 k0_pay7 k0_pay8
  refine (matmul_ix _ _ r f).trans ?_
  refine Finset.sum_congr rfl fun k _ => ?_
  simp only [shapeCast_self]
  exact congrArg (fun z : EReal => (z * Ideal.logistic z) * v28 (ix2 k f))
    (pre_ix (φ := .bf16) _ _ _ _ _ _ v22 r k)

/-- The first perceptron's block (`gate_pre`) at `(r, f)`. -/
theorem gate_ix (v3 v6 v9 : Vec Ideal S2000x256 .f32) (v11 v13 v15 : Vec Ideal S256x256 .f32) (v22 : Vec Ideal S256 .f32)
    (v28 : Vec Ideal S256x256 .f32) (v32 : Vec Ideal S256 .f32) (r : Fin 2000) (f : Fin 256) :
    k0_pay11 (k0_pay9 v3 v6 v9 v11 v13 v15 v22 v28) (k0_pay10 v32) (ix2 r f) = mlpB v3 v6 v9 v11 v13 v15 v22 v28 v32 r f := by
  show k0_pay9 v3 v6 v9 v11 v13 v15 v22 v28 (ix2 r f) + k0_pay10 v32 (ix2 r f) = _
  rw [pay9_ix]
  unfold k0_pay10
  rw [bias_ix]
  rfl

/-- The second perceptron's block (`msg_pre`) at `(r, f)`. -/
theorem msg_ix (v3 v6 v9 : Vec Ideal S2000x256 .f32) (v36 v38 v40 : Vec Ideal S256x256 .f32) (v47 : Vec Ideal S256 .f32)
    (v53 : Vec Ideal S256x256 .f32) (v57 : Vec Ideal S256 .f32) (r : Fin 2000) (f : Fin 256) :
    k0_pay12 (k0_pay6 v3) (k0_pay7 v6) (k0_pay8 v9) v36 v38 v40 v47 v53 v57 (ix2 r f) = mlpB v3 v6 v9 v36 v38 v40 v47 v53 v57 r f := by
  unfold k0_pay12 k0_pay6 k0_pay7 k0_pay8
  refine (addf_apply _ _ (ix2 r f)).trans ?_
  refine congrArg₂ (· + ·) ?_ (bias_ix v57 r f)
  refine (matmul_ix _ _ r f).trans ?_
  refine Finset.sum_congr rfl fun k _ => ?_
  simp only [shapeCast_self]
  exact congrArg (fun z : EReal => (z * Ideal.logistic z) * v53 (ix2 k f))
    (pre_ix (φ := .bf16) _ _ _ _ _ _ v47 r k)

/-- The narrowing to bf16 before each of the two block stores is the identity on extended reals. -/
theorem pay2_ix (v35 : FVec Ideal S2000x256 .f32) (y : S2000x256.Idx) : k0_pay2 v35 y = v35 y := rfl
theorem pay3_ix (v60 : FVec Ideal S2000x256 .f32) (y : S2000x256.Idx) : k0_pay3 v60 y = v60 y := rfl

/-! ## The column sums added to the carried statistics blocks -/

/-- A sum over the block's rows, at column `f`. -/
theorem colsum_ix (G : FVec Ideal S2000x256 .f32) (hφ : FKind.Formats .f32)
    (hacc : (0x00000000#32 : BitVec 32) = FKind.add.neutral .f32 hφ) (f : Fin 256) :
    multiReduction .add [0] S256 G 0x00000000#32 reduces_S2000x256_S256 hφ hacc (ix1 f) = ∑ r : Fin 2000, G (ix2 r f) := by
  refine (Ideal.multiReduction_add_single G 0x00000000#32 reduces_S2000x256_S256 hφ hacc (ix1 f)).trans ?_
  refine Finset.sum_congr rfl fun r _ => ?_
  refine congrArg G (funext fun a => Fin.ext ?_)
  match a with
  | ⟨0, _⟩ => rfl
  | ⟨1, _⟩ => rfl

/-- One row of 256 laid along the 8 sublane rows of a [1, 8, 256] block. -/
theorem bcast8_ix {α : Type} (v : S1x1x256.Idx → α) (u : Fin 1) (s : Fin 8) (f : Fin 256) :
    broadcastTo S1x8x256 v broadcasts_S1x1x256_S1x8x256 (ix3 u s f) = v (ix3 (0 : Fin 1) (0 : Fin 1) f) := by
  refine broadcastTo_apply v broadcasts_S1x1x256_S1x8x256 (ix3 u s f) (ix3 (0 : Fin 1) (0 : Fin 1) f) fun ax => ?_
  match ax with
  | ⟨0, _⟩ => rfl
  | ⟨1, _⟩ => rfl
  | ⟨2, _⟩ => rfl

/-- A [1, 256] row, cast to [1, 1, 256] and laid along the 8 sublane rows, at `(u, s, f)`: its entry `f`. -/
theorem row8_ix {α : Type} (w : S1x256.Idx → α) (u : Fin 1) (s : Fin 8) (f : Fin 256) :
    broadcastTo S1x8x256 (shapeCast S1x1x256 (shapeCast S1x1x256 w shapeCasts_S1x256_S1x1x256) shapeCasts_S1x1x256_S1x1x256)
      broadcasts_S1x1x256_S1x8x256 (ix3 u s f) = w (ix2 (0 : Fin 1) f) := by
  rw [shapeCast_self]
  exact (bcast8_ix _ u s f).trans (shapeCast_ab_1ab_apply w shapeCasts_S1x256_S1x1x256 0 0 f)

/-- The block of column sums of `gate_pre` added to the carried block `acc`, at `(u, s, f)`. -/
theorem sum_ix (v31 v34 : FVec Ideal S2000x256 .f32) (acc : Vec Ideal S1x8x256 .f32) (u : Fin 1) (s : Fin 8) (f : Fin 256) :
    k0_pay14 v31 v34 acc (ix3 u s f) = acc (ix3 u s f) + ∑ r : Fin 2000, k0_pay11 v31 v34 (ix2 r f) := by
  unfold k0_pay14
  show shapeCast S1x8x256 acc shapeCasts_S1x8x256_S1x8x256 (ix3 u s f) + broadcastTo S1x8x256 _ broadcasts_S1x1x256_S1x8x256 (ix3 u s f) = _
  rw [shapeCast_self, row8_ix]
  refine congrArg (acc (ix3 u s f) + ·) ?_
  exact ((shapeCast_a_1a_apply _ shapeCasts_S256_S1x256 0 f).trans (colsum_ix _ _ _ f))

/-- The block of column sums of `gate_pre²` added to the carried block `acc`, at `(u, s, f)`. -/
theorem sumsq_ix (v31 v34 : FVec Ideal S2000x256 .f32) (acc : Vec Ideal S1x8x256 .f32) (u : Fin 1) (s : Fin 8) (f : Fin 256) :
    k0_pay1 (k0_pay13 v31 v34) acc (ix3 u s f)
      = acc (ix3 u s f) + ∑ r : Fin 2000, k0_pay11 v31 v34 (ix2 r f) * k0_pay11 v31 v34 (ix2 r f) := by
  unfold k0_pay1 k0_pay13
  show shapeCast S1x8x256 acc shapeCasts_S1x8x256_S1x8x256 (ix3 u s f) + broadcastTo S1x8x256 _ broadcasts_S1x1x256_S1x8x256 (ix3 u s f) = _
  rw [shapeCast_self, row8_ix]
  refine congrArg (acc (ix3 u s f) + ·) ?_
  exact ((shapeCast_a_1a_apply _ shapeCasts_S256_S1x256 0 f).trans (colsum_ix _ _ _ f))

/-- The zero block the first tile of a core stores into each statistics block. -/
theorem zero_ix (y : S1x8x256.Idx) : (k0_pay4 (F := Ideal)) y = 0 := Ideal.ofBits_zero_f32
theorem zero_ix' (y : S1x8x256.Idx) : (k0_pay5 (F := Ideal)) y = 0 := Ideal.ofBits_zero_f32

end Cert.KernelIdeal.R0Value

end
-- ==== Proof.Region0Tile.lean ====
/-
  From a block of 2000 edges to the whole edge array, and the running column sums.

  Tile `p` of the edge axis is rows `p·2000 ‥ p·2000 + 1999`. If the three feature blocks are that tile of the
  three feature arrays, and the three weight blocks are the row ranges 0‥255, 256‥511, 512‥767 of the first
  layer's weight, then the block perceptron at row `r` is the array perceptron at edge `p·2000 + r`: the two are
  the same expression, sum for sum.

  A core owns 80 consecutive tiles. Its carried statistics block starts from zero at the core's first tile and
  gains one tile's column sum per point, so after point `n` it holds `runSum G n`: the sum of the column sums of
  the tiles `(n / 80)·80 ‥ n`. The extended reals are an additive commutative monoid, so this fold is the plain
  double sum with no finiteness needed; after the core's last tile it is the sum over the core's 80 × 2000 edges.
-/
import proofs.«159511_j60833916780661_2_alg».proof.Proof.Region0Pay

noncomputable section

open scoped BigOperators
open Idealize.ShloMosaic Idealize.ShloMosaic.ValueIdx

namespace Cert.KernelIdeal.R0Value

open Cert.KernelIdeal

/-- The block perceptron on tile `p` is the array perceptron at the tile's edges. -/
theorem mlpB_eq_mlpAt (Xd Xs Ea : S320000x256.Idx → EReal) (W1 : S768x256.Idx → EReal) (B1 : S256.Idx → EReal)
    (W2 : S256x256.Idx → EReal) (B2 : S256.Idx → EReal)
    (a b c : S2000x256.Idx → EReal) (wa wb wc : S256x256.Idx → EReal) (b1 : S256.Idx → EReal)
    (w2 : S256x256.Idx → EReal) (b2 : S256.Idx → EReal) (p : ℕ) (hp : p < 160)
    (ha : ∀ (r : Fin 2000) (j : Fin 256), a (ix2 r j) = Xd (ix2 (⟨p * 2000 + r.val, by have := r.isLt; omega⟩ : Fin 320000) j))
    (hb : ∀ (r : Fin 2000) (j : Fin 256), b (ix2 r j) = Xs (ix2 (⟨p * 2000 + r.val, by have := r.isLt; omega⟩ : Fin 320000) j))
    (hc : ∀ (r : Fin 2000) (j : Fin 256), c (ix2 r j) = Ea (ix2 (⟨p * 2000 + r.val, by have := r.isLt; omega⟩ : Fin 320000) j))
    (hwa : ∀ (j k : Fin 256), wa (ix2 j k) = W1 (ix2 (⟨j.val, by have := j.isLt; omega⟩ : Fin 768) k))
    (hwb : ∀ (j k : Fin 256), wb (ix2 j k) = W1 (ix2 (⟨256 + j.val, by have := j.isLt; omega⟩ : Fin 768) k))
    (hwc : ∀ (j k : Fin 256), wc (ix2 j k) = W1 (ix2 (⟨512 + j.val, by have := j.isLt; omega⟩ : Fin 768) k))
    (hb1 : ∀ k : Fin 256, b1 (ix1 k) = B1 (ix1 k)) (hw2 : ∀ k f : Fin 256, w2 (ix2 k f) = W2 (ix2 k f))
    (hb2 : ∀ f : Fin 256, b2 (ix1 f) = B2 (ix1 f)) (r : Fin 2000) (f : Fin 256) :
    mlpB a b c wa wb wc b1 w2 b2 r f
      = mlpAt Xd Xs Ea W1 B1 W2 B2 (⟨p * 2000 + r.val, by have := r.isLt; omega⟩ : Fin 320000) f := by
  unfold mlpB mlpAt hidB hidK
  simp only [ha, hb, hc, hwa, hwb, hwc, hb1, hw2, hb2]

/-! ## The running column sums of a core -/

/-- The column sum of tile `p` (a tile beyond the array contributes nothing: no point of the grid names one). -/
def tileSum (G : Fin 320000 → Fin 256 → EReal) (p : ℕ) (f : Fin 256) : EReal :=
  ∑ r : Fin 2000, if h : p * 2000 + r.val < 320000 then G ⟨p * 2000 + r.val, h⟩ f else 0

/-- The sum of the column sums of the tiles of point `n`'s core up to `n`. -/
def runSum (G : Fin 320000 → Fin 256 → EReal) (n : ℕ) (f : Fin 256) : EReal :=
  ∑ q ∈ Finset.range (n % 80 + 1), tileSum G (n / 80 * 80 + q) f

/-- At a core's first tile the running sum is zero plus that tile. -/
theorem runSum_first (G : Fin 320000 → Fin 256 → EReal) (n : ℕ) (hn : n % 80 = 0) (f : Fin 256) :
    runSum G n f = 0 + tileSum G n f := by
  unfold runSum
  rw [hn, Finset.sum_range_one, zero_add, Nat.add_zero]
  congr 1
  omega

/-- At any later tile it is the running sum of the point before plus that tile. -/
theorem runSum_next (G : Fin 320000 → Fin 256 → EReal) (n : ℕ) (hn : ¬n % 80 = 0) (f : Fin 256) :
    runSum G n f = runSum G (n - 1) f + tileSum G n f := by
  unfold runSum
  have h1 : n % 80 + 1 = ((n - 1) % 80 + 1) + 1 := by omega
  have h2 : (n - 1) / 80 = n / 80 := by omega
  rw [h1, Finset.sum_range_succ, h2]
  congr 2
  omega

/-- After a core's last tile the running sum is the sum over the core's 80 tiles of 2000 edges. -/
theorem runSum_last (G : Fin 320000 → Fin 256 → EReal) (k : Fin 2) (f : Fin 256) :
    runSum G (k.val * 80 + 79) f
      = ∑ t : Fin 80, ∑ r : Fin 2000,
          G (⟨(k.val * 80 + t.val) * 2000 + r.val, by have := k.isLt; have := t.isLt; have := r.isLt; omega⟩ : Fin 320000) f := by
  unfold runSum
  have h1 : (k.val * 80 + 79) % 80 + 1 = 80 := by omega
  have h2 : (k.val * 80 + 79) / 80 * 80 = k.val * 80 := by omega
  rw [h1, h2, Finset.sum_range]
  refine Finset.sum_congr rfl fun t _ => ?_
  unfold tileSum
  refine Finset.sum_congr rfl fun r _ => ?_
  exact dif_pos (by have := k.isLt; have := t.isLt; have := r.isLt; omega)

/-- A tile the grid names lies inside the array: its column sum is the plain sum over its rows. -/
theorem tileSum_eq (G : Fin 320000 → Fin 256 → EReal) (p : ℕ) (hp : p < 160) (f : Fin 256) :
    tileSum G p f = ∑ r : Fin 2000, G (⟨p * 2000 + r.val, by have := r.isLt; omega⟩ : Fin 320000) f := by
  unfold tileSum
  refine Finset.sum_congr rfl fun r _ => ?_
  exact dif_pos (by have := r.isLt; omega)

end Cert.KernelIdeal.R0Value

end
-- ==== Proof.Region0Point.lean ====
/-
  What one grid point leaves in its four output blocks, as functions of the arrays the region finds.

  At point `t` the two perceptron blocks are the array perceptrons `gateG`, `msgG` at the edges of tile `t`;
  the statistics blocks gain the tile's column sums of `gateG` and of its square: from zero at a core's first
  tile, from the carried contents at every other tile.
-/
import proofs.«159511_j60833916780661_2_alg».proof.Proof.Region0Blocks
import proofs.«159511_j60833916780661_2_alg».proof.Proof.Region0Pieces
import proofs.«159511_j60833916780661_2_alg».proof.Proof.Region0Tile

noncomputable section

open scoped BigOperators
open Idealize.ShloMosaic Idealize.ShloMosaic.TcCoe Idealize.SL.Sem Idealize.ShloMosaic.ValueIdx
open Idealize.ShloMosaic.Pipeline (Dat)

namespace Cert.KernelIdeal.R0Value

open Cert.KernelIdeal Cert.KernelIdeal.Gen

variable (V : (c : Dev nD) → (b : Ref sig .tc) → Buf (Elt Ideal) ((c : Thread nD τ).loc b))

/-- The first perceptron (`gate_pre`) of the arrays the region finds, by edge and feature. -/
def gateG (c : Dev nD) : Fin 320000 → Fin 256 → EReal := mlpAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
/-- The second perceptron (`msg_pre`) of the arrays the region finds. -/
def msgG (c : Dev nD) : Fin 320000 → Fin 256 → EReal := mlpAt (V c (Pipeline.arrRef spec0 0)) (V c (Pipeline.arrRef spec0 1)) (V c (Pipeline.arrRef spec0 2)) (V c (Pipeline.arrRef spec0 7)) (V c (Pipeline.arrRef spec0 8)) (V c (Pipeline.arrRef spec0 9)) (V c (Pipeline.arrRef spec0 10))
/-- The square of the first. -/
def gateSq (c : Dev nD) : Fin 320000 → Fin 256 → EReal := fun e f => gateG V c e f * gateG V c e f

theorem lt_N (t : Fin cfg0.N) : t.val < 160 := lt_of_lt_of_eq t.isLt (show cfg0.N = 160 from N_0)

/-- A 256-row slice of a 768-row block from row `o`, at `(j, k)`: the block at `(o + j, k)`. -/
theorem rows_ix {Val : EltTy → Type} {e : EltTy} (X : S768x256.Idx → Val e) (o : Nat)
    (inb : ∀ a, (![o, 0] : Fin 2 → Nat) a + S256x256.size a ≤ S768x256.size a) (j k : Fin 256) (q : Fin 768)
    (hq : q.val = o + j.val) : View.ld X (Rect.unit (s := S768x256) ![o, 0] S256x256.size inb) (ix2 j k) = X (ix2 q k) := by
  show X ((Rect.unit (s := S768x256) ![o, 0] S256x256.size inb).idx (ix2 j k)) = X (ix2 q k)
  refine congrArg X (funext fun a => Fin.ext ?_)
  match a with
  | ⟨0, _⟩ => show o + 1 * j.val = q.val; omega
  | ⟨1, _⟩ => show 0 + 1 * k.val = k.val; omega

/-- The first perceptron's block at point `t` is `gateG` on tile `t`. -/
theorem gate_block (c : Dev nD) (t : Fin cfg0.N) (r : Fin 2000) (f : Fin 256) :
    k0_pay11 (k0_pay9 (iblk0 V c 0 t) (iblk0 V c 1 t) (iblk0 V c 2 t) (rows0 (iblk0 V c 3 t)) (rows256 (iblk0 V c 3 t)) (rows512 (iblk0 V c 3 t)) (iblk0 V c 4 t) (iblk0 V c 5 t)) (k0_pay10 (iblk0 V c 6 t)) (ix2 r f) = gateG V c ⟨t.val * 2000 + r.val, lt_tile t r⟩ f :=
  (gate_ix (iblk0 V c 0 t) (iblk0 V c 1 t) (iblk0 V c 2 t) (rows0 (iblk0 V c 3 t)) (rows256 (iblk0 V c 3 t)) (rows512 (iblk0 V c 3 t))
      (iblk0 V c 4 t) (iblk0 V c 5 t) (iblk0 V c 6 t) r f).trans
    (mlpB_eq_mlpAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
      (iblk0 V c 0 t) (iblk0 V c 1 t) (iblk0 V c 2 t) (rows0 (iblk0 V c 3 t)) (rows256 (iblk0 V c 3 t)) (rows512 (iblk0 V c 3 t))
      (iblk0 V c 4 t) (iblk0 V c 5 t) (iblk0 V c 6 t) t.val (lt_N t)
      (iblk_rows0 V c t) (iblk_rows1 V c t) (iblk_rows2 V c t)
      (fun j k => (rows_ix (Val := Elt Ideal) (e := .f32) (iblk0 V c 3 t) 0 inb_S768x256_S256x256_0_0 j k ⟨j.val, by have := j.isLt; omega⟩ (Nat.zero_add _).symm).trans (iblk_whole3 V c t _ k))
      (fun j k => (rows_ix (Val := Elt Ideal) (e := .f32) (iblk0 V c 3 t) 256 inb_S768x256_S256x256_256_0 j k ⟨256 + j.val, by have := j.isLt; omega⟩ rfl).trans (iblk_whole3 V c t _ k))
      (fun j k => (rows_ix (Val := Elt Ideal) (e := .f32) (iblk0 V c 3 t) 512 inb_S768x256_S256x256_512_0 j k ⟨512 + j.val, by have := j.isLt; omega⟩ rfl).trans (iblk_whole3 V c t _ k))
      (iblk_whole4 V c t) (iblk_whole5 V c t) (iblk_whole6 V c t) r f)

/-- The second perceptron's block at point `t` is `msgG` on tile `t`. -/
theorem msg_block (c : Dev nD) (t : Fin cfg0.N) (r : Fin 2000) (f : Fin 256) :
    k0_pay12 (k0_pay6 (iblk0 V c 0 t)) (k0_pay7 (iblk0 V c 1 t)) (k0_pay8 (iblk0 V c 2 t)) (rows0 (iblk0 V c 7 t)) (rows256 (iblk0 V c 7 t)) (rows512 (iblk0 V c 7 t))
        (iblk0 V c 8 t) (iblk0 V c 9 t) (iblk0 V c 10 t) (ix2 r f) = msgG V c ⟨t.val * 2000 + r.val, lt_tile t r⟩ f :=
  (msg_ix (iblk0 V c 0 t) (iblk0 V c 1 t) (iblk0 V c 2 t) (rows0 (iblk0 V c 7 t)) (rows256 (iblk0 V c 7 t)) (rows512 (iblk0 V c 7 t))
      (iblk0 V c 8 t) (iblk0 V c 9 t) (iblk0 V c 10 t) r f).trans
    (mlpB_eq_mlpAt (V c (Pipeline.arrRef spec0 0)) (V c (Pipeline.arrRef spec0 1)) (V c (Pipeline.arrRef spec0 2)) (V c (Pipeline.arrRef spec0 7)) (V c (Pipeline.arrRef spec0 8)) (V c (Pipeline.arrRef spec0 9)) (V c (Pipeline.arrRef spec0 10))
      (iblk0 V c 0 t) (iblk0 V c 1 t) (iblk0 V c 2 t) (rows0 (iblk0 V c 7 t)) (rows256 (iblk0 V c 7 t)) (rows512 (iblk0 V c 7 t))
      (iblk0 V c 8 t) (iblk0 V c 9 t) (iblk0 V c 10 t) t.val (lt_N t)
      (iblk_rows0 V c t) (iblk_rows1 V c t) (iblk_rows2 V c t)
      (fun j k => (rows_ix (Val := Elt Ideal) (e := .f32) (iblk0 V c 7 t) 0 inb_S768x256_S256x256_0_0 j k ⟨j.val, by have := j.isLt; omega⟩ (Nat.zero_add _).symm).trans (iblk_whole7 V c t _ k))
      (fun j k => (rows_ix (Val := Elt Ideal) (e := .f32) (iblk0 V c 7 t) 256 inb_S768x256_S256x256_256_0 j k ⟨256 + j.val, by have := j.isLt; omega⟩ rfl).trans (iblk_whole7 V c t _ k))
      (fun j k => (rows_ix (Val := Elt Ideal) (e := .f32) (iblk0 V c 7 t) 512 inb_S768x256_S256x256_512_0 j k ⟨512 + j.val, by have := j.isLt; omega⟩ rfl).trans (iblk_whole7 V c t _ k))
      (iblk_whole8 V c t) (iblk_whole9 V c t) (iblk_whole10 V c t) r f)

/-- The tile's column sum of the first perceptron's block is `tileSum gateG t`. -/
theorem colsum_block (c : Dev nD) (t : Fin cfg0.N) (f : Fin 256) :
    (∑ r : Fin 2000, k0_pay11 (k0_pay9 (iblk0 V c 0 t) (iblk0 V c 1 t) (iblk0 V c 2 t) (rows0 (iblk0 V c 3 t)) (rows256 (iblk0 V c 3 t)) (rows512 (iblk0 V c 3 t)) (iblk0 V c 4 t) (iblk0 V c 5 t)) (k0_pay10 (iblk0 V c 6 t)) (ix2 r f)) = tileSum (gateG V c) t.val f :=
  (Finset.sum_congr rfl fun r _ => gate_block V c t r f).trans (tileSum_eq (gateG V c) t.val (lt_N t) f).symm

theorem colsumsq_block (c : Dev nD) (t : Fin cfg0.N) (f : Fin 256) :
    (∑ r : Fin 2000, k0_pay11 (k0_pay9 (iblk0 V c 0 t) (iblk0 V c 1 t) (iblk0 V c 2 t) (rows0 (iblk0 V c 3 t)) (rows256 (iblk0 V c 3 t)) (rows512 (iblk0 V c 3 t)) (iblk0 V c 4 t) (iblk0 V c 5 t)) (k0_pay10 (iblk0 V c 6 t)) (ix2 r f) * k0_pay11 (k0_pay9 (iblk0 V c 0 t) (iblk0 V c 1 t) (iblk0 V c 2 t) (rows0 (iblk0 V c 3 t)) (rows256 (iblk0 V c 3 t)) (rows512 (iblk0 V c 3 t)) (iblk0 V c 4 t) (iblk0 V c 5 t)) (k0_pay10 (iblk0 V c 6 t)) (ix2 r f)) = tileSum (gateSq V c) t.val f :=
  (Finset.sum_congr rfl fun r _ => by rw [gate_block V c t r f]; rfl).trans (tileSum_eq (gateSq V c) t.val (lt_N t) f).symm

/-! ## The four output blocks after the body at point `t` -/

theorem gate_pt_A (c : Dev nD) (t : Fin cfg0.N) (hc : cond0_0 (grid0.coords t)) (r : Fin 2000) (f : Fin 256) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r f) = gateG V c ⟨t.val * 2000 + r.val, lt_tile t r⟩ f :=
  (congrFun (piece_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) (ix2 r f)).trans (gate_block V c t r f)
theorem gate_pt_B (c : Dev nD) (t : Fin cfg0.N) (hc : ¬cond0_0 (grid0.coords t)) (a13 a14 : Vec Ideal S1x8x256 .f32) (r : Fin 2000) (f : Fin 256) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14 (ix2 r f) = gateG V c ⟨t.val * 2000 + r.val, lt_tile t r⟩ f :=
  (congrFun (piece_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14) (ix2 r f)).trans (gate_block V c t r f)
theorem msg_pt_A (c : Dev nD) (t : Fin cfg0.N) (hc : cond0_0 (grid0.coords t)) (r : Fin 2000) (f : Fin 256) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r f) = msgG V c ⟨t.val * 2000 + r.val, lt_tile t r⟩ f :=
  (congrFun (piece_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) (ix2 r f)).trans (msg_block V c t r f)
theorem msg_pt_B (c : Dev nD) (t : Fin cfg0.N) (hc : ¬cond0_0 (grid0.coords t)) (a13 a14 : Vec Ideal S1x8x256 .f32) (r : Fin 2000) (f : Fin 256) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14 (ix2 r f) = msgG V c ⟨t.val * 2000 + r.val, lt_tile t r⟩ f :=
  (congrFun (piece_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14) (ix2 r f)).trans (msg_block V c t r f)

theorem sum_pt_A (c : Dev nD) (t : Fin cfg0.N) (hc : cond0_0 (grid0.coords t)) (u : Fin 1) (s : Fin 8) (f : Fin 256) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix3 u s f) = 0 + tileSum (gateG V c) t.val f :=
  (congrFun (piece_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) (ix3 u s f)).trans
    ((sum_ix _ _ _ u s f).trans (congrArg₂ (· + ·) (zero_ix _) (colsum_block V c t f)))
theorem sum_pt_B (c : Dev nD) (t : Fin cfg0.N) (hc : ¬cond0_0 (grid0.coords t)) (a13 a14 : Vec Ideal S1x8x256 .f32) (u : Fin 1) (s : Fin 8) (f : Fin 256) :
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14 (ix3 u s f) = a13 (ix3 u s f) + tileSum (gateG V c) t.val f :=
  (congrFun (piece_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14) (ix3 u s f)).trans
    ((sum_ix _ _ a13 u s f).trans (congrArg (a13 (ix3 u s f) + ·) (colsum_block V c t f)))
theorem sumsq_pt_A (c : Dev nD) (t : Fin cfg0.N) (hc : cond0_0 (grid0.coords t)) (u : Fin 1) (s : Fin 8) (f : Fin 256) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix3 u s f) = 0 + tileSum (gateSq V c) t.val f :=
  (congrFun (piece_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) (ix3 u s f)).trans
    ((sumsq_ix _ _ _ u s f).trans (congrArg₂ (· + ·) (zero_ix' _) (colsumsq_block V c t f)))
theorem sumsq_pt_B (c : Dev nD) (t : Fin cfg0.N) (hc : ¬cond0_0 (grid0.coords t)) (a13 a14 : Vec Ideal S1x8x256 .f32) (u : Fin 1) (s : Fin 8) (f : Fin 256) :
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14 (ix3 u s f) = a14 (ix3 u s f) + tileSum (gateSq V c) t.val f :=
  (congrFun (piece_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) hc (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) a13 a14) (ix3 u s f)).trans
    ((sumsq_ix _ _ a14 u s f).trans (congrArg (a14 (ix3 u s f) + ·) (colsumsq_block V c t f)))

end Cert.KernelIdeal.R0Value

end
-- ==== Proof.Region0Gate.lean ====
import proofs.«159511_j60833916780661_2_alg».proof.Proof.Region0Point
import Idealize.ShloMosaic.Lib.Pipeline.Value

/-!
# The first region's two perceptron arrays

The first region's grid has 160 points: two cores, eighty tiles of 2000 edges each.  Point `t` writes rows
`2000 t … 2000 t + 1999` of the gate pre-activation array and of the message pre-activation array, and what it
writes is the perceptron of the region's input arrays at those edges, whichever of the body's two control cases
the point runs.  The 160 blocks tile the 320000 rows, so after the region each of the two arrays is the
perceptron at every index.
-/

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R0Value

open Cert.KernelIdeal

variable (V : (c : Dev nD) → (b : Ref sig .tc) → Buf (Elt Ideal) ((c : Thread nD τ).loc b))

/-! ## Window 11: the gate pre-activation -/

/-- What a point of the first control case leaves in the block: the array perceptron at the tile's edge. -/
theorem gate_outA (c : Dev nD) (t : Fin cfg0.N) (h0 : t.val % 80 = 0) (r : Fin 2000) (f : Fin 256) :
    (Gen.outsAt0 V c t.val t.isLt).1 (ix2 r f) = gateG V c ⟨t.val * 2000 + r.val, lt_tile t r⟩ f := by
  rw [Gen.outsAt0_A V c t h0]
  dsimp only
  exact gate_pt_A V c t ((Gen.hcond0_0 t).mpr h0) r f

/-- The same at a point of the second control case. -/
theorem gate_outB (c : Dev nD) (t : Fin cfg0.N) (h0 : ¬ t.val % 80 = 0) (r : Fin 2000) (f : Fin 256) :
    (Gen.outsAt0 V c t.val t.isLt).1 (ix2 r f) = gateG V c ⟨t.val * 2000 + r.val, lt_tile t r⟩ f := by
  rw [Gen.outsAt0_B V c t h0]
  dsimp only
  exact gate_pt_B V c t (fun h => h0 ((Gen.hcond0_0 t).mp h)) _ _ r f

/-- What a point leaves in the block, at any index of the block. -/
theorem gate_out (c : Dev nD) (t : Fin cfg0.N) (y : S2000x256.Idx) :
    (Gen.outsAt0 V c t.val t.isLt).1 y = gateG V c ⟨t.val * 2000 + (y 0).val, lt_tile t (y 0)⟩ (y 1) := by
  obtain ⟨r, f, rfl⟩ : ∃ (r : Fin 2000) (f : Fin 256), y = ix2 r f := ⟨y 0, y 1, eq_ix2 y⟩
  by_cases h0 : t.val % 80 = 0
  · exact gate_outA V c t h0 r f
  · exact gate_outB V c t h0 r f

/-- The array perceptron at an index whose coordinates are the edge and the feature. -/
theorem gate_at (c : Dev nD) (i : S320000x256.Idx) (e : Fin 320000) (f : Fin 256) (h0 : (i 0).val = e.val) (h1 : (i 1).val = f.val) :
    gateG V c e f = mlpK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) i := by
  have hi : i = ix2 e f := funext fun a => Fin.ext (by match a with | ⟨0, _⟩ => exact h0 | ⟨1, _⟩ => exact h1)
  subst hi; rfl

set_option maxHeartbeats 1000000 in
/-- What point `t` writes back is block `t` of the array perceptron. -/
theorem gate_flushed (c : Dev nD) (t : Fin cfg0.N) :
    (Gen.dat0 V c).flushed 11 t = ((cfg0.win 11).blk t).view.read (Elt Ideal)
      (fun i => mlpK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) i) := by
  show (cfg0.win 11).cut (grid0.coords t) ((Gen.dat0 V c).after 11 t) = _
  rw [Gen.after0_11]
  funext y
  refine (gate_out V c t y).trans ?_
  obtain ⟨e0, e1⟩ := idx_rows11 t
  have hy0 : ((((cfg0.win 11).blk t).view.emb y) 0).val = t.val * 2000 + (y 0).val := by
    show win0_11.index t (0 : Fin 2) * 2000 + 1 * (y 0).val = _
    omega
  have hy1 : ((((cfg0.win 11).blk t).view.emb y) 1).val = (y 1).val := by
    show win0_11.index t (1 : Fin 2) * 256 + 1 * (y 1).val = _
    omega
  exact gate_at V c (((cfg0.win 11).blk t).view.emb y) ⟨t.val * 2000 + (y 0).val, lt_tile t (y 0)⟩ (y 1) hy0 hy1

/-- An index of the array is in point `t`'s block iff each coordinate is in the block's range. -/
theorem mem_blk11 (t : Fin cfg0.N) (i : S320000x256.Idx) :
    i ∈ ((cfg0.win 11).blk t).view.set ↔ ∀ a : Fin 2, win0_11.index t a * S2000x256.size a ≤ (i a).val
      ∧ (i a).val < win0_11.index t a * S2000x256.size a + S2000x256.size a := by
  show i ∈ ((View.whole main_v18_0).slice (win0_11.rect t)).set ↔ _
  rw [View.set_slice_whole, Rect.mem_set_unit]
  exact Iff.rfl

/-- The 160 blocks cover the array: edge row `e` is in the block of point `e / 2000`. -/
theorem cover11 (i : S320000x256.Idx) :
    ∃ t : Fin cfg0.N, (cfg0.win 11).flush t = true ∧ i ∈ ((cfg0.win 11).blk t).view.set := by
  have hi0 : (i 0).val < 320000 := (i 0).isLt
  have hi1 : (i 1).val < 256 := (i 1).isLt
  obtain ⟨t, ht⟩ : ∃ t : Fin cfg0.N, t.val = (i 0).val / 2000 :=
    ⟨⟨(i 0).val / 2000, by show (i 0).val / 2000 < grid0.N; rw [Gen.N_0]; omega⟩, rfl⟩
  obtain ⟨e0, e1⟩ := idx_rows11 t
  refine ⟨t, Gen.flush0_11 t, ?_⟩
  rw [mem_blk11]
  intro a
  match a with
  | ⟨0, _⟩ =>
    show win0_11.index t (0 : Fin 2) * 2000 ≤ (i 0).val ∧ (i 0).val < win0_11.index t (0 : Fin 2) * 2000 + 2000
    omega
  | ⟨1, _⟩ =>
    show win0_11.index t (1 : Fin 2) * 256 ≤ (i 1).val ∧ (i 1).val < win0_11.index t (1 : Fin 2) * 256 + 256
    omega

/-- THE GATE PRE-ACTIVATION ARRAY after the first region: the first perceptron (weights in windows 3 to 6) of the
    gathered target and source features (windows 0, 1) and the edge attributes (window 2), at every index. -/
theorem gate_arr (c : Dev nD) :
    (Gen.dat0 V c).arrAt 11 cfg0.N = fun i => mlpK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) i :=
  (Gen.dat0 V c).arrAt_eq_of_cover 11 _ (fun t _ => gate_flushed V c t) cover11

/-! ## Window 12: the message pre-activation -/

/-- What a point of the first control case leaves in the block: the array perceptron at the tile's edge. -/
theorem msg_outA (c : Dev nD) (t : Fin cfg0.N) (h0 : t.val % 80 = 0) (r : Fin 2000) (f : Fin 256) :
    (Gen.outsAt0 V c t.val t.isLt).2.1 (ix2 r f) = msgG V c ⟨t.val * 2000 + r.val, lt_tile t r⟩ f := by
  rw [Gen.outsAt0_A V c t h0]
  dsimp only
  exact msg_pt_A V c t ((Gen.hcond0_0 t).mpr h0) r f

/-- The same at a point of the second control case. -/
theorem msg_outB (c : Dev nD) (t : Fin cfg0.N) (h0 : ¬ t.val % 80 = 0) (r : Fin 2000) (f : Fin 256) :
    (Gen.outsAt0 V c t.val t.isLt).2.1 (ix2 r f) = msgG V c ⟨t.val * 2000 + r.val, lt_tile t r⟩ f := by
  rw [Gen.outsAt0_B V c t h0]
  dsimp only
  exact msg_pt_B V c t (fun h => h0 ((Gen.hcond0_0 t).mp h)) _ _ r f

/-- What a point leaves in the block, at any index of the block. -/
theorem msg_out (c : Dev nD) (t : Fin cfg0.N) (y : S2000x256.Idx) :
    (Gen.outsAt0 V c t.val t.isLt).2.1 y = msgG V c ⟨t.val * 2000 + (y 0).val, lt_tile t (y 0)⟩ (y 1) := by
  obtain ⟨r, f, rfl⟩ : ∃ (r : Fin 2000) (f : Fin 256), y = ix2 r f := ⟨y 0, y 1, eq_ix2 y⟩
  by_cases h0 : t.val % 80 = 0
  · exact msg_outA V c t h0 r f
  · exact msg_outB V c t h0 r f

/-- The array perceptron at an index whose coordinates are the edge and the feature. -/
theorem msg_at (c : Dev nD) (i : S320000x256.Idx) (e : Fin 320000) (f : Fin 256) (h0 : (i 0).val = e.val) (h1 : (i 1).val = f.val) :
    msgG V c e f = mlpK (V c (Pipeline.arrRef spec0 0)) (V c (Pipeline.arrRef spec0 1)) (V c (Pipeline.arrRef spec0 2)) (V c (Pipeline.arrRef spec0 7)) (V c (Pipeline.arrRef spec0 8)) (V c (Pipeline.arrRef spec0 9)) (V c (Pipeline.arrRef spec0 10)) i := by
  have hi : i = ix2 e f := funext fun a => Fin.ext (by match a with | ⟨0, _⟩ => exact h0 | ⟨1, _⟩ => exact h1)
  subst hi; rfl

set_option maxHeartbeats 1000000 in
/-- What point `t` writes back is block `t` of the array perceptron. -/
theorem msg_flushed (c : Dev nD) (t : Fin cfg0.N) :
    (Gen.dat0 V c).flushed 12 t = ((cfg0.win 12).blk t).view.read (Elt Ideal)
      (fun i => mlpK (V c (Pipeline.arrRef spec0 0)) (V c (Pipeline.arrRef spec0 1)) (V c (Pipeline.arrRef spec0 2)) (V c (Pipeline.arrRef spec0 7)) (V c (Pipeline.arrRef spec0 8)) (V c (Pipeline.arrRef spec0 9)) (V c (Pipeline.arrRef spec0 10)) i) := by
  show (cfg0.win 12).cut (grid0.coords t) ((Gen.dat0 V c).after 12 t) = _
  rw [Gen.after0_12]
  funext y
  refine (msg_out V c t y).trans ?_
  obtain ⟨e0, e1⟩ := idx_rows12 t
  have hy0 : ((((cfg0.win 12).blk t).view.emb y) 0).val = t.val * 2000 + (y 0).val := by
    show win0_12.index t (0 : Fin 2) * 2000 + 1 * (y 0).val = _
    omega
  have hy1 : ((((cfg0.win 12).blk t).view.emb y) 1).val = (y 1).val := by
    show win0_12.index t (1 : Fin 2) * 256 + 1 * (y 1).val = _
    omega
  exact msg_at V c (((cfg0.win 12).blk t).view.emb y) ⟨t.val * 2000 + (y 0).val, lt_tile t (y 0)⟩ (y 1) hy0 hy1

/-- An index of the array is in point `t`'s block iff each coordinate is in the block's range. -/
theorem mem_blk12 (t : Fin cfg0.N) (i : S320000x256.Idx) :
    i ∈ ((cfg0.win 12).blk t).view.set ↔ ∀ a : Fin 2, win0_12.index t a * S2000x256.size a ≤ (i a).val
      ∧ (i a).val < win0_12.index t a * S2000x256.size a + S2000x256.size a := by
  show i ∈ ((View.whole main_v18_1).slice (win0_12.rect t)).set ↔ _
  rw [View.set_slice_whole, Rect.mem_set_unit]
  exact Iff.rfl

/-- The 160 blocks cover the array: edge row `e` is in the block of point `e / 2000`. -/
theorem cover12 (i : S320000x256.Idx) :
    ∃ t : Fin cfg0.N, (cfg0.win 12).flush t = true ∧ i ∈ ((cfg0.win 12).blk t).view.set := by
  have hi0 : (i 0).val < 320000 := (i 0).isLt
  have hi1 : (i 1).val < 256 := (i 1).isLt
  obtain ⟨t, ht⟩ : ∃ t : Fin cfg0.N, t.val = (i 0).val / 2000 :=
    ⟨⟨(i 0).val / 2000, by show (i 0).val / 2000 < grid0.N; rw [Gen.N_0]; omega⟩, rfl⟩
  obtain ⟨e0, e1⟩ := idx_rows12 t
  refine ⟨t, Gen.flush0_12 t, ?_⟩
  rw [mem_blk12]
  intro a
  match a with
  | ⟨0, _⟩ =>
    show win0_12.index t (0 : Fin 2) * 2000 ≤ (i 0).val ∧ (i 0).val < win0_12.index t (0 : Fin 2) * 2000 + 2000
    omega
  | ⟨1, _⟩ =>
    show win0_12.index t (1 : Fin 2) * 256 ≤ (i 1).val ∧ (i 1).val < win0_12.index t (1 : Fin 2) * 256 + 256
    omega

/-- THE MESSAGE PRE-ACTIVATION ARRAY after the first region: the second perceptron (weights in windows 7 to 10)
    of the same three feature arrays, at every index. -/
theorem msg_arr (c : Dev nD) :
    (Gen.dat0 V c).arrAt 12 cfg0.N = fun i => mlpK (V c (Pipeline.arrRef spec0 0)) (V c (Pipeline.arrRef spec0 1)) (V c (Pipeline.arrRef spec0 2)) (V c (Pipeline.arrRef spec0 7)) (V c (Pipeline.arrRef spec0 8)) (V c (Pipeline.arrRef spec0 9)) (V c (Pipeline.arrRef spec0 10)) i :=
  (Gen.dat0 V c).arrAt_eq_of_cover 12 _ (fun t _ => msg_flushed V c t) cover12

end Cert.KernelIdeal.R0Value

end
-- ==== Proof.Region0Stats.lean ====
/-
  The two carried statistics blocks: what they hold after each grid point, and the two statistics arrays after
  the region.

  The staging buffer of a statistics window is not written back between the tiles of one core, so the body at a
  tile that is not the core's first continues from what the tile before left. Hence, by induction on the point,
  after point `n` every one of the 8 sublane rows of the block holds, at feature `f`, the running sum
  `runSum G n f` of the column sums of the core's tiles up to `n` — with `G` the first perceptron for window 13 and
  its square for window 14. The block is written back once, after the core's last tile, into row block
  `n / 80` of the [2, 8, 256] array; there the running sum is the sum over the core's 80 × 2000 edges.
-/
import proofs.«159511_j60833916780661_2_alg».proof.Proof.Region0Point

noncomputable section

open scoped BigOperators
open Idealize.ShloMosaic Idealize.ShloMosaic.TcCoe Idealize.SL.Sem Idealize.ShloMosaic.ValueIdx
open Idealize.ShloMosaic.Pipeline (Dat)

namespace Cert.KernelIdeal.R0Value

open Cert.KernelIdeal Cert.KernelIdeal.Gen

variable (V : (c : Dev nD) → (b : Ref sig .tc) → Buf (Elt Ideal) ((c : Thread nD τ).loc b))

/-- After point `n` the two carried blocks hold the running sums of the core's tiles up to `n`. -/
theorem stats_inv (c : Dev nD) (n : ℕ) : ∀ (hn : n < cfg0.N) (u : Fin 1) (s : Fin 8) (f : Fin 256),
    (outsAt0 V c n hn).2.2.1 (ix3 u s f) = runSum (gateG V c) n f
      ∧ (outsAt0 V c n hn).2.2.2 (ix3 u s f) = runSum (gateSq V c) n f := by
  induction n using Nat.strong_induction_on with
  | _ n ih =>
    intro hn u s f
    by_cases h0 : n % 80 = 0
    · rw [outsAt0_A V c ⟨n, hn⟩ h0]
      dsimp only
      exact ⟨(sum_pt_A V c ⟨n, hn⟩ ((hcond0_0 ⟨n, hn⟩).mpr h0) u s f).trans (runSum_first (gateG V c) n h0 f).symm,
        (sumsq_pt_A V c ⟨n, hn⟩ ((hcond0_0 ⟨n, hn⟩).mpr h0) u s f).trans (runSum_first (gateSq V c) n h0 f).symm⟩
    · rw [outsAt0_B V c ⟨n, hn⟩ h0]
      dsimp only
      have hlt : n - 1 < cfg0.N := Nat.lt_of_le_of_lt (Nat.sub_le _ _) hn
      have ihp := ih (n - 1) (by omega) hlt u s f
      refine ⟨(sum_pt_B V c ⟨n, hn⟩ (fun h => h0 ((hcond0_0 ⟨n, hn⟩).mp h)) (outsAt0 V c (n - 1) hlt).2.2.1
          (outsAt0 V c (n - 1) hlt).2.2.2 u s f).trans ?_,
        (sumsq_pt_B V c ⟨n, hn⟩ (fun h => h0 ((hcond0_0 ⟨n, hn⟩).mp h)) (outsAt0 V c (n - 1) hlt).2.2.1
          (outsAt0 V c (n - 1) hlt).2.2.2 u s f).trans ?_⟩
      · rw [runSum_next (gateG V c) n h0 f]
        exact congrArg (· + tileSum (gateG V c) n f) ihp.1
      · rw [runSum_next (gateSq V c) n h0 f]
        exact congrArg (· + tileSum (gateSq V c) n f) ihp.2

/-- A core's tile and row name an edge of the array. -/
theorem core_lt (i : S2x8x256.Idx) (t : Fin 80) (r : Fin 2000) : ((i 0).val * 80 + t.val) * 2000 + r.val < 320000 := by
  have h : (i 0).val < 2 := (i 0).isLt
  have := t.isLt; have := r.isLt; omega

/-- The sum of `G` over the 80 × 2000 edges of core `i 0`, at feature `i 2` (the same in each sublane row `i 1`). -/
def coreSum (G : Fin 320000 → Fin 256 → EReal) (i : S2x8x256.Idx) : EReal :=
  ∑ t : Fin 80, ∑ r : Fin 2000, G ⟨((i 0).val * 80 + t.val) * 2000 + r.val, core_lt i t r⟩ (i 2)

/-- What a core's last tile writes back to statistics block 13: the sum over the core's 80 × 2000 edges. -/
theorem flushed13 (c : Dev nD) (t : Fin cfg0.N) (hf : (cfg0.win 13).flush t = true) :
    (dat0 V c).flushed 13 t = ((cfg0.win 13).blk t).view.read (Elt Ideal) (coreSum (gateG V c)) := by
  have h79 : t.val % 80 = 79 := (flush0_13 t).mp hf
  have hk : t.val / 80 < 2 := by have := lt_N t; omega
  show (cfg0.win 13).cut (grid0.coords t) ((dat0 V c).after 13 t) = _
  rw [after0_13]
  funext y
  obtain ⟨u, s, f, rfl⟩ : ∃ (u : Fin 1) (s : Fin 8) (f : Fin 256), y = ix3 u s f :=
    ⟨⟨(y 0).val, (y 0).isLt⟩, ⟨(y 1).val, (y 1).isLt⟩, ⟨(y 2).val, (y 2).isLt⟩,
      funext fun a => Fin.ext (by match a with | ⟨0, _⟩ => rfl | ⟨1, _⟩ => rfl | ⟨2, _⟩ => rfl)⟩
  rw [View.read_apply]
  show (outsAt0 V c t.val t.isLt).2.2.1 (ix3 u s f) = coreSum (gateG V c) (((cfg0.win 13).blk t).view.emb (ix3 u s f))
  have e0 : ((cfg0.win 13).blk t).view.emb (ix3 u s f) = ix3 (⟨t.val / 80, hk⟩ : Fin 2) s f := funext fun a => Fin.ext (by
    obtain ⟨e0, e1, e2⟩ := idx_stats13 t
    have hu : u.val = 0 := by omega
    match a with
    | ⟨0, _⟩ => show win0_13.index t (0 : Fin 3) * 1 + 1 * u.val = t.val / 80; rw [e0]; omega
    | ⟨1, _⟩ => show win0_13.index t (1 : Fin 3) * 8 + 1 * s.val = s.val; rw [e1]; omega
    | ⟨2, _⟩ => show win0_13.index t (2 : Fin 3) * 256 + 1 * f.val = f.val; rw [e2]; omega)
  rw [e0]
  have ht : t.val = (⟨t.val / 80, hk⟩ : Fin 2).val * 80 + 79 := by dsimp only; omega
  refine ((stats_inv V c t.val t.isLt u s f).1).trans ?_
  refine (congrArg (fun n => runSum (gateG V c) n f) ht).trans ?_
  exact (runSum_last (gateG V c) ⟨t.val / 80, hk⟩ f)

/-- An index of statistics array 13 is in point `t`'s block iff each coordinate is in the block's range. -/
theorem mem_blk13 (t : Fin cfg0.N) (i : S2x8x256.Idx) :
    i ∈ ((cfg0.win 13).blk t).view.set ↔ ∀ a : Fin 3, win0_13.index t a * S1x8x256.size a ≤ (i a).val ∧ (i a).val < win0_13.index t a * S1x8x256.size a + S1x8x256.size a := by
  show i ∈ ((View.whole main_v18_2).slice (win0_13.rect t)).set ↔ _
  rw [View.set_slice_whole, Rect.mem_set_unit]
  exact Iff.rfl

/-- Statistics array 13 after the region: block `k` is written back once, after core `k`'s last tile. -/
theorem arr13 (c : Dev nD) : (dat0 V c).arrAt 13 cfg0.N = coreSum (gateG V c) :=
  (dat0 V c).arrAt_eq_of_cover 13 (coreSum (gateG V c)) (flushed13 V c) fun i => by
    have hi0 : (i 0).val < 2 := (i 0).isLt
    have hi1 : (i 1).val < 8 := (i 1).isLt
    have hi2 : (i 2).val < 256 := (i 2).isLt
    have hN : cfg0.N = 160 := N_0
    have hlt : (i 0).val * 80 + 79 < cfg0.N := by omega
    refine ⟨⟨(i 0).val * 80 + 79, hlt⟩, (flush0_13 _).mpr (by dsimp only; omega), ?_⟩
    rw [mem_blk13]
    obtain ⟨e0, e1, e2⟩ := idx_stats13 ⟨(i 0).val * 80 + 79, hlt⟩
    intro a
    match a with
    | ⟨0, _⟩ =>
      show win0_13.index ⟨(i 0).val * 80 + 79, hlt⟩ (0 : Fin 3) * 1 ≤ (i 0).val ∧ (i 0).val < win0_13.index ⟨(i 0).val * 80 + 79, hlt⟩ (0 : Fin 3) * 1 + 1
      rw [e0]; dsimp only; omega
    | ⟨1, _⟩ =>
      show win0_13.index ⟨(i 0).val * 80 + 79, hlt⟩ (1 : Fin 3) * 8 ≤ (i 1).val ∧ (i 1).val < win0_13.index ⟨(i 0).val * 80 + 79, hlt⟩ (1 : Fin 3) * 8 + 8
      rw [e1]; omega
    | ⟨2, _⟩ =>
      show win0_13.index ⟨(i 0).val * 80 + 79, hlt⟩ (2 : Fin 3) * 256 ≤ (i 2).val ∧ (i 2).val < win0_13.index ⟨(i 0).val * 80 + 79, hlt⟩ (2 : Fin 3) * 256 + 256
      rw [e2]; omega

/-- What a core's last tile writes back to statistics block 14: the sum over the core's 80 × 2000 edges. -/
theorem flushed14 (c : Dev nD) (t : Fin cfg0.N) (hf : (cfg0.win 14).flush t = true) :
    (dat0 V c).flushed 14 t = ((cfg0.win 14).blk t).view.read (Elt Ideal) (coreSum (gateSq V c)) := by
  have h79 : t.val % 80 = 79 := (flush0_14 t).mp hf
  have hk : t.val / 80 < 2 := by have := lt_N t; omega
  show (cfg0.win 14).cut (grid0.coords t) ((dat0 V c).after 14 t) = _
  rw [after0_14]
  funext y
  obtain ⟨u, s, f, rfl⟩ : ∃ (u : Fin 1) (s : Fin 8) (f : Fin 256), y = ix3 u s f :=
    ⟨⟨(y 0).val, (y 0).isLt⟩, ⟨(y 1).val, (y 1).isLt⟩, ⟨(y 2).val, (y 2).isLt⟩,
      funext fun a => Fin.ext (by match a with | ⟨0, _⟩ => rfl | ⟨1, _⟩ => rfl | ⟨2, _⟩ => rfl)⟩
  rw [View.read_apply]
  show (outsAt0 V c t.val t.isLt).2.2.2 (ix3 u s f) = coreSum (gateSq V c) (((cfg0.win 14).blk t).view.emb (ix3 u s f))
  have e0 : ((cfg0.win 14).blk t).view.emb (ix3 u s f) = ix3 (⟨t.val / 80, hk⟩ : Fin 2) s f := funext fun a => Fin.ext (by
    obtain ⟨e0, e1, e2⟩ := idx_stats14 t
    have hu : u.val = 0 := by omega
    match a with
    | ⟨0, _⟩ => show win0_14.index t (0 : Fin 3) * 1 + 1 * u.val = t.val / 80; rw [e0]; omega
    | ⟨1, _⟩ => show win0_14.index t (1 : Fin 3) * 8 + 1 * s.val = s.val; rw [e1]; omega
    | ⟨2, _⟩ => show win0_14.index t (2 : Fin 3) * 256 + 1 * f.val = f.val; rw [e2]; omega)
  rw [e0]
  have ht : t.val = (⟨t.val / 80, hk⟩ : Fin 2).val * 80 + 79 := by dsimp only; omega
  refine ((stats_inv V c t.val t.isLt u s f).2).trans ?_
  refine (congrArg (fun n => runSum (gateSq V c) n f) ht).trans ?_
  exact (runSum_last (gateSq V c) ⟨t.val / 80, hk⟩ f)

/-- An index of statistics array 14 is in point `t`'s block iff each coordinate is in the block's range. -/
theorem mem_blk14 (t : Fin cfg0.N) (i : S2x8x256.Idx) :
    i ∈ ((cfg0.win 14).blk t).view.set ↔ ∀ a : Fin 3, win0_14.index t a * S1x8x256.size a ≤ (i a).val ∧ (i a).val < win0_14.index t a * S1x8x256.size a + S1x8x256.size a := by
  show i ∈ ((View.whole main_v18_3).slice (win0_14.rect t)).set ↔ _
  rw [View.set_slice_whole, Rect.mem_set_unit]
  exact Iff.rfl

/-- Statistics array 14 after the region: block `k` is written back once, after core `k`'s last tile. -/
theorem arr14 (c : Dev nD) : (dat0 V c).arrAt 14 cfg0.N = coreSum (gateSq V c) :=
  (dat0 V c).arrAt_eq_of_cover 14 (coreSum (gateSq V c)) (flushed14 V c) fun i => by
    have hi0 : (i 0).val < 2 := (i 0).isLt
    have hi1 : (i 1).val < 8 := (i 1).isLt
    have hi2 : (i 2).val < 256 := (i 2).isLt
    have hN : cfg0.N = 160 := N_0
    have hlt : (i 0).val * 80 + 79 < cfg0.N := by omega
    refine ⟨⟨(i 0).val * 80 + 79, hlt⟩, (flush0_14 _).mpr (by dsimp only; omega), ?_⟩
    rw [mem_blk14]
    obtain ⟨e0, e1, e2⟩ := idx_stats14 ⟨(i 0).val * 80 + 79, hlt⟩
    intro a
    match a with
    | ⟨0, _⟩ =>
      show win0_14.index ⟨(i 0).val * 80 + 79, hlt⟩ (0 : Fin 3) * 1 ≤ (i 0).val ∧ (i 0).val < win0_14.index ⟨(i 0).val * 80 + 79, hlt⟩ (0 : Fin 3) * 1 + 1
      rw [e0]; dsimp only; omega
    | ⟨1, _⟩ =>
      show win0_14.index ⟨(i 0).val * 80 + 79, hlt⟩ (1 : Fin 3) * 8 ≤ (i 1).val ∧ (i 1).val < win0_14.index ⟨(i 0).val * 80 + 79, hlt⟩ (1 : Fin 3) * 8 + 8
      rw [e1]; omega
    | ⟨2, _⟩ =>
      show win0_14.index ⟨(i 0).val * 80 + 79, hlt⟩ (2 : Fin 3) * 256 ≤ (i 2).val ∧ (i 2).val < win0_14.index ⟨(i 0).val * 80 + 79, hlt⟩ (2 : Fin 3) * 256 + 256
      rw [e2]; omega

/-- The statistics arrays at core `k`, sublane row `s`, feature `f`, with the perceptron spelt out. -/
theorem sum_at (c : Dev nD) (k : Fin 2) (s : Fin 8) (f : Fin 256) :
    (dat0 V c).arrAt 13 cfg0.N (ix3 k s f) = ∑ t : Fin 80, ∑ r : Fin 2000,
      mlpAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
        (⟨(k.val * 80 + t.val) * 2000 + r.val, by have := k.isLt; have := t.isLt; have := r.isLt; omega⟩ : Fin 320000) f :=
  congrFun (arr13 V c) (ix3 k s f)
theorem sumsq_at (c : Dev nD) (k : Fin 2) (s : Fin 8) (f : Fin 256) :
    (dat0 V c).arrAt 14 cfg0.N (ix3 k s f) = ∑ t : Fin 80, ∑ r : Fin 2000,
      mlpAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
          (⟨(k.val * 80 + t.val) * 2000 + r.val, by have := k.isLt; have := t.isLt; have := r.isLt; omega⟩ : Fin 320000) f
        * mlpAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
          (⟨(k.val * 80 + t.val) * 2000 + r.val, by have := k.isLt; have := t.isLt; have := r.isLt; omega⟩ : Fin 320000) f :=
  congrFun (arr14 V c) (ix3 k s f)

/-- The same two arrays as whole functions, in the spelling `mlpK` of the perceptron. -/
theorem sum_arr (c : Dev nD) : (dat0 V c).arrAt 13 cfg0.N = (fun i : S2x8x256.Idx => ∑ t : Fin 80, ∑ r : Fin 2000,
    mlpK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
      (ix2 (⟨((i 0).val * 80 + t.val) * 2000 + r.val, core_lt i t r⟩ : Fin 320000) (i 2 : Fin 256))) := by
  rw [arr13]
  funext i
  exact Finset.sum_congr rfl fun t _ => Finset.sum_congr rfl fun r _ => rfl
theorem sumsq_arr (c : Dev nD) : (dat0 V c).arrAt 14 cfg0.N = (fun i : S2x8x256.Idx => ∑ t : Fin 80, ∑ r : Fin 2000,
    mlpK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
        (ix2 (⟨((i 0).val * 80 + t.val) * 2000 + r.val, core_lt i t r⟩ : Fin 320000) (i 2 : Fin 256))
      * mlpK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
        (ix2 (⟨((i 0).val * 80 + t.val) * 2000 + r.val, core_lt i t r⟩ : Fin 320000) (i 2 : Fin 256))) := by
  rw [arr14]
  funext i
  exact Finset.sum_congr rfl fun t _ => Finset.sum_congr rfl fun r _ => rfl

end Cert.KernelIdeal.R0Value

end
-- ==== Proof.KStages.lean ====
import proofs.«159511_j60833916780661_2_alg».proof.Proof.Gen.KernelIdeal
import proofs.«159511_j60833916780661_2_alg».proof.Proof.RefStages
import Idealize.ShloMosaic.Lib.Pipeline.Value
import Idealize.ShloMosaic.Lib.ValueIdx
import Idealize.ShloMosaic.Lib.ValueLayout
import Idealize.ShloMosaic.Lib.IdealHost

/-!
# The host stages between the two regions, as functions of arrays

Between the first region (the two perceptrons, with per-core column sums of the gate pre-activation and of its
square) and the last (the pointwise closing step) the program computes, on whole arrays:

* the gate's batch statistics from the two carried sum blocks: per column `k`, the sum over the two cores of row
  0 of the block, divided by the edge count; variance as `E[h²] − mean²`, clamped below at zero; the reciprocal
  square root of variance plus epsilon; the scale `γ · rsqrt` and the shift `β − mean · scale`;
* the gate `1 / (1 + exp (−(h · scale + shift)))` and the message `gate · msg_pre`;
* the aggregate: messages added into the row of their target node;
* the aggregate's batch statistics (mean, then the mean of squared deviations), and its scale and shift.

The gathers, the aggregate and the node statistics are the reference layer's own stages; the statistics from the
carried sums, the scale and shift form of the batch-norm, the gate and the message are defined here, each applying
the program's operations in the program's order, and are then read at an index.
-/

set_option maxRecDepth 16384

noncomputable section

namespace Cert.KernelIdeal.KValue

open Idealize.ShloMosaic Idealize.ShloMosaic.TcCoe Idealize.SL.Sem
open Idealize.ShloMosaic.ValueIdx

/-! ## The gate's statistics, from the carried sums -/

/-- Row 0 of each core's carried block, summed over the two cores, from the program's zero literal. -/
def coreSum (acc : FVec Ideal S2x8x256 .f32) : FVec Ideal S256 .f32 :=
  Host.reduceAdd
    (shapeCast S2x256 (extractStridedSlice S2x1x256 ![0, 0, 0] acc Gen.slices_S2x8x256_S2x1x256_0_0_0) Gen.shapeCasts_S2x1x256_S2x256)
    (constant (F := Ideal) S_ .f32 0x00000000#32) Gen.reducesTo_S2x256_S256_d0 Gen.h_S_

/-- A scalar word along a 256-row. -/
def row256 (w : BitVec 32) : FVec Ideal S256 .f32 :=
  broadcastInDim S256 ![] Gen.bcast_S_S256 (constant (F := Ideal) S_ .f32 w)

/-- The per-column mean: the two cores' sums over the edge count. -/
def meanG (acc : FVec Ideal S2x8x256 .f32) : FVec Ideal S256 .f32 :=
  Host.divf (coreSum acc) (row256 0x489C4000#32)

/-- The per-column variance as `E[h²] − mean²`, clamped below at zero. -/
def varG (sg ssg : FVec Ideal S2x8x256 .f32) : FVec Ideal S256 .f32 :=
  maximumf (subf (meanG ssg) (mulf (meanG sg) (meanG sg))) (row256 0x00000000#32)

/-- The gate's scale: `γ · rsqrt (var + ε)`. -/
def scaleG (sg ssg : FVec Ideal S2x8x256 .f32) (g : FVec Ideal S256 .f32) : FVec Ideal S256 .f32 :=
  mulf g (Host.rsqrt (addf (varG sg ssg) (row256 0x3727C5AC#32)))

/-- The gate's shift: `β − mean · scale`. -/
def shiftG (sg ssg : FVec Ideal S2x8x256 .f32) (g b : FVec Ideal S256 .f32) : FVec Ideal S256 .f32 :=
  subf b (mulf (meanG sg) (scaleG sg ssg g))

/-! ## The gate and the message -/

/-- The gate: `1 / (1 + exp (−z))` of the rescaled gate pre-activation `z = h · scale + shift`. -/
def gateK (gp : FVec Ideal S320000x256 .bf16) (scale shift : FVec Ideal S256 .f32) : FVec Ideal S320000x256 .f32 :=
  Host.divf (Cert.ReferenceIdeal.RefValue.oneE (F := Ideal))
    (addf (Cert.ReferenceIdeal.RefValue.oneE (F := Ideal)) (Host.exp (Host.negf
      (addf (mulf (extf .f32 gp Gen.bitsLt_bf16_f32) (Cert.ReferenceIdeal.RefValue.rowBcastE scale))
        (Cert.ReferenceIdeal.RefValue.rowBcastE shift)))))

/-- The message: gate times message pre-activation. -/
def msgK (gp mp : FVec Ideal S320000x256 .bf16) (scale shift : FVec Ideal S256 .f32) : FVec Ideal S320000x256 .f32 :=
  mulf (gateK gp scale shift) (extf .f32 mp Gen.bitsLt_bf16_f32)

/-- The message from the first region's four output arrays and the gate batch-norm's two parameters. -/
def msgOf (gp mp : FVec Ideal S320000x256 .bf16) (sg ssg : FVec Ideal S2x8x256 .f32) (g b : FVec Ideal S256 .f32) :
    FVec Ideal S320000x256 .f32 :=
  msgK gp mp (scaleG sg ssg g) (shiftG sg ssg g b)

/-- The aggregate: every edge's message added into the row of its target node. -/
def aggK (ei : IVec S2x320000 32) (gp mp : FVec Ideal S320000x256 .bf16) (sg ssg : FVec Ideal S2x8x256 .f32)
    (g b : FVec Ideal S256 .f32) : FVec Ideal S20000x256 .f32 :=
  Cert.ReferenceIdeal.RefValue.agg (Cert.ReferenceIdeal.RefValue.dstRow ei) (msgOf gp mp sg ssg g b)

/-! ## The closing batch-norm's scale and shift -/

/-- `γ · rsqrt (max var 0 + ε)`, the variance the node statistics' own. -/
def scaleN (A : FVec Ideal S20000x256 .f32) (g : FVec Ideal S256 .f32) : FVec Ideal S256 .f32 :=
  mulf g (Host.rsqrt (addf (maximumf (Cert.ReferenceIdeal.RefValue.var2 A) (row256 0x00000000#32)) (row256 0x3727C5AC#32)))

/-- `β − mean · scale`. -/
def shiftN (A : FVec Ideal S20000x256 .f32) (g b : FVec Ideal S256 .f32) : FVec Ideal S256 .f32 :=
  subf b (mulf (Cert.ReferenceIdeal.RefValue.mean2 A) (scaleN A g))

/-! ## The stages read at an index -/

theorem row256_apply (w : BitVec 32) (k : Fin 256) : row256 w (ix1 k) = Ideal.ofBits .f32 w := by
  unfold row256
  rw [broadcastInDim_scalar_apply, constant_apply]

/-- The two cores' row-0 entries of column `k`, added to the program's zero literal. -/
theorem coreSum_apply (acc : FVec Ideal S2x8x256 .f32) (k : Fin 256) :
    coreSum acc (ix1 k) = Ideal.ofBits .f32 0x00000000#32 + ∑ c : Fin 2, acc (ix3 c (0 : Fin 8) k) := by
  unfold coreSum
  rw [hostReduceAdd_apply, Ideal.hostReduceAdd_single Gen.reducesTo_S2x256_S256_d0 (by decide : S2x256.Reduces [0] S256),
    constant_apply]
  show _ + ∑ c : Fin 2, _ = _
  congr 1
  refine Finset.sum_congr rfl fun c _ => ?_
  refine (shapeCast_apply _ _ _ (ix3 c (0 : Fin 1) k) ?_).trans ?_
  · rw [Shape.rowMajor_val_three, Shape.rowMajor_val_two]
    show (c.val * 1 + 0) * 256 + k.val = c.val * 256 + k.val
    omega
  · refine extractStridedSlice_apply _ _ _ _ (ix3 c (0 : Fin 8) k) fun a => ?_
    match a with
    | ⟨0, _⟩ => show c.val = 0 + c.val; omega
    | ⟨1, _⟩ => rfl
    | ⟨2, _⟩ => show k.val = 0 + k.val; omega

theorem meanG_apply (acc : FVec Ideal S2x8x256 .f32) (k : Fin 256) :
    meanG acc (ix1 k)
      = Ideal.div (Ideal.ofBits .f32 0x00000000#32 + ∑ c : Fin 2, acc (ix3 c (0 : Fin 8) k)) (Ideal.ofBits .f32 0x489C4000#32) := by
  unfold meanG
  rw [hostDivf_apply, coreSum_apply, row256_apply]

theorem varG_apply (sg ssg : FVec Ideal S2x8x256 .f32) (k : Fin 256) :
    varG sg ssg (ix1 k)
      = max (meanG ssg (ix1 k) - meanG sg (ix1 k) * meanG sg (ix1 k)) (Ideal.ofBits .f32 0x00000000#32) := by
  unfold varG
  rw [maximumf_apply, subf_apply, mulf_apply, row256_apply]

theorem scaleG_apply (sg ssg : FVec Ideal S2x8x256 .f32) (g : FVec Ideal S256 .f32) (k : Fin 256) :
    scaleG sg ssg g (ix1 k) = g (ix1 k) * Ideal.rsqrt (varG sg ssg (ix1 k) + Ideal.ofBits .f32 0x3727C5AC#32) := by
  unfold scaleG
  rw [mulf_apply]
  show _ * Ideal.rsqrt (addf (varG sg ssg) (row256 0x3727C5AC#32) (ix1 k)) = _
  rw [addf_apply, row256_apply]

theorem shiftG_apply (sg ssg : FVec Ideal S2x8x256 .f32) (g b : FVec Ideal S256 .f32) (k : Fin 256) :
    shiftG sg ssg g b (ix1 k) = b (ix1 k) - meanG sg (ix1 k) * scaleG sg ssg g (ix1 k) := by
  unfold shiftG
  rw [subf_apply, mulf_apply]

/-- A 256-row repeated along the edges reads the row. -/
theorem rowBcastE_apply (r : FVec Ideal S256 .f32) (e : Fin 320000) (k : Fin 256) :
    Cert.ReferenceIdeal.RefValue.rowBcastE r (ix2 e k) = r (ix1 k) := by
  unfold Cert.ReferenceIdeal.RefValue.rowBcastE
  refine (broadcastInDim_apply _ _ _ _ (ix2 (0 : Fin 1) k) fun a => ?_).trans ?_
  · match a with
    | ⟨0, _⟩ => rfl
    | ⟨1, _⟩ => rfl
  · refine broadcastInDim_apply _ _ _ _ (ix1 k) fun a => ?_
    match a with
    | ⟨0, _⟩ => rfl

theorem oneE_apply (i : S320000x256.Idx) :
    Cert.ReferenceIdeal.RefValue.oneE (F := Ideal) i = Ideal.ofBits .f32 0x3F800000#32 := by
  unfold Cert.ReferenceIdeal.RefValue.oneE
  rw [broadcastInDim_scalar_apply, constant_apply]

/-- The gate at edge `e`, column `k`. -/
theorem gateK_apply (gp : FVec Ideal S320000x256 .bf16) (scale shift : FVec Ideal S256 .f32) (e : Fin 320000) (k : Fin 256) :
    gateK gp scale shift (ix2 e k)
      = Ideal.div (Ideal.ofBits .f32 0x3F800000#32)
          (Ideal.ofBits .f32 0x3F800000#32 + Ideal.exp (-(gp (ix2 e k) * scale (ix1 k) + shift (ix1 k)))) := by
  unfold gateK
  rw [hostDivf_apply, addf_apply, oneE_apply]
  show Ideal.div _ (_ + Ideal.exp (-(addf (mulf (extf .f32 gp Gen.bitsLt_bf16_f32) (Cert.ReferenceIdeal.RefValue.rowBcastE scale))
        (Cert.ReferenceIdeal.RefValue.rowBcastE shift) (ix2 e k)))) = _
  rw [addf_apply, mulf_apply, extf_apply, rowBcastE_apply, rowBcastE_apply]

/-- The message at edge `e`, column `k`. -/
theorem msgK_apply (gp mp : FVec Ideal S320000x256 .bf16) (scale shift : FVec Ideal S256 .f32) (e : Fin 320000) (k : Fin 256) :
    msgK gp mp scale shift (ix2 e k) = gateK gp scale shift (ix2 e k) * mp (ix2 e k) := by
  unfold msgK
  rw [mulf_apply, extf_apply]

theorem scaleN_apply (A : FVec Ideal S20000x256 .f32) (g : FVec Ideal S256 .f32) (k : Fin 256) :
    scaleN A g (ix1 k)
      = g (ix1 k) * Ideal.rsqrt (max (Cert.ReferenceIdeal.RefValue.var2 A (ix1 k)) (Ideal.ofBits .f32 0x00000000#32)
          + Ideal.ofBits .f32 0x3727C5AC#32) := by
  unfold scaleN
  rw [mulf_apply]
  show _ * Ideal.rsqrt (addf (maximumf (Cert.ReferenceIdeal.RefValue.var2 A) (row256 0x00000000#32)) (row256 0x3727C5AC#32) (ix1 k)) = _
  rw [addf_apply, maximumf_apply, row256_apply, row256_apply]

theorem shiftN_apply (A : FVec Ideal S20000x256 .f32) (g b : FVec Ideal S256 .f32) (k : Fin 256) :
    shiftN A g b (ix1 k) = b (ix1 k) - Cert.ReferenceIdeal.RefValue.mean2 A (ix1 k) * scaleN A g (ix1 k) := by
  unfold shiftN
  rw [subf_apply, mulf_apply]

end Cert.KernelIdeal.KValue

end
-- ==== Proof.KHost.lean ====
import proofs.«159511_j60833916780661_2_alg».proof.Proof.Gen.KernelIdeal.Frame
import proofs.«159511_j60833916780661_2_alg».proof.Proof.KStages
import Idealize.ShloMosaic.Lib.Tactic

/-!
# The host operations around the two regions

What the stretches of host operations leave in the arrays the two regions read, as the named stages of the
launch contents: before the first region the two gathers of the node features (its first two windows; the other
nine input windows are arguments no operation writes); between the regions the aggregate of the gated messages
and the closing batch-norm's scale and shift (the last region's windows, beside the node features themselves),
computed from the first region's four output arrays.
-/

set_option maxRecDepth 16384

noncomputable section

namespace Cert.KernelIdeal.KValue

open Idealize.ShloMosaic Idealize.ShloMosaic.TcCoe Idealize.ShloMosaic.Tactic Idealize.SL.Sem Cert.KernelIdeal.Gen

/-! ## The first stretch, from any contents -/

section AnyContents

variable (W : Valuation τ sig (Elt Ideal))

set_option maxHeartbeats 2000000 in
/-- The first gathered array: the target nodes' features. -/
theorem after0_v10 :
    StableHlo.after (Gen.hostOps0 (F := Ideal)) W (Proc.devRef .tc main_v10)
      = Cert.ReferenceIdeal.RefValue.xd (F := Ideal) (W (Proc.devRef .tc main_arg0)) (W (Proc.devRef .tc main_arg1)) := by
  dsimp only [Gen.hostOps0]
  after_results_simp
  rfl

set_option maxHeartbeats 2000000 in
/-- The second gathered array: the source nodes' features. -/
theorem after0_v17 :
    StableHlo.after (Gen.hostOps0 (F := Ideal)) W (Proc.devRef .tc main_v17)
      = Cert.ReferenceIdeal.RefValue.xs (F := Ideal) (W (Proc.devRef .tc main_arg0)) (W (Proc.devRef .tc main_arg1)) := by
  dsimp only [Gen.hostOps0]
  after_results_simp
  rfl

set_option maxHeartbeats 2000000 in
/-- The targets' row of the edge index, kept for the aggregation. -/
theorem after0_v3 :
    StableHlo.after (Gen.hostOps0 (F := Ideal)) W (Proc.devRef .tc main_v3)
      = Cert.ReferenceIdeal.RefValue.dstRow (W (Proc.devRef .tc main_arg1)) := by
  dsimp only [Gen.hostOps0]
  after_results_simp
  rfl

/-- The buffers the first stretch writes. -/
abbrev hostOps0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]
theorem hostOps0_writes : (Gen.hostOps0 (F := Ideal)).Forall fun op => op.writes ⊆ (hostOps0_W.map (Proc.devRef (τ := τ) .tc)).toFinset := by
  simp only [Gen.hostOps0, List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the first stretch does not write keeps its contents through it. -/
theorem hostOps0_keep (r : Ref sig .tc) (h : r ∉ hostOps0_W) :
    StableHlo.after (Gen.hostOps0 (F := Ideal)) W (Proc.devRef .tc r) = W (Proc.devRef .tc r) :=
  StableHlo.after_of_writes_sub _ W hostOps0_writes h

end AnyContents

/-! ## The stretches between the regions, in five windows, from any contents -/

section Windows

variable {F : FTy → Type} [FloatOps F] (W : Valuation τ sig (Elt F))

/-- Folding two lists of operations one after the other is folding their concatenation. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- 26 operations: the gate batch-norm's scale and shift from the two carried sum blocks. -/
abbrev KA : List (HloOp τ sig (Elt F)) :=
  [ StableHlo.unary main_v18_2 main_v19 ((extractStridedSlice S2x1x256 ![0, 0, 0] · slices_S2x8x256_S2x1x256_0_0_0) : (⟨S2x8x256, .f32⟩ : BufTy).Contents (Elt F) → (⟨S2x1x256, .f32⟩ : BufTy).Contents (Elt F)),
    StableHlo.reshape main_v19 main_v20 rfl shapeCasts_S2x1x256_S2x256,
    StableHlo.nullary main_cst (constant S_ .f32 0x00000000#32),
    StableHlo.binary main_v20 main_cst main_v21 ((fun x v => Host.reduceAdd x v reducesTo_S2x256_S256_d0 h_S_) : (⟨S2x256, .f32⟩ : BufTy).Contents (Elt F) → (⟨S_, .f32⟩ : BufTy).Contents (Elt F) → (⟨S256, .f32⟩ : BufTy).Contents (Elt F)),
    StableHlo.unary main_v18_3 main_v22 ((extractStridedSlice S2x1x256 ![0, 0, 0] · slices_S2x8x256_S2x1x256_0_0_0) : (⟨S2x8x256, .f32⟩ : BufTy).Contents (Elt F) → (⟨S2x1x256, .f32⟩ : BufTy).Contents (Elt F)),
    StableHlo.reshape main_v22 main_v23 rfl shapeCasts_S2x1x256_S2x256,
    StableHlo.nullary main_cst_3 (constant S_ .f32 0x00000000#32),
    StableHlo.binary main_v23 main_cst_3 main_v24 ((fun x v => Host.reduceAdd x v reducesTo_S2x256_S256_d0 h_S_) : (⟨S2x256, .f32⟩ : BufTy).Contents (Elt F) → (⟨S_, .f32⟩ : BufTy).Contents (Elt F) → (⟨S256, .f32⟩ : BufTy).Contents (Elt F)),
    StableHlo.nullary main_cst_4 (constant S_ .f32 0x489C4000#32),
    StableHlo.unary main_cst_4 main_v25 (broadcastInDim S256 ![] bcast_S_S256 : (⟨S_, .f32⟩ : BufTy).Contents (Elt F) → (⟨S256, .f32⟩ : BufTy).Contents (Elt F)),
    StableHlo.binary main_v21 main_v25 main_v26 (Host.divf : (⟨S256, .f32⟩ : BufTy).Contents (Elt F) → (⟨S256, .f32⟩ : BufTy).Contents (Elt F) → (⟨S256, .f32⟩ : BufTy).Contents (Elt F)),
    StableHlo.nullary main_cst_5 (constant S_ .f32 0x489C4000#32),
    StableHlo.unary main_cst_5 main_v27 (broadcastInDim S256 ![] bcast_S_S256 : (⟨S_, .f32⟩ : BufTy).Contents (Elt F) → (⟨S256, .f32⟩ : BufTy).Contents (Elt F)),
    StableHlo.binary main_v24 main_v27 main_v28 (Host.divf : (⟨S256, .f32⟩ : BufTy).Contents (Elt F) → (⟨S256, .f32⟩ : BufTy).Contents (Elt F) → (⟨S256, .f32⟩ : BufTy).Contents (Elt F)),
    StableHlo.binary main_v26 main_v26 main_v29 (mulf : (⟨S256, .f32⟩ : BufTy).Contents (Elt F) → (⟨S256, .f32⟩ : BufTy).Contents (Elt F) → (⟨S256, .f32⟩ : BufTy).Contents (Elt F)),
    StableHlo.binary main_v28 main_v29 main_v30 (subf : (⟨S256, .f32⟩ : BufTy).Contents (Elt F) → (⟨S256, .f32⟩ : BufTy).Contents (Elt F) → (⟨S256, .f32⟩ : BufTy).Contents (Elt F)),
    StableHlo.nullary main_cst_6 (constant S_ .f32 0x00000000#32),
    StableHlo.unary main_cst_6 main_v31 (broadcastInDim S256 ![] bcast_S_S256 : (⟨S_, .f32⟩ : BufTy).Contents (Elt F) → (⟨S256, .f32⟩ : BufTy).Contents (Elt F)),
    StableHlo.binary main_v30 main_v31 main_v32 (maximumf : (⟨S256, .f32⟩ : BufTy).Contents (Elt F) → (⟨S256, .f32⟩ : BufTy).Contents (Elt F) → (⟨S256, .f32⟩ : BufTy).Contents (Elt F)),
    StableHlo.nullary main_cst_7 (constant S_ .f32 0x3727C5AC#32),
    StableHlo.unary main_cst_7 main_v33 (broadcastInDim S256 ![] bcast_S_S256 : (⟨S_, .f32⟩ : BufTy).Contents (Elt F) → (⟨S256, .f32⟩ : BufTy).Contents (Elt F)),
    StableHlo.binary main_v32 main_v33 main_v34 (addf : (⟨S256, .f32⟩ : BufTy).Contents (Elt F) → (⟨S256, .f32⟩ : BufTy).Contents (Elt F) → (⟨S256, .f32⟩ : BufTy).Contents (Elt F)),
    StableHlo.unary main_v34 main_v35 (Host.rsqrt : (⟨S256, .f32⟩ : BufTy).Contents (Elt F) → (⟨S256, .f32⟩ : BufTy).Contents (Elt F)),
    StableHlo.binary main_arg11 main_v35 main_v36 (mulf : (⟨S256, .f32⟩ : BufTy).Contents (Elt F) → (⟨S256, .f32⟩ : BufTy).Contents (Elt F) → (⟨S256, .f32⟩ : BufTy).Contents (Elt F)),
    StableHlo.binary main_v26 main_v36 main_v37 (mulf : (⟨S256, .f32⟩ : BufTy).Contents (Elt F) → (⟨S256, .f32⟩ : BufTy).Contents (Elt F) → (⟨S256, .f32⟩ : BufTy).Contents (Elt F)),
    StableHlo.binary main_arg12 main_v37 main_v38 (subf : (⟨S256, .f32⟩ : BufTy).Contents (Elt F) → (⟨S256, .f32⟩ : BufTy).Contents (Elt F) → (⟨S256, .f32⟩ : BufTy).Contents (Elt F)) ]
/-- The buffers they write. -/
abbrev KA_W : List (Ref sig .tc) := [main_v19, main_v20, main_cst, main_v21, main_v22, main_v23, main_cst_3, main_v24, main_cst_4, main_v25, main_v26, main_cst_5, main_v27, main_v28, main_v29, main_v30, main_cst_6, main_v31, main_v32, main_cst_7, main_v33, main_v34, main_v35, main_v36, main_v37, main_v38]
theorem KA_writes : (KA (F := F)).Forall fun op => op.writes ⊆ (KA_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem KA_keep (r : Ref sig .tc) (h : r ∉ KA_W) :
    StableHlo.after (KA (F := F)) W (Proc.devRef .tc r) = W (Proc.devRef .tc r) :=
  StableHlo.after_of_writes_sub _ W KA_writes h

/-- 17 operations: the gate and the message. -/
abbrev KB : List (HloOp τ sig (Elt F)) :=
  [ StableHlo.unary main_v18_0 main_v39 ((extf .f32 · bitsLt_bf16_f32) : (⟨S320000x256, .bf16⟩ : BufTy).Contents (Elt F) → (⟨S320000x256, .f32⟩ : BufTy).Contents (Elt F)),
    StableHlo.unary main_v36 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S320000x256 ![0, 1] bcast_S1x256_S320000x256_0_1 : (⟨S1x256, .f32⟩ : BufTy).Contents (Elt F) → (⟨S320000x256, .f32⟩ : BufTy).Contents (Elt F)),
    StableHlo.binary main_v39 main_v41 main_v42 (mulf : (⟨S320000x256, .f32⟩ : BufTy).Contents (Elt F) → (⟨S320000x256, .f32⟩ : BufTy).Contents (Elt F) → (⟨S320000x256, .f32⟩ : BufTy).Contents (Elt F)),
    StableHlo.unary main_v38 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S320000x256 ![0, 1] bcast_S1x256_S320000x256_0_1 : (⟨S1x256, .f32⟩ : BufTy).Contents (Elt F) → (⟨S320000x256, .f32⟩ : BufTy).Contents (Elt F)),
    StableHlo.binary main_v42 main_v44 main_v45 (addf : (⟨S320000x256, .f32⟩ : BufTy).Contents (Elt F) → (⟨S320000x256, .f32⟩ : BufTy).Contents (Elt F) → (⟨S320000x256, .f32⟩ : BufTy).Contents (Elt F)),
    StableHlo.unary main_v45 main_v46 (Host.negf : (⟨S320000x256, .f32⟩ : BufTy).Contents (Elt F) → (⟨S320000x256, .f32⟩ : BufTy).Contents (Elt F)),
    StableHlo.unary main_v46 main_v47 (Host.exp : (⟨S320000x256, .f32⟩ : BufTy).Contents (Elt F) → (⟨S320000x256, .f32⟩ : BufTy).Contents (Elt F)),
    StableHlo.nullary main_cst_8 (constant S_ .f32 0x3F800000#32),
    StableHlo.unary main_cst_8 main_v48 (broadcastInDim S320000x256 ![] bcast_S_S320000x256 : (⟨S_, .f32⟩ : BufTy).Contents (Elt F) → (⟨S320000x256, .f32⟩ : BufTy).Contents (Elt F)),
    StableHlo.binary main_v48 main_v47 main_v49 (addf : (⟨S320000x256, .f32⟩ : BufTy).Contents (Elt F) → (⟨S320000x256, .f32⟩ : BufTy).Contents (Elt F) → (⟨S320000x256, .f32⟩ : BufTy).Contents (Elt F)),
    StableHlo.nullary main_cst_9 (constant S_ .f32 0x3F800000#32),
    StableHlo.unary main_cst_9 main_v50 (broadcastInDim S320000x256 ![] bcast_S_S320000x256 : (⟨S_, .f32⟩ : BufTy).Contents (Elt F) → (⟨S320000x256, .f32⟩ : BufTy).Contents (Elt F)),
    StableHlo.binary main_v50 main_v49 main_v51 (Host.divf : (⟨S320000x256, .f32⟩ : BufTy).Contents (Elt F) → (⟨S320000x256, .f32⟩ : BufTy).Contents (Elt F) → (⟨S320000x256, .f32⟩ : BufTy).Contents (Elt F)),
    StableHlo.unary main_v18_1 main_v52 ((extf .f32 · bitsLt_bf16_f32) : (⟨S320000x256, .bf16⟩ : BufTy).Contents (Elt F) → (⟨S320000x256, .f32⟩ : BufTy).Contents (Elt F)),
    StableHlo.binary main_v51 main_v52 main_v53 (mulf : (⟨S320000x256, .f32⟩ : BufTy).Contents (Elt F) → (⟨S320000x256, .f32⟩ : BufTy).Contents (Elt F) → (⟨S320000x256, .f32⟩ : BufTy).Contents (Elt F)) ]
/-- The buffers they write. -/
abbrev KB_W : List (Ref sig .tc) := [main_v39, main_v40, main_v41, main_v42, main_v43, main_v44, main_v45, main_v46, main_v47, main_cst_8, main_v48, main_v49, main_cst_9, main_v50, main_v51, main_v52, main_v53]
theorem KB_writes : (KB (F := F)).Forall fun op => op.writes ⊆ (KB_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem KB_keep (r : Ref sig .tc) (h : r ∉ KB_W) :
    StableHlo.after (KB (F := F)) W (Proc.devRef .tc r) = W (Proc.devRef .tc r) :=
  StableHlo.after_of_writes_sub _ W KB_writes h

/-- 10 operations: the scatter-add, the aggregate's column means and the zero correction. -/
abbrev KC : List (HloOp τ sig (Elt F)) :=
  [ StableHlo.nullary main_cst_10 (constant S_ .f32 0x00000000#32),
    StableHlo.unary main_cst_10 main_v54 (broadcastInDim S20000x256 ![] bcast_S_S20000x256 : (⟨S_, .f32⟩ : BufTy).Contents (Elt F) → (⟨S20000x256, .f32⟩ : BufTy).Contents (Elt F)),
    StableHlo.unary main_v3 main_v55 (broadcastInDim S320000x1 ![0] bcast_S320000_S320000x1_0 : (⟨S320000, .i32⟩ : BufTy).Contents (Elt F) → (⟨S320000x1, .i32⟩ : BufTy).Contents (Elt F)),
    StableHlo.ternary main_v54 main_v55 main_v53 main_v56 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.nullary main_cst_11 (constant S_ .f32 0x00000000#32),
    StableHlo.binary main_v56 main_cst_11 main_v57 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_12 (constant S_ .f32 0x469C4000#32),
    StableHlo.unary main_cst_12 main_v58 (broadcastInDim S256 ![] bcast_S_S256 : (⟨S_, .f32⟩ : BufTy).Contents (Elt F) → (⟨S256, .f32⟩ : BufTy).Contents (Elt F)),
    StableHlo.binary main_v57 main_v58 main_v59 (Host.divf : (⟨S256, .f32⟩ : BufTy).Contents (Elt F) → (⟨S256, .f32⟩ : BufTy).Contents (Elt F) → (⟨S256, .f32⟩ : BufTy).Contents (Elt F)),
    StableHlo.nullary main_c_13 (constantI S_ 32 0#32) ]
/-- The buffers they write. -/
abbrev KC_W : List (Ref sig .tc) := [main_cst_10, main_v54, main_v55, main_v56, main_cst_11, main_v57, main_cst_12, main_v58, main_v59, main_c_13]
theorem KC_writes : (KC (F := F)).Forall fun op => op.writes ⊆ (KC_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem KC_keep (r : Ref sig .tc) (h : r ∉ KC_W) :
    StableHlo.after (KC (F := F)) W (Proc.devRef .tc r) = W (Proc.devRef .tc r) :=
  StableHlo.after_of_writes_sub _ W KC_writes h

/-- 22 operations: the aggregate's column variances. -/
abbrev KD : List (HloOp τ sig (Elt F)) :=
  [ StableHlo.TRef.nullary (.of main_call0_cst : StableHlo.TRef sig ⟨S_, .f32⟩) (constant S_ .f32 0x00000000#32),
    StableHlo.TRef.binary (.of main_v56 : StableHlo.TRef sig ⟨S20000x256, .f32⟩) (.of main_call0_cst : StableHlo.TRef sig ⟨S_, .f32⟩) (.of main_call0_v0 : StableHlo.TRef sig ⟨S256, .f32⟩) (fun x v => Host.reduceAdd x v reducesTo_S20000x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x469C4000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S20000x256, .f32⟩) (broadcastInDim S20000x256 ![0, 1] bcast_S1x256_S20000x256_0_1),
    StableHlo.TRef.binary (.of main_v56 : StableHlo.TRef sig ⟨S20000x256, .f32⟩) (.of main_call0_v4 : StableHlo.TRef sig ⟨S20000x256, .f32⟩) (.of main_call0_v5 : StableHlo.TRef sig ⟨S20000x256, .f32⟩) subf,
    StableHlo.TRef.binary (.of main_call0_v5 : StableHlo.TRef sig ⟨S20000x256, .f32⟩) (.of main_call0_v5 : StableHlo.TRef sig ⟨S20000x256, .f32⟩) (.of main_call0_v6 : StableHlo.TRef sig ⟨S20000x256, .f32⟩) mulf,
    StableHlo.TRef.unary (.of main_c_13 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x469C4000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S20000x256, .f32⟩) (.of main_call0_cst_2 : StableHlo.TRef sig ⟨S_, .f32⟩) (.of main_call0_v9 : StableHlo.TRef sig ⟨S256, .f32⟩) (fun x v => Host.reduceAdd x v reducesTo_S20000x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v60 : StableHlo.TRef sig ⟨S256, .f32⟩) (fun p a b => select (broadcastInDim S256 ![] bcast_S_S256 p) a b) ]
/-- The buffers they write. -/
abbrev KD_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v60]
theorem KD_writes : (KD (F := F)).Forall fun op => op.writes ⊆ (KD_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem KD_keep (r : Ref sig .tc) (h : r ∉ KD_W) :
    StableHlo.after (KD (F := F)) W (Proc.devRef .tc r) = W (Proc.devRef .tc r) :=
  StableHlo.after_of_writes_sub _ W KD_writes h

/-- 10 operations: the closing batch-norm's scale and shift. -/
abbrev KE : List (HloOp τ sig (Elt F)) :=
  [ StableHlo.nullary main_cst_14 (constant S_ .f32 0x00000000#32),
    StableHlo.unary main_cst_14 main_v61 (broadcastInDim S256 ![] bcast_S_S256 : (⟨S_, .f32⟩ : BufTy).Contents (Elt F) → (⟨S256, .f32⟩ : BufTy).Contents (Elt F)),
    StableHlo.binary main_v60 main_v61 main_v62 (maximumf : (⟨S256, .f32⟩ : BufTy).Contents (Elt F) → (⟨S256, .f32⟩ : BufTy).Contents (Elt F) → (⟨S256, .f32⟩ : BufTy).Contents (Elt F)),
    StableHlo.nullary main_cst_15 (constant S_ .f32 0x3727C5AC#32),
    StableHlo.unary main_cst_15 main_v63 (broadcastInDim S256 ![] bcast_S_S256 : (⟨S_, .f32⟩ : BufTy).Contents (Elt F) → (⟨S256, .f32⟩ : BufTy).Contents (Elt F)),
    StableHlo.binary main_v62 main_v63 main_v64 (addf : (⟨S256, .f32⟩ : BufTy).Contents (Elt F) → (⟨S256, .f32⟩ : BufTy).Contents (Elt F) → (⟨S256, .f32⟩ : BufTy).Contents (Elt F)),
    StableHlo.unary main_v64 main_v65 (Host.rsqrt : (⟨S256, .f32⟩ : BufTy).Contents (Elt F) → (⟨S256, .f32⟩ : BufTy).Contents (Elt F)),
    StableHlo.binary main_arg13 main_v65 main_v66 (mulf : (⟨S256, .f32⟩ : BufTy).Contents (Elt F) → (⟨S256, .f32⟩ : BufTy).Contents (Elt F) → (⟨S256, .f32⟩ : BufTy).Contents (Elt F)),
    StableHlo.binary main_v59 main_v66 main_v67 (mulf : (⟨S256, .f32⟩ : BufTy).Contents (Elt F) → (⟨S256, .f32⟩ : BufTy).Contents (Elt F) → (⟨S256, .f32⟩ : BufTy).Contents (Elt F)),
    StableHlo.binary main_arg14 main_v67 main_v68 (subf : (⟨S256, .f32⟩ : BufTy).Contents (Elt F) → (⟨S256, .f32⟩ : BufTy).Contents (Elt F) → (⟨S256, .f32⟩ : BufTy).Contents (Elt F)) ]
/-- The buffers they write. -/
abbrev KE_W : List (Ref sig .tc) := [main_cst_14, main_v61, main_v62, main_cst_15, main_v63, main_v64, main_v65, main_v66, main_v67, main_v68]
theorem KE_writes : (KE (F := F)).Forall fun op => op.writes ⊆ (KE_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem KE_keep (r : Ref sig .tc) (h : r ∉ KE_W) :
    StableHlo.after (KE (F := F)) W (Proc.devRef .tc r) = W (Proc.devRef .tc r) :=
  StableHlo.after_of_writes_sub _ W KE_writes h

/-- The program's three stretches are those five windows. -/
theorem hostOps1_eq : Gen.hostOps1 (F := F) = KA ++ (KB ++ KC) := rfl
theorem hostOps1_1_eq : Gen.hostOps1_1 (F := F) = KD := rfl
theorem hostOps1_2_eq : Gen.hostOps1_2 (F := F) = KE := rfl

end Windows

section Between

variable (W : Valuation τ sig (Elt Ideal))

set_option maxHeartbeats 2000000 in
theorem KA_main_v36 :
    StableHlo.after (KA (F := Ideal)) W (no_index (Proc.devRef .tc main_v36)) = scaleG (W (Proc.devRef .tc main_v18_2)) (W (Proc.devRef .tc main_v18_3)) (W (Proc.devRef .tc main_arg11)) := by
  unfold KA
  after_results_simp
  all_goals rfl

set_option maxHeartbeats 2000000 in
theorem KA_main_v38 :
    StableHlo.after (KA (F := Ideal)) W (no_index (Proc.devRef .tc main_v38)) = shiftG (W (Proc.devRef .tc main_v18_2)) (W (Proc.devRef .tc main_v18_3)) (W (Proc.devRef .tc main_arg11)) (W (Proc.devRef .tc main_arg12)) := by
  unfold KA
  after_results_simp
  all_goals rfl

set_option maxHeartbeats 2000000 in
theorem KB_main_v53 :
    StableHlo.after (KB (F := Ideal)) W (no_index (Proc.devRef .tc main_v53)) = msgK (W (Proc.devRef .tc main_v18_0)) (W (Proc.devRef .tc main_v18_1)) (W (Proc.devRef .tc main_v36)) (W (Proc.devRef .tc main_v38)) := by
  unfold KB
  after_results_simp
  all_goals rfl

set_option maxHeartbeats 2000000 in
theorem KC_main_v56 :
    StableHlo.after (KC (F := Ideal)) W (no_index (Proc.devRef .tc main_v56)) = Cert.ReferenceIdeal.RefValue.agg (F := Ideal) (W (Proc.devRef .tc main_v3)) (W (Proc.devRef .tc main_v53)) := by
  unfold KC
  after_results_simp
  all_goals rfl

set_option maxHeartbeats 2000000 in
theorem KC_main_v59 :
    StableHlo.after (KC (F := Ideal)) W (no_index (Proc.devRef .tc main_v59)) = Cert.ReferenceIdeal.RefValue.mean2 (F := Ideal) (Cert.ReferenceIdeal.RefValue.agg (F := Ideal) (W (Proc.devRef .tc main_v3)) (W (Proc.devRef .tc main_v53))) := by
  unfold KC
  after_results_simp
  all_goals rfl

set_option maxHeartbeats 2000000 in
theorem KC_main_c_13 :
    StableHlo.after (KC (F := Ideal)) W (no_index (Proc.devRef .tc main_c_13)) = constantI S_ 32 0#32 := by
  unfold KC
  after_results_simp
  all_goals rfl

set_option maxHeartbeats 2000000 in
theorem KD_main_v60 (h : W (Proc.devRef .tc main_c_13) = constantI S_ 32 0#32) :
    StableHlo.after (KD (F := Ideal)) W (no_index (Proc.devRef .tc main_v60)) = Cert.ReferenceIdeal.RefValue.var2 (F := Ideal) (W (Proc.devRef .tc main_v56)) := by
  unfold KD
  after_results_simp
  rw [h]
  all_goals rfl

set_option maxHeartbeats 2000000 in
theorem KE_main_v66 (A : FVec Ideal S20000x256 .f32) (h60 : W (Proc.devRef .tc main_v60) = Cert.ReferenceIdeal.RefValue.var2 (F := Ideal) A) :
    StableHlo.after (KE (F := Ideal)) W (no_index (Proc.devRef .tc main_v66)) = scaleN A (W (Proc.devRef .tc main_arg13)) := by
  unfold KE
  after_results_simp
  rw [h60]
  all_goals rfl

set_option maxHeartbeats 2000000 in
theorem KE_main_v68 (A : FVec Ideal S20000x256 .f32) (h60 : W (Proc.devRef .tc main_v60) = Cert.ReferenceIdeal.RefValue.var2 (F := Ideal) A) (h59 : W (Proc.devRef .tc main_v59) = Cert.ReferenceIdeal.RefValue.mean2 (F := Ideal) A) :
    StableHlo.after (KE (F := Ideal)) W (no_index (Proc.devRef .tc main_v68)) = shiftN A (W (Proc.devRef .tc main_arg13)) (W (Proc.devRef .tc main_arg14)) := by
  unfold KE
  after_results_simp
  rw [h60, h59]
  all_goals rfl

/-- The message array the stretches compute from the contents they start from: the first region's four output
    arrays and the gate batch-norm's two parameters. -/
def msgW : FVec Ideal S320000x256 .f32 :=
  msgOf (W (Proc.devRef .tc main_v18_0)) (W (Proc.devRef .tc main_v18_1)) (W (Proc.devRef .tc main_v18_2)) (W (Proc.devRef .tc main_v18_3)) (W (Proc.devRef .tc main_arg11)) (W (Proc.devRef .tc main_arg12))

/-- The aggregate from those contents, the targets' row read where the first stretch left it. -/
def aggW : FVec Ideal S20000x256 .f32 :=
  Cert.ReferenceIdeal.RefValue.agg (F := Ideal) (W (Proc.devRef .tc main_v3)) (msgW W)

/-- The contents after the first, …, fifth window. -/
def X1 : Valuation τ sig (Elt Ideal) := StableHlo.after (KA (F := Ideal)) W
def X2 : Valuation τ sig (Elt Ideal) := StableHlo.after (KB (F := Ideal)) (X1 W)
def X3 : Valuation τ sig (Elt Ideal) := StableHlo.after (KC (F := Ideal)) (X2 W)
def X4 : Valuation τ sig (Elt Ideal) := StableHlo.after (KD (F := Ideal)) (X3 W)
def X5 : Valuation τ sig (Elt Ideal) := StableHlo.after (KE (F := Ideal)) (X4 W)

theorem after_between : StableHlo.after (Gen.hostOps1_2 (F := Ideal)) (StableHlo.after (Gen.hostOps1_1 (F := Ideal))
    (StableHlo.after (Gen.hostOps1 (F := Ideal)) W)) = X5 W := by
  rw [hostOps1_eq, hostOps1_1_eq, hostOps1_2_eq, after_app, after_app]
  rfl

theorem X1_main_v3 : X1 W (no_index (Proc.devRef .tc main_v3)) = W (Proc.devRef .tc main_v3) :=
  KA_keep W main_v3 (by decide)
theorem X1_main_v18_0 : X1 W (no_index (Proc.devRef .tc main_v18_0)) = W (Proc.devRef .tc main_v18_0) :=
  KA_keep W main_v18_0 (by decide)
theorem X1_main_v18_1 : X1 W (no_index (Proc.devRef .tc main_v18_1)) = W (Proc.devRef .tc main_v18_1) :=
  KA_keep W main_v18_1 (by decide)
theorem X1_main_v36 : X1 W (no_index (Proc.devRef .tc main_v36)) = scaleG (W (Proc.devRef .tc main_v18_2)) (W (Proc.devRef .tc main_v18_3)) (W (Proc.devRef .tc main_arg11)) :=
  KA_main_v36 W
theorem X1_main_v38 : X1 W (no_index (Proc.devRef .tc main_v38)) = shiftG (W (Proc.devRef .tc main_v18_2)) (W (Proc.devRef .tc main_v18_3)) (W (Proc.devRef .tc main_arg11)) (W (Proc.devRef .tc main_arg12)) :=
  KA_main_v38 W
theorem X1_main_arg0 : X1 W (no_index (Proc.devRef .tc main_arg0)) = W (Proc.devRef .tc main_arg0) :=
  KA_keep W main_arg0 (by decide)
theorem X1_main_arg13 : X1 W (no_index (Proc.devRef .tc main_arg13)) = W (Proc.devRef .tc main_arg13) :=
  KA_keep W main_arg13 (by decide)
theorem X1_main_arg14 : X1 W (no_index (Proc.devRef .tc main_arg14)) = W (Proc.devRef .tc main_arg14) :=
  KA_keep W main_arg14 (by decide)

theorem X2_main_v3 : X2 W (no_index (Proc.devRef .tc main_v3)) = W (Proc.devRef .tc main_v3) :=
  (KB_keep (X1 W) main_v3 (by decide)).trans (X1_main_v3 W)
theorem X2_main_v53 : X2 W (no_index (Proc.devRef .tc main_v53)) = msgW W :=
  (KB_main_v53 (X1 W)).trans (by rw [X1_main_v18_0, X1_main_v18_1, X1_main_v36, X1_main_v38]; rfl)
theorem X2_main_arg0 : X2 W (no_index (Proc.devRef .tc main_arg0)) = W (Proc.devRef .tc main_arg0) :=
  (KB_keep (X1 W) main_arg0 (by decide)).trans (X1_main_arg0 W)
theorem X2_main_arg13 : X2 W (no_index (Proc.devRef .tc main_arg13)) = W (Proc.devRef .tc main_arg13) :=
  (KB_keep (X1 W) main_arg13 (by decide)).trans (X1_main_arg13 W)
theorem X2_main_arg14 : X2 W (no_index (Proc.devRef .tc main_arg14)) = W (Proc.devRef .tc main_arg14) :=
  (KB_keep (X1 W) main_arg14 (by decide)).trans (X1_main_arg14 W)

theorem X3_main_v56 : X3 W (no_index (Proc.devRef .tc main_v56)) = aggW W :=
  (KC_main_v56 (X2 W)).trans (by rw [X2_main_v3, X2_main_v53]; rfl)
theorem X3_main_v59 : X3 W (no_index (Proc.devRef .tc main_v59)) = Cert.ReferenceIdeal.RefValue.mean2 (F := Ideal) (aggW W) :=
  (KC_main_v59 (X2 W)).trans (by rw [X2_main_v3, X2_main_v53]; rfl)
theorem X3_main_c_13 : X3 W (no_index (Proc.devRef .tc main_c_13)) = constantI S_ 32 0#32 :=
  KC_main_c_13 (X2 W)
theorem X3_main_arg0 : X3 W (no_index (Proc.devRef .tc main_arg0)) = W (Proc.devRef .tc main_arg0) :=
  (KC_keep (X2 W) main_arg0 (by decide)).trans (X2_main_arg0 W)
theorem X3_main_arg13 : X3 W (no_index (Proc.devRef .tc main_arg13)) = W (Proc.devRef .tc main_arg13) :=
  (KC_keep (X2 W) main_arg13 (by decide)).trans (X2_main_arg13 W)
theorem X3_main_arg14 : X3 W (no_index (Proc.devRef .tc main_arg14)) = W (Proc.devRef .tc main_arg14) :=
  (KC_keep (X2 W) main_arg14 (by decide)).trans (X2_main_arg14 W)

theorem X4_main_v56 : X4 W (no_index (Proc.devRef .tc main_v56)) = aggW W :=
  (KD_keep (X3 W) main_v56 (by decide)).trans (X3_main_v56 W)
theorem X4_main_v59 : X4 W (no_index (Proc.devRef .tc main_v59)) = Cert.ReferenceIdeal.RefValue.mean2 (F := Ideal) (aggW W) :=
  (KD_keep (X3 W) main_v59 (by decide)).trans (X3_main_v59 W)
theorem X4_main_v60 : X4 W (no_index (Proc.devRef .tc main_v60)) = Cert.ReferenceIdeal.RefValue.var2 (F := Ideal) (aggW W) :=
  (KD_main_v60 (X3 W) (X3_main_c_13 W)).trans (by rw [X3_main_v56])
theorem X4_main_arg0 : X4 W (no_index (Proc.devRef .tc main_arg0)) = W (Proc.devRef .tc main_arg0) :=
  (KD_keep (X3 W) main_arg0 (by decide)).trans (X3_main_arg0 W)
theorem X4_main_arg13 : X4 W (no_index (Proc.devRef .tc main_arg13)) = W (Proc.devRef .tc main_arg13) :=
  (KD_keep (X3 W) main_arg13 (by decide)).trans (X3_main_arg13 W)
theorem X4_main_arg14 : X4 W (no_index (Proc.devRef .tc main_arg14)) = W (Proc.devRef .tc main_arg14) :=
  (KD_keep (X3 W) main_arg14 (by decide)).trans (X3_main_arg14 W)

theorem X5_main_v56 : X5 W (no_index (Proc.devRef .tc main_v56)) = aggW W :=
  (KE_keep (X4 W) main_v56 (by decide)).trans (X4_main_v56 W)
theorem X5_main_v66 : X5 W (no_index (Proc.devRef .tc main_v66)) = scaleN (aggW W) (W (Proc.devRef .tc main_arg13)) :=
  (KE_main_v66 (X4 W) (aggW W) (X4_main_v60 W)).trans (by rw [X4_main_arg13])
theorem X5_main_v68 : X5 W (no_index (Proc.devRef .tc main_v68)) = shiftN (aggW W) (W (Proc.devRef .tc main_arg13)) (W (Proc.devRef .tc main_arg14)) :=
  (KE_main_v68 (X4 W) (aggW W) (X4_main_v60 W) (X4_main_v59 W)).trans (by rw [X4_main_arg13, X4_main_arg14])
theorem X5_main_arg0 : X5 W (no_index (Proc.devRef .tc main_arg0)) = W (Proc.devRef .tc main_arg0) :=
  (KE_keep (X4 W) main_arg0 (by decide)).trans (X4_main_arg0 W)

/-- The aggregate, after the three stretches. -/
theorem after1_v56 :
    StableHlo.after (Gen.hostOps1_2 (F := Ideal)) (StableHlo.after (Gen.hostOps1_1 (F := Ideal))
        (StableHlo.after (Gen.hostOps1 (F := Ideal)) W)) (Proc.devRef .tc main_v56) = aggW W := by
  rw [after_between]; exact X5_main_v56 W

/-- The closing batch-norm's scale, after the three stretches. -/
theorem after1_v66 :
    StableHlo.after (Gen.hostOps1_2 (F := Ideal)) (StableHlo.after (Gen.hostOps1_1 (F := Ideal))
        (StableHlo.after (Gen.hostOps1 (F := Ideal)) W)) (Proc.devRef .tc main_v66)
      = scaleN (aggW W) (W (Proc.devRef .tc main_arg13)) := by
  rw [after_between]; exact X5_main_v66 W

/-- The closing batch-norm's shift, after the three stretches. -/
theorem after1_v68 :
    StableHlo.after (Gen.hostOps1_2 (F := Ideal)) (StableHlo.after (Gen.hostOps1_1 (F := Ideal))
        (StableHlo.after (Gen.hostOps1 (F := Ideal)) W)) (Proc.devRef .tc main_v68)
      = shiftN (aggW W) (W (Proc.devRef .tc main_arg13)) (W (Proc.devRef .tc main_arg14)) := by
  rw [after_between]; exact X5_main_v68 W

/-- The node features pass the three stretches untouched. -/
theorem after1_arg0 :
    StableHlo.after (Gen.hostOps1_2 (F := Ideal)) (StableHlo.after (Gen.hostOps1_1 (F := Ideal))
        (StableHlo.after (Gen.hostOps1 (F := Ideal)) W)) (Proc.devRef .tc main_arg0) = W (Proc.devRef .tc main_arg0) := by
  rw [after_between]; exact X5_main_arg0 W

end Between

/-! ## The first region's input windows -/

section Run

variable (m : (ℓ : Loc nD τ sig) → Buf (Elt Ideal) ℓ) (ρ : Dev nD → PrngReg)

/-- Window 0 of the first region is the gather of the target nodes' features. -/
theorem V1_win0 (c : Dev nD) :
    Gen.V1 m ρ c (Pipeline.arrRef spec0 0) = Cert.ReferenceIdeal.RefValue.xd (F := Ideal) (m ((c : Thread nD τ).loc main_arg0)) (m ((c : Thread nD τ).loc main_arg1)) :=
  after0_v10 (Gen.W0 m ρ c)

/-- Window 1 of the first region is the gather of the source nodes' features. -/
theorem V1_win1 (c : Dev nD) :
    Gen.V1 m ρ c (Pipeline.arrRef spec0 1) = Cert.ReferenceIdeal.RefValue.xs (F := Ideal) (m ((c : Thread nD τ).loc main_arg0)) (m ((c : Thread nD τ).loc main_arg1)) :=
  after0_v17 (Gen.W0 m ρ c)

/-- Window 2 of the first region is argument 2, as launched. -/
theorem V1_win2 (c : Dev nD) : Gen.V1 m ρ c (Pipeline.arrRef spec0 2) = (m ((c : Thread nD τ).loc main_arg2)) :=
  hostOps0_keep (Gen.W0 m ρ c) main_arg2 (by decide)

/-- Window 3 of the first region is argument 3, as launched. -/
theorem V1_win3 (c : Dev nD) : Gen.V1 m ρ c (Pipeline.arrRef spec0 3) = (m ((c : Thread nD τ).loc main_arg3)) :=
  hostOps0_keep (Gen.W0 m ρ c) main_arg3 (by decide)

/-- Window 4 of the first region is argument 4, as launched. -/
theorem V1_win4 (c : Dev nD) : Gen.V1 m ρ c (Pipeline.arrRef spec0 4) = (m ((c : Thread nD τ).loc main_arg4)) :=
  hostOps0_keep (Gen.W0 m ρ c) main_arg4 (by decide)

/-- Window 5 of the first region is argument 5, as launched. -/
theorem V1_win5 (c : Dev nD) : Gen.V1 m ρ c (Pipeline.arrRef spec0 5) = (m ((c : Thread nD τ).loc main_arg5)) :=
  hostOps0_keep (Gen.W0 m ρ c) main_arg5 (by decide)

/-- Window 6 of the first region is argument 6, as launched. -/
theorem V1_win6 (c : Dev nD) : Gen.V1 m ρ c (Pipeline.arrRef spec0 6) = (m ((c : Thread nD τ).loc main_arg6)) :=
  hostOps0_keep (Gen.W0 m ρ c) main_arg6 (by decide)

/-- Window 7 of the first region is argument 7, as launched. -/
theorem V1_win7 (c : Dev nD) : Gen.V1 m ρ c (Pipeline.arrRef spec0 7) = (m ((c : Thread nD τ).loc main_arg7)) :=
  hostOps0_keep (Gen.W0 m ρ c) main_arg7 (by decide)

/-- Window 8 of the first region is argument 8, as launched. -/
theorem V1_win8 (c : Dev nD) : Gen.V1 m ρ c (Pipeline.arrRef spec0 8) = (m ((c : Thread nD τ).loc main_arg8)) :=
  hostOps0_keep (Gen.W0 m ρ c) main_arg8 (by decide)

/-- Window 9 of the first region is argument 9, as launched. -/
theorem V1_win9 (c : Dev nD) : Gen.V1 m ρ c (Pipeline.arrRef spec0 9) = (m ((c : Thread nD τ).loc main_arg9)) :=
  hostOps0_keep (Gen.W0 m ρ c) main_arg9 (by decide)

/-- Window 10 of the first region is argument 10, as launched. -/
theorem V1_win10 (c : Dev nD) : Gen.V1 m ρ c (Pipeline.arrRef spec0 10) = (m ((c : Thread nD τ).loc main_arg10)) :=
  hostOps0_keep (Gen.W0 m ρ c) main_arg10 (by decide)

/-! ## The last region's input windows -/

/-- At the first region's exit the targets' row is where the first stretch left it. -/
theorem W2_v3 (c : Dev nD) : Gen.W2 m ρ c (Proc.devRef .tc main_v3) = Cert.ReferenceIdeal.RefValue.dstRow (m ((c : Thread nD τ).loc main_arg1)) :=
  (Gen.W2_of_ne m ρ c main_v3 (by decide)).trans (after0_v3 (Gen.W0 m ρ c))

/-- At the first region's exit argument 0 is as launched. -/
theorem W2_arg0 (c : Dev nD) : Gen.W2 m ρ c (Proc.devRef .tc main_arg0) = (m ((c : Thread nD τ).loc main_arg0)) :=
  (Gen.W2_of_ne m ρ c main_arg0 (by decide)).trans (hostOps0_keep (Gen.W0 m ρ c) main_arg0 (by decide))

/-- At the first region's exit argument 11 is as launched. -/
theorem W2_arg11 (c : Dev nD) : Gen.W2 m ρ c (Proc.devRef .tc main_arg11) = (m ((c : Thread nD τ).loc main_arg11)) :=
  (Gen.W2_of_ne m ρ c main_arg11 (by decide)).trans (hostOps0_keep (Gen.W0 m ρ c) main_arg11 (by decide))

/-- At the first region's exit argument 12 is as launched. -/
theorem W2_arg12 (c : Dev nD) : Gen.W2 m ρ c (Proc.devRef .tc main_arg12) = (m ((c : Thread nD τ).loc main_arg12)) :=
  (Gen.W2_of_ne m ρ c main_arg12 (by decide)).trans (hostOps0_keep (Gen.W0 m ρ c) main_arg12 (by decide))

/-- At the first region's exit argument 13 is as launched. -/
theorem W2_arg13 (c : Dev nD) : Gen.W2 m ρ c (Proc.devRef .tc main_arg13) = (m ((c : Thread nD τ).loc main_arg13)) :=
  (Gen.W2_of_ne m ρ c main_arg13 (by decide)).trans (hostOps0_keep (Gen.W0 m ρ c) main_arg13 (by decide))

/-- At the first region's exit argument 14 is as launched. -/
theorem W2_arg14 (c : Dev nD) : Gen.W2 m ρ c (Proc.devRef .tc main_arg14) = (m ((c : Thread nD τ).loc main_arg14)) :=
  (Gen.W2_of_ne m ρ c main_arg14 (by decide)).trans (hostOps0_keep (Gen.W0 m ρ c) main_arg14 (by decide))

/-- The aggregate the stretches compute at the first region's exit, as the stage of the launch contents and of the first
    region's four output arrays. -/
theorem aggW_W2 (c : Dev nD) :
    aggW (Gen.W2 m ρ c)
      = aggK (m ((c : Thread nD τ).loc main_arg1)) (Gen.W2 m ρ c (Proc.devRef .tc main_v18_0)) (Gen.W2 m ρ c (Proc.devRef .tc main_v18_1))
          (Gen.W2 m ρ c (Proc.devRef .tc main_v18_2)) (Gen.W2 m ρ c (Proc.devRef .tc main_v18_3)) (m ((c : Thread nD τ).loc main_arg11)) (m ((c : Thread nD τ).loc main_arg12)) := by
  unfold aggW msgW aggK
  rw [W2_v3, W2_arg11, W2_arg12]

/-- Window 0 of the last region is the node features, as launched. -/
theorem V5_win0 (c : Dev nD) : Gen.V5 m ρ c (Pipeline.arrRef spec1 0) = (m ((c : Thread nD τ).loc main_arg0)) :=
  (after1_arg0 (Gen.W2 m ρ c)).trans (W2_arg0 m ρ c)

/-- Window 1 of the last region is the aggregate. -/
theorem V5_win1 (c : Dev nD) :
    Gen.V5 m ρ c (Pipeline.arrRef spec1 1)
      = aggK (m ((c : Thread nD τ).loc main_arg1)) (Gen.W2 m ρ c (Proc.devRef .tc main_v18_0)) (Gen.W2 m ρ c (Proc.devRef .tc main_v18_1))
          (Gen.W2 m ρ c (Proc.devRef .tc main_v18_2)) (Gen.W2 m ρ c (Proc.devRef .tc main_v18_3)) (m ((c : Thread nD τ).loc main_arg11)) (m ((c : Thread nD τ).loc main_arg12)) :=
  (after1_v56 (Gen.W2 m ρ c)).trans (aggW_W2 m ρ c)

/-- Window 2 of the last region is the closing batch-norm's scale. -/
theorem V5_win2 (c : Dev nD) :
    Gen.V5 m ρ c (Pipeline.arrRef spec1 2)
      = scaleN (aggK (m ((c : Thread nD τ).loc main_arg1)) (Gen.W2 m ρ c (Proc.devRef .tc main_v18_0)) (Gen.W2 m ρ c (Proc.devRef .tc main_v18_1))
          (Gen.W2 m ρ c (Proc.devRef .tc main_v18_2)) (Gen.W2 m ρ c (Proc.devRef .tc main_v18_3)) (m ((c : Thread nD τ).loc main_arg11)) (m ((c : Thread nD τ).loc main_arg12))) (m ((c : Thread nD τ).loc main_arg13)) := by
  refine (after1_v66 (Gen.W2 m ρ c)).trans ?_
  rw [aggW_W2, W2_arg13]

/-- Window 3 of the last region is the closing batch-norm's shift. -/
theorem V5_win3 (c : Dev nD) :
    Gen.V5 m ρ c (Pipeline.arrRef spec1 3)
      = shiftN (aggK (m ((c : Thread nD τ).loc main_arg1)) (Gen.W2 m ρ c (Proc.devRef .tc main_v18_0)) (Gen.W2 m ρ c (Proc.devRef .tc main_v18_1))
          (Gen.W2 m ρ c (Proc.devRef .tc main_v18_2)) (Gen.W2 m ρ c (Proc.devRef .tc main_v18_3)) (m ((c : Thread nD τ).loc main_arg11)) (m ((c : Thread nD τ).loc main_arg12))) (m ((c : Thread nD τ).loc main_arg13)) (m ((c : Thread nD τ).loc main_arg14)) := by
  refine (after1_v68 (Gen.W2 m ρ c)).trans ?_
  rw [aggW_W2, W2_arg13, W2_arg14]

/-- The first region's four output arrays at its exit are what its write-backs leave. -/
theorem W2_out11 (c : Dev nD) : Gen.W2 m ρ c (Proc.devRef .tc main_v18_0) = (Gen.dat0 (Gen.V1 m ρ) c).arrAt 11 cfg0.N := Gen.W2_arr m ρ c 11
theorem W2_out12 (c : Dev nD) : Gen.W2 m ρ c (Proc.devRef .tc main_v18_1) = (Gen.dat0 (Gen.V1 m ρ) c).arrAt 12 cfg0.N := Gen.W2_arr m ρ c 12
theorem W2_out13 (c : Dev nD) : Gen.W2 m ρ c (Proc.devRef .tc main_v18_2) = (Gen.dat0 (Gen.V1 m ρ) c).arrAt 13 cfg0.N := Gen.W2_arr m ρ c 13
theorem W2_out14 (c : Dev nD) : Gen.W2 m ρ c (Proc.devRef .tc main_v18_3) = (Gen.dat0 (Gen.V1 m ρ) c).arrAt 14 cfg0.N := Gen.W2_arr m ρ c 14

end Run

end Cert.KernelIdeal.KValue

end
-- ==== Proof.Spec.lean ====
/-
  The layer over the reals, in the reference's own grouping. An edge's features are its two gathered node rows and its
  attribute row side by side (768 numbers); two perceptrons (768 → 256 → 256, the activation z ↦ z·σ(z)) give the gate's
  pre-activation and the message; the gate's pre-activation is normalised over all 320000 edges, column by column (mean
  and biased variance with divisor the number of rows), passed through the logistic function and multiplies the message;
  the messages are summed per destination node; the sums are normalised over the 20000 nodes, added to the node rows and
  clipped below at zero.
-/
import Idealize.ShloMosaic.PureOps.Ideal

noncomputable section

namespace Cert.Spec

/-- The logistic function. -/
def sigm (z : ℝ) : ℝ := (1 + Real.exp (-z))⁻¹

/-- The activation z ↦ z·σ(z). -/
def silu (z : ℝ) : ℝ := z * sigm z

/-- Hidden pre-activation of one row `h` of 768 features: `(∑ j, h j · W1 j k) + b1 k`. -/
def hid (W1 : Fin 768 → Fin 256 → ℝ) (b1 : Fin 256 → ℝ) (h : Fin 768 → ℝ) (k : Fin 256) : ℝ :=
  (∑ j : Fin 768, h j * W1 j k) + b1 k

/-- The perceptron's output for one row: `(∑ k, silu (hid k) · W2 k f) + b2 f`. -/
def mlp (W1 : Fin 768 → Fin 256 → ℝ) (b1 : Fin 256 → ℝ) (W2 : Fin 256 → Fin 256 → ℝ) (b2 : Fin 256 → ℝ)
    (h : Fin 768 → ℝ) (f : Fin 256) : ℝ :=
  (∑ k : Fin 256, silu (hid W1 b1 h k) * W2 k f) + b2 f

/-- Three rows of 256 side by side. -/
def cat3 (a b c : Fin 256 → ℝ) (j : Fin 768) : ℝ :=
  if h : j.val < 256 then a ⟨j.val, h⟩
  else if h2 : j.val < 512 then b ⟨j.val - 256, by omega⟩ else c ⟨j.val - 512, by omega⟩

/-- Column mean with divisor `d`. -/
def mean {n : ℕ} (d : ℝ) (g : Fin n → ℝ) : ℝ := (∑ e : Fin n, g e) / d

/-- Biased column variance with divisor `d`: the mean of the squared deviations. -/
def var {n : ℕ} (d : ℝ) (g : Fin n → ℝ) : ℝ := (∑ e : Fin n, (g e - mean d g) * (g e - mean d g)) / d

/-- Batch normalisation of column `f` at row `e`: `((g − mean) · (var + ε)^(-1/2)) · γ + β`. -/
def bn {n : ℕ} (d ε : ℝ) (g : Fin n → Fin 256 → ℝ) (γ β : Fin 256 → ℝ) (e : Fin n) (f : Fin 256) : ℝ :=
  (g e f - mean d (fun e => g e f)) * (Real.sqrt (var d (fun e => g e f) + ε))⁻¹ * γ f + β f

/-- The gated message of edge `e`, feature `f`. -/
def msg (ε : ℝ) (xd xs ea : Fin 320000 → Fin 256 → ℝ)
    (W1f : Fin 768 → Fin 256 → ℝ) (b1f : Fin 256 → ℝ) (W2f : Fin 256 → Fin 256 → ℝ) (b2f : Fin 256 → ℝ)
    (W1m : Fin 768 → Fin 256 → ℝ) (b1m : Fin 256 → ℝ) (W2m : Fin 256 → Fin 256 → ℝ) (b2m : Fin 256 → ℝ)
    (γ β : Fin 256 → ℝ) (e : Fin 320000) (f : Fin 256) : ℝ :=
  sigm (bn 320000 ε (fun e f => mlp W1f b1f W2f b2f (cat3 (xd e) (xs e) (ea e)) f) γ β e f)
    * mlp W1m b1m W2m b2m (cat3 (xd e) (xs e) (ea e)) f

/-- The layer's output at node `n`, feature `f`, from the node rows and the per-node message sums. -/
def out (ε : ℝ) (x agg : Fin 20000 → Fin 256 → ℝ) (γ β : Fin 256 → ℝ) (n : Fin 20000) (f : Fin 256) : ℝ :=
  max (x n f + bn 20000 ε agg γ β n f) 0

end Cert.Spec

end
-- ==== Proof.LibCoe.lean ====
/-
  Coercion of real arithmetic into the extended reals, as the two programs' operations need it: a finite sum of
  reals, the quotient by a non-zero real, the logistic function, the reciprocal square root of a positive real, the
  maximum, the float words both programs spell (0, 1, 320000, 20000 and the positive epsilon), and the two host
  indexing operations: a gather of a real array is a real array (it only re-reads entries), and an accumulating
  scatter of real updates into a real array is a real array (each entry is its old value plus a finite sum).
-/
import Idealize.ShloMosaic.PureOps.Ideal
import Idealize.ShloMosaic.PureOps.Ideal.Laws
import Idealize.ShloMosaic.PureOps.Contract
import Idealize.ShloMosaic.PureOps.ShapeOps

noncomputable section

namespace Cert.LibCoe

open Idealize.ShloMosaic

/-- The coercion ℝ → EReal commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The exact quotient of two reals, the divisor non-zero. -/
theorem div_coe_coe (a : ℝ) {y : ℝ} (h : y ≠ 0) : Ideal.div (a : EReal) (y : EReal) = ((a / y : ℝ) : EReal) := by
  rw [Ideal.div_coe h, ← EReal.coe_mul, mul_one_div]

/-- The reciprocal square root of a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The logistic function spelt as a quotient: `1 / (1 + e^(-z))` of a real. -/
theorem one_div_one_add_exp (z : ℝ) :
    Ideal.div 1 (1 + Ideal.exp (-(z : EReal))) = (((1 + Real.exp (-z))⁻¹ : ℝ) : EReal) := by
  have h := Ideal.logistic_coe z
  unfold Ideal.logistic at h
  exact h

/-- The maximum of two reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-! ### The float words -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_320000 : Ideal.ofBits .f32 0x489C4000#32 = ((320000 : ℝ) : EReal) := by
  simp [Ideal.ofBits, Ideal.ieee, -EReal.coe_mul]; norm_num

theorem ofBits_20000 : Ideal.ofBits .f32 0x469C4000#32 = ((20000 : ℝ) : EReal) := by
  simp [Ideal.ofBits, Ideal.ieee, -EReal.coe_mul]; norm_num

/-- The batch-norm epsilon both programs spell (the float nearest 1e-5), as a real. -/
def eps : ℝ := 10995116 * (2 : ℝ) ^ (-40 : ℤ)

theorem eps_pos : 0 < eps := by unfold eps; positivity

theorem ofBits_eps : Ideal.ofBits .f32 0x3727C5AC#32 = ((eps : ℝ) : EReal) := by
  unfold eps
  simp [Ideal.ofBits, Ideal.ieee, -EReal.coe_mul]

/-! ### Gather and accumulating scatter of real arrays -/

/-- A gather re-reads entries of its operand: of a real array it is the real array of the re-read entries. -/
theorem gather_coe {s si t : Shape} {w : Nat} (d : GatherDims s si t) (X : s.Idx → ℝ) (idx : IVec si w) :
    Host.gather d (fun i => ((X i : ℝ) : EReal)) idx = fun j => ((X (d.operandIdx j idx) : ℝ) : EReal) := rfl

/-- An accumulating scatter of real updates into a real array is a real array. -/
theorem scatterAdd_coe {s si u : Shape} {w : Nat} (d : ScatterDims s si u) (X : s.Idx → ℝ) (idx : IVec si w)
    (U : u.Idx → ℝ) :
    ∃ A : s.Idx → ℝ, Host.scatterAdd (F := Ideal) (φ := .f32) d (fun i => ((X i : ℝ) : EReal)) idx
        (fun j => ((U j : ℝ) : EReal)) = fun i => ((A i : ℝ) : EReal) := by
  have key : ∀ i, ∃ r : ℝ, Host.scatterAdd (F := Ideal) (φ := .f32) d (fun i => ((X i : ℝ) : EReal)) idx
      (fun j => ((U j : ℝ) : EReal)) i = (r : EReal) := by
    intro i
    unfold Host.scatterAdd
    rw [Ideal.hostScatterAdd_def]
    unfold Ideal.hostScatterAdd
    exact ⟨X i + ∑ j ∈ _, U j, by rw [EReal.coe_add, coe_sum]⟩
  choose A hA using key
  exact ⟨A, funext hA⟩

end Cert.LibCoe

end
-- ==== Proof.Algebra.lean ====
/-
  Real and monoid algebra joining the two arrangements of the layer.
  * A product of a row of 768 features (three rows of 256 side by side) with a column of weights is the sum of the three
    256-term products with the three row-blocks of the weights.
  * A sum over 320000 rows is the sum over 2 halves × 80 tiles × 2000 rows, row `(c·80 + t)·2000 + r` (in any additive
    commutative monoid: no finiteness is used).
  * The biased variance: `E[g²] − (E g)² = E[(g − E g)²]` when the divisor is the number of rows, and it is non-negative.
-/
import proofs.«159511_j60833916780661_2_alg».proof.Proof.Spec

noncomputable section

namespace Cert.Algebra

open Cert.Spec

/-- Splitting a 768-term product sum along the three blocks of `cat3`. -/
theorem sum_cat3 (a b c : Fin 256 → ℝ) (W : Fin 768 → ℝ) :
    (∑ j : Fin 768, cat3 a b c j * W j)
      = ((∑ j : Fin 256, a j * W ⟨j.val, by have := j.isLt; omega⟩)
          + (∑ j : Fin 256, b j * W ⟨256 + j.val, by have := j.isLt; omega⟩))
        + (∑ j : Fin 256, c j * W ⟨512 + j.val, by have := j.isLt; omega⟩) := by
  have e1 : (∑ j : Fin 768, cat3 a b c j * W j)
      = (∑ i : Fin 256, cat3 a b c (Fin.castAdd 512 i) * W (Fin.castAdd 512 i))
        + ∑ i : Fin 512, cat3 a b c (Fin.natAdd 256 i) * W (Fin.natAdd 256 i) :=
    Fin.sum_univ_add (M := ℝ) (a := 256) (b := 512) (fun j : Fin (256 + 512) => cat3 a b c j * W j)
  have e2 : (∑ i : Fin 512, cat3 a b c (Fin.natAdd 256 i) * W (Fin.natAdd 256 i))
      = (∑ i : Fin 256, cat3 a b c (Fin.natAdd 256 (Fin.castAdd 256 i)) * W (Fin.natAdd 256 (Fin.castAdd 256 i)))
        + ∑ i : Fin 256, cat3 a b c (Fin.natAdd 256 (Fin.natAdd 256 i)) * W (Fin.natAdd 256 (Fin.natAdd 256 i)) :=
    Fin.sum_univ_add (M := ℝ) (a := 256) (b := 256) (fun i : Fin (256 + 256) => cat3 a b c (Fin.natAdd 256 i) * W (Fin.natAdd 256 i))
  have hA : (∑ i : Fin 256, cat3 a b c (Fin.castAdd 512 i) * W (Fin.castAdd 512 i))
      = ∑ j : Fin 256, a j * W ⟨j.val, by have := j.isLt; omega⟩ := by
    refine Finset.sum_congr rfl fun i _ => ?_
    have h1 : (Fin.castAdd 512 i : Fin 768).val < 256 := i.isLt
    have hc : cat3 a b c (Fin.castAdd 512 i) = a i := by
      unfold cat3; rw [dif_pos h1]; exact congrArg a (Fin.ext rfl)
    rw [hc]; exact congrArg (fun z => a i * W z) (Fin.ext rfl)
  have hB : (∑ i : Fin 256, cat3 a b c (Fin.natAdd 256 (Fin.castAdd 256 i)) * W (Fin.natAdd 256 (Fin.castAdd 256 i)))
      = ∑ j : Fin 256, b j * W ⟨256 + j.val, by have := j.isLt; omega⟩ := by
    refine Finset.sum_congr rfl fun i _ => ?_
    have hi := i.isLt
    have hv : (Fin.natAdd 256 (Fin.castAdd 256 i) : Fin 768).val = 256 + i.val := rfl
    have h1 : ¬ (Fin.natAdd 256 (Fin.castAdd 256 i) : Fin 768).val < 256 := by rw [hv]; omega
    have h2 : (Fin.natAdd 256 (Fin.castAdd 256 i) : Fin 768).val < 512 := by rw [hv]; omega
    have hc : cat3 a b c (Fin.natAdd 256 (Fin.castAdd 256 i)) = b i := by
      unfold cat3; rw [dif_neg h1, dif_pos h2]; exact congrArg b (Fin.ext (by show 256 + i.val - 256 = i.val; omega))
    rw [hc]; exact congrArg (fun z => b i * W z) (Fin.ext rfl)
  have hC : (∑ i : Fin 256, cat3 a b c (Fin.natAdd 256 (Fin.natAdd 256 i)) * W (Fin.natAdd 256 (Fin.natAdd 256 i)))
      = ∑ j : Fin 256, c j * W ⟨512 + j.val, by have := j.isLt; omega⟩ := by
    refine Finset.sum_congr rfl fun i _ => ?_
    have hi := i.isLt
    have hv : (Fin.natAdd 256 (Fin.natAdd 256 i) : Fin 768).val = 256 + (256 + i.val) := rfl
    have h1 : ¬ (Fin.natAdd 256 (Fin.natAdd 256 i) : Fin 768).val < 256 := by rw [hv]; omega
    have h2 : ¬ (Fin.natAdd 256 (Fin.natAdd 256 i) : Fin 768).val < 512 := by rw [hv]; omega
    have hc : cat3 a b c (Fin.natAdd 256 (Fin.natAdd 256 i)) = c i := by
      unfold cat3; rw [dif_neg h1, dif_neg h2]
      exact congrArg c (Fin.ext (by show 256 + (256 + i.val) - 512 = i.val; omega))
    rw [hc]
    exact congrArg (fun z => c i * W z) (Fin.ext (by show 256 + (256 + i.val) = 512 + i.val; omega))
  rw [e1, e2, hA, hB, hC, add_assoc]

/-- Row `(c·80 + t)·2000 + r` of half `c`, tile `t`. -/
def blockEquiv : Fin 2 × Fin 80 × Fin 2000 ≃ Fin 320000 where
  toFun p := ⟨(p.1.val * 80 + p.2.1.val) * 2000 + p.2.2.val, by
    have := p.1.isLt; have := p.2.1.isLt; have := p.2.2.isLt; omega⟩
  invFun e := (⟨e.val / 160000, by have := e.isLt; omega⟩, ⟨e.val / 2000 % 80, by omega⟩, ⟨e.val % 2000, by omega⟩)
  left_inv p := by
    obtain ⟨c, t, r⟩ := p
    have := c.isLt; have := t.isLt; have := r.isLt
    refine Prod.ext (Fin.ext ?_) (Prod.ext (Fin.ext ?_) (Fin.ext ?_))
    · show ((c.val * 80 + t.val) * 2000 + r.val) / 160000 = c.val; omega
    · show ((c.val * 80 + t.val) * 2000 + r.val) / 2000 % 80 = t.val; omega
    · show ((c.val * 80 + t.val) * 2000 + r.val) % 2000 = r.val; omega
  right_inv e := by
    have := e.isLt
    apply Fin.ext
    show (e.val / 160000 * 80 + e.val / 2000 % 80) * 2000 + e.val % 2000 = e.val
    omega

/-- A sum over the 320000 rows, arranged as halves × tiles × rows. -/
theorem sum_blocks {M : Type*} [AddCommMonoid M] (g : Fin 320000 → M) :
    (∑ c : Fin 2, ∑ t : Fin 80, ∑ r : Fin 2000,
        g ⟨(c.val * 80 + t.val) * 2000 + r.val, by have := c.isLt; have := t.isLt; have := r.isLt; omega⟩)
      = ∑ e : Fin 320000, g e := by
  rw [← Equiv.sum_comp blockEquiv g, Fintype.sum_prod_type]
  refine Finset.sum_congr rfl fun c _ => ?_
  rw [Fintype.sum_prod_type]
  rfl

/-- The biased variance in its two spellings, the divisor being the number of rows. -/
theorem var_eq {n : ℕ} (d : ℝ) (hd : d = (n : ℝ)) (hn : 0 < n) (g : Fin n → ℝ) :
    (∑ e : Fin n, g e * g e) / d - ((∑ e : Fin n, g e) / d) * ((∑ e : Fin n, g e) / d) = var d g := by
  have hd0 : d ≠ 0 := by rw [hd]; positivity
  unfold var mean
  have hexp : ∀ μ : ℝ, (∑ e : Fin n, (g e - μ) * (g e - μ))
      = (∑ e : Fin n, g e * g e) - 2 * μ * (∑ e : Fin n, g e) + (n : ℝ) * (μ * μ) := by
    intro μ
    have : ∀ e : Fin n, (g e - μ) * (g e - μ) = g e * g e - 2 * μ * g e + μ * μ := fun e => by ring
    simp only [this, Finset.sum_add_distrib, Finset.sum_sub_distrib, ← Finset.mul_sum, Finset.sum_const,
      Finset.card_univ, Fintype.card_fin, nsmul_eq_mul]
    ring
  rw [hexp, ← hd]
  field_simp
  ring

/-- The biased variance is non-negative. -/
theorem var_nonneg {n : ℕ} (d : ℝ) (hd : 0 < d) (g : Fin n → ℝ) : 0 ≤ var d g := by
  unfold var
  exact div_nonneg (Finset.sum_nonneg fun _ _ => mul_self_nonneg _) hd.le

end Cert.Algebra

end
-- ==== Proof.KernelMlp.lean ====
/-
  The per-block perceptron on real inputs. When the three feature arrays, the weights and the biases are real arrays, the
  hidden pre-activation summed block by block (rows 0‥255, 256‥511, 512‥767 of the first weight matrix) is the real hidden
  pre-activation of the 768 features side by side, and the perceptron's output is the real perceptron's: only finite sums,
  products and the logistic function of reals occur, and each is the coercion of the real operation.
-/
import proofs.«159511_j60833916780661_2_alg».proof.Proof.Region0Spec
import proofs.«159511_j60833916780661_2_alg».proof.Proof.Spec
import proofs.«159511_j60833916780661_2_alg».proof.Proof.LibCoe
import proofs.«159511_j60833916780661_2_alg».proof.Proof.Algebra

noncomputable section

namespace Cert.Bridge

open Idealize.ShloMosaic Idealize.ShloMosaic.ValueIdx Cert.KernelIdeal.R0Value Cert.Spec Cert.LibCoe

/-- A real array of rank two as a function of its two coordinates. -/
abbrev cur2 {n0 n1 : Nat} (X : (⟨2, ![n0, n1]⟩ : Shape).Idx → ℝ) (a : Fin n0) (b : Fin n1) : ℝ := X (ix2 a b)

/-- A real array of rank one as a function of its coordinate. -/
abbrev cur1 {n : Nat} (X : (⟨1, ![n]⟩ : Shape).Idx → ℝ) (a : Fin n) : ℝ := X (ix1 a)

variable (Xd Xs Ea : (⟨2, ![320000, 256]⟩ : Shape).Idx → ℝ) (W1 : (⟨2, ![768, 256]⟩ : Shape).Idx → ℝ)
  (b1 : (⟨1, ![256]⟩ : Shape).Idx → ℝ) (W2 : (⟨2, ![256, 256]⟩ : Shape).Idx → ℝ) (b2 : (⟨1, ![256]⟩ : Shape).Idx → ℝ)

/-- The block-by-block hidden pre-activation of real inputs is the real one of the concatenated row. -/
theorem hidK_coe (e : Fin 320000) (k : Fin 256) :
    hidK (fun i => ((Xd i : ℝ) : EReal)) (fun i => ((Xs i : ℝ) : EReal)) (fun i => ((Ea i : ℝ) : EReal))
        (fun i => ((W1 i : ℝ) : EReal)) (fun i => ((b1 i : ℝ) : EReal)) e k
      = ((hid (cur2 W1) (cur1 b1) (cat3 (cur2 Xd e) (cur2 Xs e) (cur2 Ea e)) k : ℝ) : EReal) := by
  unfold hidK hid
  rw [Algebra.sum_cat3 (cur2 Xd e) (cur2 Xs e) (cur2 Ea e) (fun j => cur2 W1 j k)]
  simp only [EReal.coe_add, coe_sum, EReal.coe_mul]

/-- The per-block perceptron of real inputs is the real perceptron of the concatenated row. -/
theorem mlpAt_coe (e : Fin 320000) (f : Fin 256) :
    mlpAt (fun i => ((Xd i : ℝ) : EReal)) (fun i => ((Xs i : ℝ) : EReal)) (fun i => ((Ea i : ℝ) : EReal))
        (fun i => ((W1 i : ℝ) : EReal)) (fun i => ((b1 i : ℝ) : EReal)) (fun i => ((W2 i : ℝ) : EReal))
        (fun i => ((b2 i : ℝ) : EReal)) e f
      = ((mlp (cur2 W1) (cur1 b1) (cur2 W2) (cur1 b2) (cat3 (cur2 Xd e) (cur2 Xs e) (cur2 Ea e)) f : ℝ) : EReal) := by
  unfold mlpAt mlp
  simp only [hidK_coe, Ideal.logistic_coe]
  simp only [EReal.coe_add, coe_sum, EReal.coe_mul, silu, sigm]

end Cert.Bridge

end
-- ==== Proof.Algebra2.lean ====
/-
  The scale-and-shift spelling of the batch normalisation. From the column sum and the column sum of squares one forms
  mean = S/d, v = max (Q/d − mean², 0), s = γ · (v + ε)^(-1/2), sh = β − mean · s, and then g · s + sh. When d is the number
  of rows, Q/d − mean² is the biased variance (non-negative, so the clipping does nothing), and
  g · s + sh = ((g − mean) · (var + ε)^(-1/2)) · γ + β by distributivity — here, over the reals.
-/
import proofs.«159511_j60833916780661_2_alg».proof.Proof.Algebra

noncomputable section

namespace Cert.Algebra

open Cert.Spec

/-- The clipped variance from the two sums is the biased variance. -/
theorem clipped_var_eq {n : ℕ} (d : ℝ) (hd : d = (n : ℝ)) (hn : 0 < n) (g : Fin n → ℝ) :
    max ((∑ e : Fin n, g e * g e) / d - ((∑ e : Fin n, g e) / d) * ((∑ e : Fin n, g e) / d)) 0 = var d g := by
  rw [var_eq d hd hn g]
  exact max_eq_left (var_nonneg d (by rw [hd]; exact_mod_cast hn) g)

/-- Scale-and-shift form against the centred form, one entry. -/
theorem scale_shift (g μ r γ β : ℝ) : g * (γ * r) + (β - μ * (γ * r)) = (g - μ) * r * γ + β := by ring

/-- The kernel's spelling of the first batch normalisation is `Spec.bn`. -/
theorem bn_of_sums {n : ℕ} (d ε : ℝ) (hd : d = (n : ℝ)) (hn : 0 < n) (g : Fin n → Fin 256 → ℝ) (γ β : Fin 256 → ℝ)
    (e : Fin n) (f : Fin 256) :
    g e f * (γ f * (Real.sqrt (max ((∑ e : Fin n, g e f * g e f) / d
            - ((∑ e : Fin n, g e f) / d) * ((∑ e : Fin n, g e f) / d)) 0 + ε))⁻¹)
        + (β f - ((∑ e : Fin n, g e f) / d) * (γ f * (Real.sqrt (max ((∑ e : Fin n, g e f * g e f) / d
            - ((∑ e : Fin n, g e f) / d) * ((∑ e : Fin n, g e f) / d)) 0 + ε))⁻¹))
      = bn d ε g γ β e f := by
  rw [clipped_var_eq d hd hn (fun e => g e f), scale_shift]
  rfl

/-- The second batch normalisation in scale-and-shift form, the variance already the biased one, clipped at zero. -/
theorem bn_of_var {n : ℕ} (d ε : ℝ) (hd : 0 < d) (g : Fin n → Fin 256 → ℝ) (γ β : Fin 256 → ℝ) (e : Fin n) (f : Fin 256) :
    g e f * (γ f * (Real.sqrt (max (var d (fun e => g e f)) 0 + ε))⁻¹)
        + (β f - mean d (fun e => g e f) * (γ f * (Real.sqrt (max (var d (fun e => g e f)) 0 + ε))⁻¹))
      = bn d ε g γ β e f := by
  rw [max_eq_left (var_nonneg d hd (fun e => g e f)), scale_shift]
  rfl

end Cert.Algebra

end
-- ==== Proof.KernelSpec.lean ====
/-
  The kernel's host stages on real inputs. Region 0 leaves the gate's pre-activation G and the message pre-activation M
  (real arrays), and per half c the sums of G and of G² over that half's 160000 rows. The host then forms
  mean = (∑ halves)/320000, the clipped variance from the two sums, scale = γ·(var + ε)^(-1/2), shift = β − mean·scale, the
  gate 1/(1 + exp(−(G·scale + shift))) and the message gate·M. Over the reals the two half sums add up to the sum over
  all rows, the clipped variance is the biased variance, and G·scale + shift is the batch normalisation of G: the
  message is the specification's.
-/
import proofs.«159511_j60833916780661_2_alg».proof.Proof.KStages
import proofs.«159511_j60833916780661_2_alg».proof.Proof.KernelMlp
import proofs.«159511_j60833916780661_2_alg».proof.Proof.Algebra2

noncomputable section

namespace Cert.Bridge

open Idealize.ShloMosaic Idealize.ShloMosaic.ValueIdx Cert.KernelIdeal Cert.KernelIdeal.KValue Cert.Spec Cert.LibCoe

/-- The sum of `H` over the 160000 rows of half `c`, tile by tile. -/
def blockSum (H : Fin 320000 → ℝ) (c : Fin 2) : ℝ :=
  ∑ t : Fin 80, ∑ r : Fin 2000,
    H ⟨(c.val * 80 + t.val) * 2000 + r.val, by have := c.isLt; have := t.isLt; have := r.isLt; omega⟩

theorem sum_blockSum (H : Fin 320000 → ℝ) : ∑ c : Fin 2, blockSum H c = ∑ e : Fin 320000, H e :=
  Algebra.sum_blocks H

/-- The column mean from the two half sums. -/
theorem meanG_coe (acc : FVec Ideal S2x8x256 .f32) (H : Fin 256 → Fin 320000 → ℝ)
    (h : ∀ (c : Fin 2) (k : Fin 256), acc (ix3 c (0 : Fin 8) k) = ((blockSum (H k) c : ℝ) : EReal)) (k : Fin 256) :
    meanG acc (ix1 k) = (((∑ e : Fin 320000, H k e) / 320000 : ℝ) : EReal) := by
  rw [meanG_apply, ofBits_zero, zero_add, ofBits_320000]
  simp only [h]
  rw [← coe_sum, sum_blockSum, div_coe_coe _ (by norm_num)]

/-- The message the host forms from region 0's four arrays is the specification's, entry by entry. -/
theorem msgOf_coe (G M : Fin 320000 → Fin 256 → ℝ) (gp mp : FVec Ideal S320000x256 .bf16)
    (sg ssg : FVec Ideal S2x8x256 .f32) (gi bi : (⟨1, ![256]⟩ : Shape).Idx → ℝ)
    (hgp : ∀ (e : Fin 320000) (k : Fin 256), gp (ix2 e k) = ((G e k : ℝ) : EReal))
    (hmp : ∀ (e : Fin 320000) (k : Fin 256), mp (ix2 e k) = ((M e k : ℝ) : EReal))
    (hsg : ∀ (c : Fin 2) (k : Fin 256), sg (ix3 c (0 : Fin 8) k) = ((blockSum (fun e => G e k) c : ℝ) : EReal))
    (hssg : ∀ (c : Fin 2) (k : Fin 256),
      ssg (ix3 c (0 : Fin 8) k) = ((blockSum (fun e => G e k * G e k) c : ℝ) : EReal)) :
    msgOf gp mp sg ssg (fun i => ((gi i : ℝ) : EReal)) (fun i => ((bi i : ℝ) : EReal))
      = fun i => ((sigm (bn 320000 eps G (cur1 gi) (cur1 bi) (i 0) (i 1)) * M (i 0) (i 1) : ℝ) : EReal) := by
  funext i
  obtain ⟨e, k, rfl⟩ : ∃ (e : Fin 320000) (k : Fin 256), i = ix2 e k := ⟨i 0, i 1, eq_ix2 i⟩
  have hμ := meanG_coe sg (fun k e => G e k) hsg k
  have hQ := meanG_coe ssg (fun k e => G e k * G e k) hssg k
  have hv : varG sg ssg (ix1 k)
      = ((max ((∑ e : Fin 320000, G e k * G e k) / 320000
          - ((∑ e : Fin 320000, G e k) / 320000) * ((∑ e : Fin 320000, G e k) / 320000)) 0 : ℝ) : EReal) := by
    rw [varG_apply, hμ, hQ, ofBits_zero, ← EReal.coe_mul, ← EReal.coe_sub, ← EReal.coe_zero, max_coe]
  have hvpos : 0 < max ((∑ e : Fin 320000, G e k * G e k) / 320000
          - ((∑ e : Fin 320000, G e k) / 320000) * ((∑ e : Fin 320000, G e k) / 320000)) 0 + eps := by
    have := le_max_right ((∑ e : Fin 320000, G e k * G e k) / 320000
          - ((∑ e : Fin 320000, G e k) / 320000) * ((∑ e : Fin 320000, G e k) / 320000)) 0
    linarith [eps_pos]
  have hs : scaleG sg ssg (fun i => ((gi i : ℝ) : EReal)) (ix1 k)
      = ((gi (ix1 k) * (Real.sqrt (max ((∑ e : Fin 320000, G e k * G e k) / 320000
          - ((∑ e : Fin 320000, G e k) / 320000) * ((∑ e : Fin 320000, G e k) / 320000)) 0 + eps))⁻¹ : ℝ) : EReal) := by
    rw [scaleG_apply, hv, ofBits_eps, ← EReal.coe_add, rsqrt_pos hvpos, ← EReal.coe_mul]
  have hsh : shiftG sg ssg (fun i => ((gi i : ℝ) : EReal)) (fun i => ((bi i : ℝ) : EReal)) (ix1 k)
      = ((bi (ix1 k) - ((∑ e : Fin 320000, G e k) / 320000)
          * (gi (ix1 k) * (Real.sqrt (max ((∑ e : Fin 320000, G e k * G e k) / 320000
          - ((∑ e : Fin 320000, G e k) / 320000) * ((∑ e : Fin 320000, G e k) / 320000)) 0 + eps))⁻¹) : ℝ) : EReal) := by
    rw [shiftG_apply, hμ, hs, ← EReal.coe_mul, ← EReal.coe_sub]
  show msgK gp mp (scaleG sg ssg _) (shiftG sg ssg _ _) (ix2 e k) = _
  rw [msgK_apply, gateK_apply, hgp, hmp, hs, hsh, ofBits_one, ← EReal.coe_mul, ← EReal.coe_add,
    one_div_one_add_exp, ← EReal.coe_mul]
  exact congrArg (fun z : ℝ => ((((1 + Real.exp (-z))⁻¹ * M e k : ℝ)) : EReal))
    (Algebra.bn_of_sums 320000 eps (by norm_num) (by norm_num) G (cur1 gi) (cur1 bi) e k)

end Cert.Bridge

end
-- ==== Proof.RefRead.lean ====
import proofs.«159511_j60833916780661_2_alg».proof.Proof.RefStages
import proofs.«159511_j60833916780661_2_alg».proof.Proof.LibCoe
import Idealize.ShloMosaic.Lib.ValueIdx
import Idealize.ShloMosaic.Lib.Pipeline.Value
import Idealize.ShloMosaic.PureOps.Ideal.Laws

noncomputable section

/-! The reference's stages read at an entry, over the extended reals: the concatenation by thirds, a host product as
    the sum over the contracted axis, a column sum as the sum over the rows, the repeated vectors at their column, and
    the entrywise operations. The gathers and the scatter-add are not opened. -/

namespace Cert.ReferenceIdeal.RefValue

open Cert.ReferenceIdeal Cert.ReferenceIdeal.Gen Idealize.ShloMosaic Idealize.SL.Sem Idealize.ShloMosaic.ValueIdx

/-! ## Repeated vectors and the concatenation -/

/-- A repeated vector at an entry of the edge array is the vector at the column. -/
theorem rowBcastE_apply (b : FVec Ideal S256 .f32) (e : Fin 320000) (f : Fin 256) : rowBcastE b (ix2 e f) = b (ix1 f) := by
  unfold rowBcastE
  refine (broadcastInDim_apply _ _ _ (ix2 e f) (ix2 (0 : Fin 1) f) (fun a => by
    match a with
    | ⟨0, _⟩ => rfl
    | ⟨1, _⟩ => rfl)).trans ?_
  exact broadcastInDim_apply _ _ _ (ix2 (0 : Fin 1) f) (ix1 f) (fun a => by match a with | ⟨0, _⟩ => rfl)

/-- A repeated vector at an entry of the node array is the vector at the column. -/
theorem rowBcastN_apply (b : FVec Ideal S256 .f32) (n : Fin 20000) (f : Fin 256) : rowBcastN b (ix2 n f) = b (ix1 f) := by
  unfold rowBcastN
  refine (broadcastInDim_apply _ _ _ (ix2 n f) (ix2 (0 : Fin 1) f) (fun a => by
    match a with
    | ⟨0, _⟩ => rfl
    | ⟨1, _⟩ => rfl)).trans ?_
  exact broadcastInDim_apply _ _ _ (ix2 (0 : Fin 1) f) (ix1 f) (fun a => by match a with | ⟨0, _⟩ => rfl)

/-- The constant one, at any entry. -/
theorem oneE_apply (j : S320000x256.Idx) : oneE (F := Ideal) j = 1 := Cert.LibCoe.ofBits_one

/-- The epsilon vector, at any column. -/
theorem epsV_apply (j : S256.Idx) : epsV (F := Ideal) j = ((Cert.LibCoe.eps : ℝ) : EReal) := Cert.LibCoe.ofBits_eps

/-- The concatenated row at a column below 256 is the first array's entry. -/
theorem hcat_apply_fst {α : Type} (a b c : S320000x256.Idx → α) (e : Fin 320000) (j : Fin 768) (h : j.val < 256) :
    concatenate S320000x768 1 [⟨S320000x256, a⟩, ⟨S320000x256, b⟩, ⟨S320000x256, c⟩]
      concatenates_S320000x256_S320000x256_S320000x256_S320000x768_d1 (ix2 e j) = a (ix2 e ⟨j.val, h⟩) :=
  concatenate_apply_piece (1 : Fin 2) _ _ (ix2 e j) 0 (by show (0 : Nat) < 3; omega) S320000x256 a rfl rfl 0 rfl (ix2 e ⟨j.val, h⟩)
    (fun b hb => by
      match b with
      | ⟨0, _⟩ => rfl
      | ⟨1, _⟩ => exact absurd rfl hb)
    (by show 0 + j.val = j.val; omega)

/-- At a column from 256 below 512, the second array's entry at the column less 256. -/
theorem hcat_apply_snd {α : Type} (a b c : S320000x256.Idx → α) (e : Fin 320000) (j : Fin 768) (h1 : ¬ j.val < 256) (h2 : j.val < 512) :
    concatenate S320000x768 1 [⟨S320000x256, a⟩, ⟨S320000x256, b⟩, ⟨S320000x256, c⟩]
      concatenates_S320000x256_S320000x256_S320000x256_S320000x768_d1 (ix2 e j) = b (ix2 e ⟨j.val - 256, by omega⟩) :=
  concatenate_apply_piece (1 : Fin 2) _ _ (ix2 e j) 1 (by show (1 : Nat) < 3; omega) S320000x256 b rfl rfl 256 rfl (ix2 e ⟨j.val - 256, by omega⟩)
    (fun b hb => by
      match b with
      | ⟨0, _⟩ => rfl
      | ⟨1, _⟩ => exact absurd rfl hb)
    (by show 256 + (j.val - 256) = j.val; omega)

/-- At a column from 512 on, the third array's entry at the column less 512. -/
theorem hcat_apply_thd {α : Type} (a b c : S320000x256.Idx → α) (e : Fin 320000) (j : Fin 768) (h2 : ¬ j.val < 512) :
    concatenate S320000x768 1 [⟨S320000x256, a⟩, ⟨S320000x256, b⟩, ⟨S320000x256, c⟩]
      concatenates_S320000x256_S320000x256_S320000x256_S320000x768_d1 (ix2 e j) = c (ix2 e ⟨j.val - 512, by omega⟩) :=
  concatenate_apply_piece (1 : Fin 2) _ _ (ix2 e j) 2 (by show (2 : Nat) < 3; omega) S320000x256 c rfl rfl 512 rfl (ix2 e ⟨j.val - 512, by omega⟩)
    (fun b hb => by
      match b with
      | ⟨0, _⟩ => rfl
      | ⟨1, _⟩ => exact absurd rfl hb)
    (by show 512 + (j.val - 512) = j.val; omega)

/-- The concatenated row, column by column: three arrays of 256 columns side by side. -/
theorem hcat_apply (a b c : FVec Ideal S320000x256 .f32) (e : Fin 320000) (j : Fin 768) :
    hcat a b c (ix2 e j) = if h : j.val < 256 then a (ix2 e ⟨j.val, h⟩)
      else if h2 : j.val < 512 then b (ix2 e ⟨j.val - 256, by omega⟩) else c (ix2 e ⟨j.val - 512, by omega⟩) := by
  unfold hcat
  by_cases h : j.val < 256
  · rw [dif_pos h]; exact hcat_apply_fst a b c e j h
  · rw [dif_neg h]
    by_cases h2 : j.val < 512
    · rw [dif_pos h2]; exact hcat_apply_snd a b c e j h h2
    · rw [dif_neg h2]; exact hcat_apply_thd a b c e j h2

/-! ## The host products and the perceptron -/

theorem dot768_lhs0 (i : S320000x256.Idx) (q : dot_S320000x768_S768x256_S320000x256_1_0_0_1_n_n.contr.Idx) : (dot_S320000x768_S768x256_S320000x256_1_0_0_1_n_n.lhsIdx i q 0).val = (i 0).val := by
  unfold DotDims.lhsIdx
  rw [dif_neg (show ¬(0 : Fin S320000x768.rank) ∈ dot_S320000x768_S768x256_S320000x256_1_0_0_1_n_n.lhsBatch by decide), dif_pos (show (0 : Fin S320000x768.rank) ∈ dot_S320000x768_S768x256_S320000x256_1_0_0_1_n_n.lhsNonContracting by decide)]
  rfl
theorem dot768_lhs1 (i : S320000x256.Idx) (q : dot_S320000x768_S768x256_S320000x256_1_0_0_1_n_n.contr.Idx) : (dot_S320000x768_S768x256_S320000x256_1_0_0_1_n_n.lhsIdx i q 1).val = (q ⟨0, by decide⟩).val :=
  dot_S320000x768_S768x256_S320000x256_1_0_0_1_n_n.lhsIdx_val_of_single rfl i q
theorem dot768_rhs0 (i : S320000x256.Idx) (q : dot_S320000x768_S768x256_S320000x256_1_0_0_1_n_n.contr.Idx) : (dot_S320000x768_S768x256_S320000x256_1_0_0_1_n_n.rhsIdx i q 0).val = (q ⟨0, by decide⟩).val :=
  dot_S320000x768_S768x256_S320000x256_1_0_0_1_n_n.rhsIdx_val_of_single rfl i q
theorem dot768_rhs1 (i : S320000x256.Idx) (q : dot_S320000x768_S768x256_S320000x256_1_0_0_1_n_n.contr.Idx) : (dot_S320000x768_S768x256_S320000x256_1_0_0_1_n_n.rhsIdx i q 1).val = (i 1).val := by
  unfold DotDims.rhsIdx
  rw [dif_neg (show ¬(1 : Fin S768x256.rank) ∈ dot_S320000x768_S768x256_S320000x256_1_0_0_1_n_n.rhsBatch by decide), dif_pos (show (1 : Fin S768x256.rank) ∈ dot_S320000x768_S768x256_S320000x256_1_0_0_1_n_n.rhsNonContracting by decide)]
  rfl

/-- The host product at an entry: the sum over the 768 contracted positions of row times column. -/
theorem dot768_apply (h : FVec Ideal S320000x768 .f32) (W : FVec Ideal S768x256 .f32) (e : Fin 320000) (f : Fin 256) :
    Host.dotGeneral dot_S320000x768_S768x256_S320000x256_1_0_0_1_n_n none h W (ix2 e f) = ∑ k : Fin 768, h (ix2 e k) * W (ix2 k f) := by
  simp only [Host.dotGeneral]
  rw [Ideal.dotGeneral_apply, ← Equiv.sum_comp (ValueIdx.contrEquiv1 dot_S320000x768_S768x256_S320000x256_1_0_0_1_n_n 768 rfl rfl).symm]
  refine Finset.sum_congr rfl fun k _ => ?_
  have hk := ValueIdx.contrEquiv1_symm_val dot_S320000x768_S768x256_S320000x256_1_0_0_1_n_n 768 rfl rfl k
  have el : dot_S320000x768_S768x256_S320000x256_1_0_0_1_n_n.lhsIdx (ix2 e f) ((ValueIdx.contrEquiv1 dot_S320000x768_S768x256_S320000x256_1_0_0_1_n_n 768 rfl rfl).symm k) = ix2 e k := funext fun a => Fin.ext (by
    match a with
    | ⟨0, _⟩ => exact dot768_lhs0 _ _
    | ⟨1, _⟩ => exact (dot768_lhs1 _ _).trans hk)
  have er : dot_S320000x768_S768x256_S320000x256_1_0_0_1_n_n.rhsIdx (ix2 e f) ((ValueIdx.contrEquiv1 dot_S320000x768_S768x256_S320000x256_1_0_0_1_n_n 768 rfl rfl).symm k) = ix2 k f := funext fun a => Fin.ext (by
    match a with
    | ⟨0, _⟩ => exact (dot768_rhs0 _ _).trans hk
    | ⟨1, _⟩ => exact dot768_rhs1 _ _)
  rw [el, er]

theorem dot256_lhs0 (i : S320000x256.Idx) (q : dot_S320000x256_S256x256_S320000x256_1_0_0_1_n_n.contr.Idx) : (dot_S320000x256_S256x256_S320000x256_1_0_0_1_n_n.lhsIdx i q 0).val = (i 0).val := by
  unfold DotDims.lhsIdx
  rw [dif_neg (show ¬(0 : Fin S320000x256.rank) ∈ dot_S320000x256_S256x256_S320000x256_1_0_0_1_n_n.lhsBatch by decide), dif_pos (show (0 : Fin S320000x256.rank) ∈ dot_S320000x256_S256x256_S320000x256_1_0_0_1_n_n.lhsNonContracting by decide)]
  rfl
theorem dot256_lhs1 (i : S320000x256.Idx) (q : dot_S320000x256_S256x256_S320000x256_1_0_0_1_n_n.contr.Idx) : (dot_S320000x256_S256x256_S320000x256_1_0_0_1_n_n.lhsIdx i q 1).val = (q ⟨0, by decide⟩).val :=
  dot_S320000x256_S256x256_S320000x256_1_0_0_1_n_n.lhsIdx_val_of_single rfl i q
theorem dot256_rhs0 (i : S320000x256.Idx) (q : dot_S320000x256_S256x256_S320000x256_1_0_0_1_n_n.contr.Idx) : (dot_S320000x256_S256x256_S320000x256_1_0_0_1_n_n.rhsIdx i q 0).val = (q ⟨0, by decide⟩).val :=
  dot_S320000x256_S256x256_S320000x256_1_0_0_1_n_n.rhsIdx_val_of_single rfl i q
theorem dot256_rhs1 (i : S320000x256.Idx) (q : dot_S320000x256_S256x256_S320000x256_1_0_0_1_n_n.contr.Idx) : (dot_S320000x256_S256x256_S320000x256_1_0_0_1_n_n.rhsIdx i q 1).val = (i 1).val := by
  unfold DotDims.rhsIdx
  rw [dif_neg (show ¬(1 : Fin S256x256.rank) ∈ dot_S320000x256_S256x256_S320000x256_1_0_0_1_n_n.rhsBatch by decide), dif_pos (show (1 : Fin S256x256.rank) ∈ dot_S320000x256_S256x256_S320000x256_1_0_0_1_n_n.rhsNonContracting by decide)]
  rfl

/-- The host product at an entry: the sum over the 256 contracted positions of row times column. -/
theorem dot256_apply (h : FVec Ideal S320000x256 .f32) (W : FVec Ideal S256x256 .f32) (e : Fin 320000) (f : Fin 256) :
    Host.dotGeneral dot_S320000x256_S256x256_S320000x256_1_0_0_1_n_n none h W (ix2 e f) = ∑ k : Fin 256, h (ix2 e k) * W (ix2 k f) := by
  simp only [Host.dotGeneral]
  rw [Ideal.dotGeneral_apply, ← Equiv.sum_comp (ValueIdx.contrEquiv1 dot_S320000x256_S256x256_S320000x256_1_0_0_1_n_n 256 rfl rfl).symm]
  refine Finset.sum_congr rfl fun k _ => ?_
  have hk := ValueIdx.contrEquiv1_symm_val dot_S320000x256_S256x256_S320000x256_1_0_0_1_n_n 256 rfl rfl k
  have el : dot_S320000x256_S256x256_S320000x256_1_0_0_1_n_n.lhsIdx (ix2 e f) ((ValueIdx.contrEquiv1 dot_S320000x256_S256x256_S320000x256_1_0_0_1_n_n 256 rfl rfl).symm k) = ix2 e k := funext fun a => Fin.ext (by
    match a with
    | ⟨0, _⟩ => exact dot256_lhs0 _ _
    | ⟨1, _⟩ => exact (dot256_lhs1 _ _).trans hk)
  have er : dot_S320000x256_S256x256_S320000x256_1_0_0_1_n_n.rhsIdx (ix2 e f) ((ValueIdx.contrEquiv1 dot_S320000x256_S256x256_S320000x256_1_0_0_1_n_n 256 rfl rfl).symm k) = ix2 k f := funext fun a => Fin.ext (by
    match a with
    | ⟨0, _⟩ => exact (dot256_rhs0 _ _).trans hk
    | ⟨1, _⟩ => exact dot256_rhs1 _ _)
  rw [el, er]

/-- The activation at an entry: `z · logistic z`. -/
theorem silu_apply (v : FVec Ideal S320000x256 .f32) (j : S320000x256.Idx) : silu v j = v j * Ideal.logistic (v j) := by
  show v j * Ideal.div (oneE (F := Ideal) j) (oneE (F := Ideal) j + Ideal.exp (-(v j))) = _
  rw [oneE_apply]; rfl

/-- The hidden pre-activation of edge row `e` at hidden unit `k`. -/
def hidE (h : FVec Ideal S320000x768 .f32) (W1 : FVec Ideal S768x256 .f32) (b1 : FVec Ideal S256 .f32) (e : Fin 320000) (k : Fin 256) : EReal :=
  (∑ j : Fin 768, h (ix2 e j) * W1 (ix2 j k)) + b1 (ix1 k)

/-- The perceptron of edge row `e` at output column `f`. -/
def mlpE (h : FVec Ideal S320000x768 .f32) (W1 : FVec Ideal S768x256 .f32) (b1 : FVec Ideal S256 .f32) (W2 : FVec Ideal S256x256 .f32) (b2 : FVec Ideal S256 .f32)
    (e : Fin 320000) (f : Fin 256) : EReal :=
  (∑ k : Fin 256, (hidE h W1 b1 e k * Ideal.logistic (hidE h W1 b1 e k)) * W2 (ix2 k f)) + b2 (ix1 f)

/-- The perceptron stage at an entry. -/
theorem mlp_apply (h : FVec Ideal S320000x768 .f32) (W1 : FVec Ideal S768x256 .f32) (b1 : FVec Ideal S256 .f32) (W2 : FVec Ideal S256x256 .f32) (b2 : FVec Ideal S256 .f32)
    (e : Fin 320000) (f : Fin 256) : mlp h W1 b1 W2 b2 (ix2 e f) = mlpE h W1 b1 W2 b2 e f := by
  unfold mlp mlpE
  rw [addf_apply, rowBcastE_apply, dot256_apply]
  refine congrArg (· + b2 (ix1 f)) (Finset.sum_congr rfl fun k _ => ?_)
  rw [silu_apply, addf_apply, rowBcastE_apply, dot768_apply]
  rfl

/-! ## Column statistics -/

/-- A column sum over the 320000 rows, at a column. -/
theorem colSumE_apply (h : FVec Ideal S320000x256 .f32) (f : Fin 256) :
    colSumE h (ix1 f) = ∑ e : Fin 320000, h (ix2 e f) := by
  unfold colSumE
  simp only [Host.reduceAdd, Ideal.hostReduceAdd_def]
  rw [Ideal.hostReduceAdd_single reducesTo_S320000x256_S256_d0 (by decide)]
  show (Ideal.ofBits .f32 0x00000000#32 : EReal) + _ = _
  rw [Ideal.ofBits_zero_f32, zero_add]
  refine Finset.sum_congr rfl fun k _ => ?_
  exact congrArg h (funext fun a => Fin.ext (by match a with | ⟨0, _⟩ => rfl | ⟨1, _⟩ => rfl))

/-- The column mean: the column sum divided by 320000. -/
theorem mean1_apply (h : FVec Ideal S320000x256 .f32) (f : Fin 256) :
    mean1 h (ix1 f) = Ideal.div (∑ e : Fin 320000, h (ix2 e f)) ((320000 : ℝ) : EReal) := by
  show Ideal.div (colSumE h (ix1 f)) (Ideal.ofBits .f32 0x489C4000#32) = _
  rw [colSumE_apply, Cert.LibCoe.ofBits_320000]

/-- An entry minus its column's mean. -/
theorem centeredE_apply (h : FVec Ideal S320000x256 .f32) (e : Fin 320000) (f : Fin 256) :
    centeredE h (ix2 e f) = h (ix2 e f) - Ideal.div (∑ e' : Fin 320000, h (ix2 e' f)) ((320000 : ℝ) : EReal) := by
  unfold centeredE
  rw [subf_apply]
  refine congrArg (h (ix2 e f) - ·) ?_
  refine (broadcastInDim_apply _ _ _ (ix2 e f) (ix2 (0 : Fin 1) f) (fun a => by
    match a with
    | ⟨0, _⟩ => rfl
    | ⟨1, _⟩ => rfl)).trans ?_
  show Ideal.div (broadcastInDim S1x256 ![1] bcast_S256_S1x256_1 (colSumE h) (ix2 (0 : Fin 1) f)) (Ideal.ofBits .f32 0x489C4000#32) = _
  rw [broadcastInDim_apply _ _ _ (ix2 (0 : Fin 1) f) (ix1 f) (fun a => by match a with | ⟨0, _⟩ => rfl), colSumE_apply, Cert.LibCoe.ofBits_320000]

/-- The variance's divisor is 320000. -/
theorem divisorE_apply (j : S_.Idx) : divisorE (F := Ideal) j = ((320000 : ℝ) : EReal) := by
  show Ideal.ofBits .f32 0x489C4000#32 - (((0#32 : BitVec 32).toInt : ℝ) : EReal) = _
  rw [Cert.LibCoe.ofBits_320000, show (0#32 : BitVec 32).toInt = 0 from by decide]
  simp

/-- The biased column variance: the column sum of the squared centred entries divided by 320000 (the divisor is positive, so
    the selection takes this branch). -/
theorem var1_apply (h : FVec Ideal S320000x256 .f32) (f : Fin 256) :
    var1 h (ix1 f)
      = Ideal.div (∑ e : Fin 320000, centeredE h (ix2 e f) * centeredE h (ix2 e f)) ((320000 : ℝ) : EReal) := by
  unfold var1
  rw [select_apply]
  have hc : broadcastInDim S256 ![] bcast_S_S256 (cmpf .ogt (divisorE (F := Ideal)) (constant S_ .f32 0x00000000#32)) (ix1 f) = 1#1 := by
    show Ideal.cmp .ogt (divisorE (F := Ideal) _) (Ideal.ofBits .f32 0x00000000#32) = 1#1
    rw [divisorE_apply, Ideal.ofBits_zero_f32]
    unfold Ideal.cmp
    have : (0 : EReal) < ((320000 : ℝ) : EReal) := by exact_mod_cast (by norm_num : (0 : ℝ) < 320000)
    simp [this]
  rw [hc, select_one]
  have hs := colSumE_apply (mulf (centeredE h) (centeredE h)) f
  show Ideal.div (colSumE (mulf (centeredE h) (centeredE h)) (ix1 f)) (divisorE (F := Ideal) _) = _
  rw [hs, divisorE_apply]
  rfl

/-- A column sum over the 20000 rows, at a column. -/
theorem colSumN_apply (h : FVec Ideal S20000x256 .f32) (f : Fin 256) :
    colSumN h (ix1 f) = ∑ e : Fin 20000, h (ix2 e f) := by
  unfold colSumN
  simp only [Host.reduceAdd, Ideal.hostReduceAdd_def]
  rw [Ideal.hostReduceAdd_single reducesTo_S20000x256_S256_d0 (by decide)]
  show (Ideal.ofBits .f32 0x00000000#32 : EReal) + _ = _
  rw [Ideal.ofBits_zero_f32, zero_add]
  refine Finset.sum_congr rfl fun k _ => ?_
  exact congrArg h (funext fun a => Fin.ext (by match a with | ⟨0, _⟩ => rfl | ⟨1, _⟩ => rfl))

/-- The column mean: the column sum divided by 20000. -/
theorem mean2_apply (h : FVec Ideal S20000x256 .f32) (f : Fin 256) :
    mean2 h (ix1 f) = Ideal.div (∑ e : Fin 20000, h (ix2 e f)) ((20000 : ℝ) : EReal) := by
  show Ideal.div (colSumN h (ix1 f)) (Ideal.ofBits .f32 0x469C4000#32) = _
  rw [colSumN_apply, Cert.LibCoe.ofBits_20000]

/-- An entry minus its column's mean. -/
theorem centeredN_apply (h : FVec Ideal S20000x256 .f32) (e : Fin 20000) (f : Fin 256) :
    centeredN h (ix2 e f) = h (ix2 e f) - Ideal.div (∑ e' : Fin 20000, h (ix2 e' f)) ((20000 : ℝ) : EReal) := by
  unfold centeredN
  rw [subf_apply]
  refine congrArg (h (ix2 e f) - ·) ?_
  refine (broadcastInDim_apply _ _ _ (ix2 e f) (ix2 (0 : Fin 1) f) (fun a => by
    match a with
    | ⟨0, _⟩ => rfl
    | ⟨1, _⟩ => rfl)).trans ?_
  show Ideal.div (broadcastInDim S1x256 ![1] bcast_S256_S1x256_1 (colSumN h) (ix2 (0 : Fin 1) f)) (Ideal.ofBits .f32 0x469C4000#32) = _
  rw [broadcastInDim_apply _ _ _ (ix2 (0 : Fin 1) f) (ix1 f) (fun a => by match a with | ⟨0, _⟩ => rfl), colSumN_apply, Cert.LibCoe.ofBits_20000]

/-- The variance's divisor is 20000. -/
theorem divisorN_apply (j : S_.Idx) : divisorN (F := Ideal) j = ((20000 : ℝ) : EReal) := by
  show Ideal.ofBits .f32 0x469C4000#32 - (((0#32 : BitVec 32).toInt : ℝ) : EReal) = _
  rw [Cert.LibCoe.ofBits_20000, show (0#32 : BitVec 32).toInt = 0 from by decide]
  simp

/-- The biased column variance: the column sum of the squared centred entries divided by 20000 (the divisor is positive, so
    the selection takes this branch). -/
theorem var2_apply (h : FVec Ideal S20000x256 .f32) (f : Fin 256) :
    var2 h (ix1 f)
      = Ideal.div (∑ e : Fin 20000, centeredN h (ix2 e f) * centeredN h (ix2 e f)) ((20000 : ℝ) : EReal) := by
  unfold var2
  rw [select_apply]
  have hc : broadcastInDim S256 ![] bcast_S_S256 (cmpf .ogt (divisorN (F := Ideal)) (constant S_ .f32 0x00000000#32)) (ix1 f) = 1#1 := by
    show Ideal.cmp .ogt (divisorN (F := Ideal) _) (Ideal.ofBits .f32 0x00000000#32) = 1#1
    rw [divisorN_apply, Ideal.ofBits_zero_f32]
    unfold Ideal.cmp
    have : (0 : EReal) < ((20000 : ℝ) : EReal) := by exact_mod_cast (by norm_num : (0 : ℝ) < 20000)
    simp [this]
  rw [hc, select_one]
  have hs := colSumN_apply (mulf (centeredN h) (centeredN h)) f
  show Ideal.div (colSumN (mulf (centeredN h) (centeredN h)) (ix1 f)) (divisorN (F := Ideal) _) = _
  rw [hs, divisorN_apply]
  rfl

/-! ## The gate, the message and the output -/

/-- The normalized edge entry. -/
theorem bnE_apply (h : FVec Ideal S320000x256 .f32) (mean var g beta : FVec Ideal S256 .f32) (e : Fin 320000) (f : Fin 256) :
    bnE h mean var g beta (ix2 e f)
      = (h (ix2 e f) - mean (ix1 f)) * Ideal.rsqrt (var (ix1 f) + ((Cert.LibCoe.eps : ℝ) : EReal)) * g (ix1 f) + beta (ix1 f) := by
  unfold bnE
  rw [addf_apply, mulf_apply, mulf_apply, subf_apply, rowBcastE_apply, rowBcastE_apply, rowBcastE_apply, rowBcastE_apply]
  show _ * Ideal.rsqrt (var (ix1 f) + epsV (F := Ideal) (ix1 f)) * _ + _ = _
  rw [epsV_apply]

/-- The gate at an entry: the logistic function of the normalized pre-activation. -/
theorem gate_apply (h : FVec Ideal S320000x256 .f32) (mean var g beta : FVec Ideal S256 .f32) (j : S320000x256.Idx) :
    gate h mean var g beta j = Ideal.logistic (bnE h mean var g beta j) := by
  show Ideal.div (oneE (F := Ideal) j) (oneE (F := Ideal) j + Ideal.exp (-(bnE h mean var g beta j))) = _
  rw [oneE_apply]; rfl

/-- The message at an entry: the gate times the message perceptron. -/
theorem msg_apply (gt : FVec Ideal S320000x256 .f32) (h : FVec Ideal S320000x768 .f32) (W1 : FVec Ideal S768x256 .f32) (b1 : FVec Ideal S256 .f32) (W2 : FVec Ideal S256x256 .f32) (b2 : FVec Ideal S256 .f32)
    (e : Fin 320000) (f : Fin 256) : msg gt h W1 b1 W2 b2 (ix2 e f) = gt (ix2 e f) * mlpE h W1 b1 W2 b2 e f := by
  unfold msg
  rw [mulf_apply, mlp_apply]

/-- The normalized node entry. -/
theorem bnN_apply (a : FVec Ideal S20000x256 .f32) (mean var g beta : FVec Ideal S256 .f32) (n : Fin 20000) (f : Fin 256) :
    bnN a mean var g beta (ix2 n f)
      = (a (ix2 n f) - mean (ix1 f)) * Ideal.rsqrt (var (ix1 f) + ((Cert.LibCoe.eps : ℝ) : EReal)) * g (ix1 f) + beta (ix1 f) := by
  unfold bnN
  rw [addf_apply, mulf_apply, mulf_apply, subf_apply, rowBcastN_apply, rowBcastN_apply, rowBcastN_apply, rowBcastN_apply]
  show _ * Ideal.rsqrt (var (ix1 f) + epsV (F := Ideal) (ix1 f)) * _ + _ = _
  rw [epsV_apply]

/-- The output at an entry: the larger of zero and the node feature plus the normalized aggregate. -/
theorem result_apply (x a : FVec Ideal S20000x256 .f32) (mean var g beta : FVec Ideal S256 .f32) (j : S20000x256.Idx) :
    result x a mean var g beta j = max (x j + bnN a mean var g beta j) 0 := by
  show max (x j + bnN a mean var g beta j) (Ideal.ofBits .f32 0x00000000#32) = _
  rw [Ideal.ofBits_zero_f32]

end Cert.ReferenceIdeal.RefValue

end
-- ==== Proof.KernelFinal.lean ====
/-
  The second normalisation and the output on real inputs. With A the real array of per-node message sums, the column mean
  and the biased column variance over the 20000 nodes are real; the kernel's host forms scale = γ·(max(var,0) + ε)^(-1/2)
  and shift = β − mean·scale, and its last region computes max(x + (A·scale + shift), 0) entry by entry. The variance is
  non-negative, so the clipping does nothing, and A·scale + shift is the batch normalisation of A: the output is the
  specification's.
-/
import proofs.«159511_j60833916780661_2_alg».proof.Proof.RefRead
import proofs.«159511_j60833916780661_2_alg».proof.Proof.KStages
import proofs.«159511_j60833916780661_2_alg».proof.Proof.KernelMlp
import proofs.«159511_j60833916780661_2_alg».proof.Proof.Algebra2

noncomputable section

namespace Cert.Bridge

open Idealize.ShloMosaic Idealize.ShloMosaic.ValueIdx Cert.KernelIdeal.KValue Cert.Spec Cert.LibCoe

variable (A : (⟨2, ![20000, 256]⟩ : Shape).Idx → ℝ)

/-- The column means over the nodes of a real array. -/
theorem mean2_coe (f : Fin 256) :
    Cert.ReferenceIdeal.RefValue.mean2 (F := Ideal) (fun i => ((A i : ℝ) : EReal)) (ix1 f)
      = ((mean 20000 (fun n : Fin 20000 => A (ix2 n f)) : ℝ) : EReal) := by
  rw [Cert.ReferenceIdeal.RefValue.mean2_apply]
  unfold mean
  simp only [coe_sum, ← div_coe_coe _ (show (20000 : ℝ) ≠ 0 by norm_num)]

/-- The biased column variances over the nodes of a real array. -/
theorem var2_coe (f : Fin 256) :
    Cert.ReferenceIdeal.RefValue.var2 (F := Ideal) (fun i => ((A i : ℝ) : EReal)) (ix1 f)
      = ((var 20000 (fun n : Fin 20000 => A (ix2 n f)) : ℝ) : EReal) := by
  rw [Cert.ReferenceIdeal.RefValue.var2_apply]
  simp only [Cert.ReferenceIdeal.RefValue.centeredN_apply]
  unfold var mean
  simp only [coe_sum, EReal.coe_mul, EReal.coe_sub, ← div_coe_coe _ (show (20000 : ℝ) ≠ 0 by norm_num)]

variable (g b : (⟨1, ![256]⟩ : Shape).Idx → ℝ)

theorem var2_eps_pos (f : Fin 256) : 0 < max (var 20000 (fun n : Fin 20000 => A (ix2 n f))) 0 + eps := by
  have := le_max_right (var 20000 (fun n : Fin 20000 => A (ix2 n f))) 0
  linarith [eps_pos]

/-- The second scale on real inputs. -/
theorem scaleN_coe (f : Fin 256) :
    scaleN (fun i => ((A i : ℝ) : EReal)) (fun i => ((g i : ℝ) : EReal)) (ix1 f)
      = ((g (ix1 f) * (Real.sqrt (max (var 20000 (fun n : Fin 20000 => A (ix2 n f))) 0 + eps))⁻¹ : ℝ) : EReal) := by
  rw [scaleN_apply, var2_coe, ofBits_zero, ofBits_eps, ← EReal.coe_zero, max_coe, ← EReal.coe_add,
    rsqrt_pos (var2_eps_pos A f), ← EReal.coe_mul]

/-- The second shift on real inputs. -/
theorem shiftN_coe (f : Fin 256) :
    shiftN (fun i => ((A i : ℝ) : EReal)) (fun i => ((g i : ℝ) : EReal)) (fun i => ((b i : ℝ) : EReal)) (ix1 f)
      = ((b (ix1 f) - mean 20000 (fun n : Fin 20000 => A (ix2 n f))
          * (g (ix1 f) * (Real.sqrt (max (var 20000 (fun n : Fin 20000 => A (ix2 n f))) 0 + eps))⁻¹) : ℝ) : EReal) := by
  rw [shiftN_apply, mean2_coe, scaleN_coe, ← EReal.coe_mul, ← EReal.coe_sub]

variable (X : (⟨2, ![20000, 256]⟩ : Shape).Idx → ℝ)

/-- The last region's pointwise formula on real inputs is the specification's output. -/
theorem finalize_coe (n : Fin 20000) (f : Fin 256) :
    max (((X (ix2 n f) : ℝ) : EReal)
          + (((A (ix2 n f) : ℝ) : EReal) * scaleN (fun i => ((A i : ℝ) : EReal)) (fun i => ((g i : ℝ) : EReal)) (ix1 f)
            + shiftN (fun i => ((A i : ℝ) : EReal)) (fun i => ((g i : ℝ) : EReal)) (fun i => ((b i : ℝ) : EReal)) (ix1 f)))
        (Ideal.ofBits .f32 0x00000000#32)
      = ((Spec.out eps (cur2 X) (cur2 A) (cur1 g) (cur1 b) n f : ℝ) : EReal) := by
  rw [scaleN_coe, shiftN_coe, ofBits_zero, ← EReal.coe_mul, ← EReal.coe_add, ← EReal.coe_add, ← EReal.coe_zero, max_coe]
  exact congrArg (fun z : ℝ => ((max (X (ix2 n f) + z) 0 : ℝ) : EReal))
    (Algebra.bn_of_var 20000 eps (by norm_num) (cur2 A) (cur1 g) (cur1 b) n f)

end Cert.Bridge

end
-- ==== Proof.RefSpec.lean ====
import proofs.«159511_j60833916780661_2_alg».proof.Proof.RefRead
import proofs.«159511_j60833916780661_2_alg».proof.Proof.Spec
import proofs.«159511_j60833916780661_2_alg».proof.Proof.Algebra

noncomputable section

/-! When the operands are real arrays (coerced into the extended reals), the reference's stages are the coercions
    of the layer over the reals: the coercion is pushed inwards through the finite sums, the products, the
    quotients by the row counts, the reciprocal square root of a positive number and the logistic function. -/

namespace Cert.ReferenceIdeal.RefValue

open Cert.ReferenceIdeal Cert.ReferenceIdeal.Gen Idealize.ShloMosaic Idealize.SL.Sem Idealize.ShloMosaic.ValueIdx Cert.LibCoe

/-- A real array of two axes as a function of its two coordinates. -/
abbrev r2 {n m : ℕ} (X : (⟨2, ![n, m]⟩ : Shape).Idx → ℝ) : Fin n → Fin m → ℝ := fun a b => X (ix2 a b)
/-- A real vector as a function of its coordinate. -/
abbrev r1 {n : ℕ} (X : (⟨1, ![n]⟩ : Shape).Idx → ℝ) : Fin n → ℝ := fun a => X (ix1 a)

/-! ## The perceptron -/

theorem hidE_coe (H : S320000x768.Idx → ℝ) (W1 : S768x256.Idx → ℝ) (b1 : S256.Idx → ℝ) (e : Fin 320000) (k : Fin 256) :
    hidE ((fun i => ((H i : ℝ) : EReal)) : FVec Ideal S320000x768 .f32) ((fun i => ((W1 i : ℝ) : EReal)) : FVec Ideal S768x256 .f32) ((fun i => ((b1 i : ℝ) : EReal)) : FVec Ideal S256 .f32) e k
      = ((Cert.Spec.hid (r2 W1) (r1 b1) (fun j => H (ix2 e j)) k : ℝ) : EReal) := by
  unfold hidE Cert.Spec.hid
  rw [EReal.coe_add, coe_sum]
  simp only [EReal.coe_mul]

theorem mlpE_coe (H : S320000x768.Idx → ℝ) (W1 : S768x256.Idx → ℝ) (b1 : S256.Idx → ℝ) (W2 : S256x256.Idx → ℝ) (b2 : S256.Idx → ℝ)
    (e : Fin 320000) (f : Fin 256) :
    mlpE ((fun i => ((H i : ℝ) : EReal)) : FVec Ideal S320000x768 .f32) ((fun i => ((W1 i : ℝ) : EReal)) : FVec Ideal S768x256 .f32) ((fun i => ((b1 i : ℝ) : EReal)) : FVec Ideal S256 .f32) ((fun i => ((W2 i : ℝ) : EReal)) : FVec Ideal S256x256 .f32) ((fun i => ((b2 i : ℝ) : EReal)) : FVec Ideal S256 .f32) e f
      = ((Cert.Spec.mlp (r2 W1) (r1 b1) (r2 W2) (r1 b2) (fun j => H (ix2 e j)) f : ℝ) : EReal) := by
  unfold mlpE Cert.Spec.mlp Cert.Spec.silu Cert.Spec.sigm
  simp only [hidE_coe, Ideal.logistic_coe]
  rw [EReal.coe_add, coe_sum]
  simp only [EReal.coe_mul]

/-- The perceptron stage of real operands is the real perceptron, row by row. -/
theorem mlp_coe (H : S320000x768.Idx → ℝ) (W1 : S768x256.Idx → ℝ) (b1 : S256.Idx → ℝ) (W2 : S256x256.Idx → ℝ) (b2 : S256.Idx → ℝ) :
    mlp (F := Ideal) ((fun i => ((H i : ℝ) : EReal)) : FVec Ideal S320000x768 .f32) ((fun i => ((W1 i : ℝ) : EReal)) : FVec Ideal S768x256 .f32) ((fun i => ((b1 i : ℝ) : EReal)) : FVec Ideal S256 .f32) ((fun i => ((W2 i : ℝ) : EReal)) : FVec Ideal S256x256 .f32) ((fun i => ((b2 i : ℝ) : EReal)) : FVec Ideal S256 .f32)
      = fun (j : S320000x256.Idx) => ((Cert.Spec.mlp (r2 W1) (r1 b1) (r2 W2) (r1 b2) (fun k => H (ix2 (j 0) k)) (j 1) : ℝ) : EReal) := by
  funext j
  obtain ⟨e, f, rfl⟩ : ∃ (e : Fin 320000) (f : Fin 256), j = ix2 e f := ⟨j 0, j 1, eq_ix2 j⟩
  rw [mlp_apply, mlpE_coe]

/-- The concatenation of three real arrays is the real concatenation, row by row. -/
theorem hcat_coe (A B C : S320000x256.Idx → ℝ) :
    hcat (F := Ideal) ((fun i => ((A i : ℝ) : EReal)) : FVec Ideal S320000x256 .f32) ((fun i => ((B i : ℝ) : EReal)) : FVec Ideal S320000x256 .f32) ((fun i => ((C i : ℝ) : EReal)) : FVec Ideal S320000x256 .f32)
      = fun (j : S320000x768.Idx) => ((Cert.Spec.cat3 (r2 A (j 0)) (r2 B (j 0)) (r2 C (j 0)) (j 1) : ℝ) : EReal) := by
  funext j
  obtain ⟨e, k, rfl⟩ : ∃ (e : Fin 320000) (k : Fin 768), j = ix2 e k := ⟨j 0, j 1, eq_ix2 j⟩
  rw [hcat_apply]
  show _ = ((Cert.Spec.cat3 (r2 A e) (r2 B e) (r2 C e) k : ℝ) : EReal)
  unfold Cert.Spec.cat3
  by_cases h : k.val < 256
  · rw [dif_pos h, dif_pos h]
  · rw [dif_neg h, dif_neg h]
    by_cases h2 : k.val < 512
    · rw [dif_pos h2, dif_pos h2]
    · rw [dif_neg h2, dif_neg h2]

/-! ## Column statistics -/

theorem mean1_coe_at (G : S320000x256.Idx → ℝ) (f : Fin 256) :
    mean1 (F := Ideal) ((fun i => ((G i : ℝ) : EReal)) : FVec Ideal S320000x256 .f32) (ix1 f) = ((Cert.Spec.mean 320000 (fun e => G (ix2 e f)) : ℝ) : EReal) := by
  rw [mean1_apply, ← coe_sum, div_coe_coe _ (by norm_num : (320000 : ℝ) ≠ 0)]
  rfl

theorem centeredE_coe (G : S320000x256.Idx → ℝ) (e : Fin 320000) (f : Fin 256) :
    centeredE (F := Ideal) ((fun i => ((G i : ℝ) : EReal)) : FVec Ideal S320000x256 .f32) (ix2 e f)
      = ((G (ix2 e f) - Cert.Spec.mean 320000 (fun e => G (ix2 e f)) : ℝ) : EReal) := by
  rw [centeredE_apply, ← coe_sum, div_coe_coe _ (by norm_num : (320000 : ℝ) ≠ 0), ← EReal.coe_sub]
  rfl

theorem var1_coe_at (G : S320000x256.Idx → ℝ) (f : Fin 256) :
    var1 (F := Ideal) ((fun i => ((G i : ℝ) : EReal)) : FVec Ideal S320000x256 .f32) (ix1 f) = ((Cert.Spec.var 320000 (fun e => G (ix2 e f)) : ℝ) : EReal) := by
  rw [var1_apply]
  simp only [centeredE_coe, ← EReal.coe_mul]
  rw [← coe_sum, div_coe_coe _ (by norm_num : (320000 : ℝ) ≠ 0)]
  rfl

theorem mean2_coe_at (AN : S20000x256.Idx → ℝ) (f : Fin 256) :
    mean2 (F := Ideal) ((fun i => ((AN i : ℝ) : EReal)) : FVec Ideal S20000x256 .f32) (ix1 f) = ((Cert.Spec.mean 20000 (fun n => AN (ix2 n f)) : ℝ) : EReal) := by
  rw [mean2_apply, ← coe_sum, div_coe_coe _ (by norm_num : (20000 : ℝ) ≠ 0)]
  rfl

theorem centeredN_coe (AN : S20000x256.Idx → ℝ) (n : Fin 20000) (f : Fin 256) :
    centeredN (F := Ideal) ((fun i => ((AN i : ℝ) : EReal)) : FVec Ideal S20000x256 .f32) (ix2 n f)
      = ((AN (ix2 n f) - Cert.Spec.mean 20000 (fun n => AN (ix2 n f)) : ℝ) : EReal) := by
  rw [centeredN_apply, ← coe_sum, div_coe_coe _ (by norm_num : (20000 : ℝ) ≠ 0), ← EReal.coe_sub]
  rfl

theorem var2_coe_at (AN : S20000x256.Idx → ℝ) (f : Fin 256) :
    var2 (F := Ideal) ((fun i => ((AN i : ℝ) : EReal)) : FVec Ideal S20000x256 .f32) (ix1 f) = ((Cert.Spec.var 20000 (fun n => AN (ix2 n f)) : ℝ) : EReal) := by
  rw [var2_apply]
  simp only [centeredN_coe, ← EReal.coe_mul]
  rw [← coe_sum, div_coe_coe _ (by norm_num : (20000 : ℝ) ≠ 0)]
  rfl

/-! ## The normalizations, the gate, the message and the output -/

/-- The normalized edge entry of a real array, with that array's own column statistics. -/
theorem bnE_coe (G : S320000x256.Idx → ℝ) (γ β : S256.Idx → ℝ) (e : Fin 320000) (f : Fin 256) :
    bnE (F := Ideal) ((fun i => ((G i : ℝ) : EReal)) : FVec Ideal S320000x256 .f32) (mean1 ((fun i => ((G i : ℝ) : EReal)) : FVec Ideal S320000x256 .f32)) (var1 ((fun i => ((G i : ℝ) : EReal)) : FVec Ideal S320000x256 .f32)) ((fun i => ((γ i : ℝ) : EReal)) : FVec Ideal S256 .f32) ((fun i => ((β i : ℝ) : EReal)) : FVec Ideal S256 .f32) (ix2 e f)
      = ((Cert.Spec.bn 320000 eps (r2 G) (r1 γ) (r1 β) e f : ℝ) : EReal) := by
  rw [bnE_apply, mean1_coe_at, var1_coe_at, ← EReal.coe_add,
    rsqrt_pos (add_pos_of_nonneg_of_pos (Cert.Algebra.var_nonneg 320000 (by norm_num) _) eps_pos),
    ← EReal.coe_sub, ← EReal.coe_mul, ← EReal.coe_mul, ← EReal.coe_add]
  rfl

/-- The normalized node entry of a real array, with that array's own column statistics. -/
theorem bnN_coe (AN : S20000x256.Idx → ℝ) (γ β : S256.Idx → ℝ) (n : Fin 20000) (f : Fin 256) :
    bnN (F := Ideal) ((fun i => ((AN i : ℝ) : EReal)) : FVec Ideal S20000x256 .f32) (mean2 ((fun i => ((AN i : ℝ) : EReal)) : FVec Ideal S20000x256 .f32)) (var2 ((fun i => ((AN i : ℝ) : EReal)) : FVec Ideal S20000x256 .f32)) ((fun i => ((γ i : ℝ) : EReal)) : FVec Ideal S256 .f32) ((fun i => ((β i : ℝ) : EReal)) : FVec Ideal S256 .f32) (ix2 n f)
      = ((Cert.Spec.bn 20000 eps (r2 AN) (r1 γ) (r1 β) n f : ℝ) : EReal) := by
  rw [bnN_apply, mean2_coe_at, var2_coe_at, ← EReal.coe_add,
    rsqrt_pos (add_pos_of_nonneg_of_pos (Cert.Algebra.var_nonneg 20000 (by norm_num) _) eps_pos),
    ← EReal.coe_sub, ← EReal.coe_mul, ← EReal.coe_mul, ← EReal.coe_add]
  rfl

/-- The gate of a real pre-activation array. -/
theorem gate_coe (G : S320000x256.Idx → ℝ) (γ β : S256.Idx → ℝ) (e : Fin 320000) (f : Fin 256) :
    gate (F := Ideal) ((fun i => ((G i : ℝ) : EReal)) : FVec Ideal S320000x256 .f32) (mean1 ((fun i => ((G i : ℝ) : EReal)) : FVec Ideal S320000x256 .f32)) (var1 ((fun i => ((G i : ℝ) : EReal)) : FVec Ideal S320000x256 .f32)) ((fun i => ((γ i : ℝ) : EReal)) : FVec Ideal S256 .f32) ((fun i => ((β i : ℝ) : EReal)) : FVec Ideal S256 .f32) (ix2 e f)
      = ((Cert.Spec.sigm (Cert.Spec.bn 320000 eps (r2 G) (r1 γ) (r1 β) e f) : ℝ) : EReal) := by
  rw [gate_apply, bnE_coe, Ideal.logistic_coe]
  rfl

/-- The message array of real operands is the real gated message: the three edge arrays (target features, source
    features, edge attributes) are concatenated, the gate's perceptron output is normalized over the edges with its own
    statistics and passed through the logistic function, and multiplies the message perceptron's output. -/
theorem msg_coe (XD XS EA : S320000x256.Idx → ℝ)
    (W1f : S768x256.Idx → ℝ) (b1f : S256.Idx → ℝ) (W2f : S256x256.Idx → ℝ) (b2f : S256.Idx → ℝ)
    (W1m : S768x256.Idx → ℝ) (b1m : S256.Idx → ℝ) (W2m : S256x256.Idx → ℝ) (b2m γ β : S256.Idx → ℝ) :
    msg (F := Ideal) (gate (mlp (hcat ((fun i => ((XD i : ℝ) : EReal)) : FVec Ideal S320000x256 .f32) ((fun i => ((XS i : ℝ) : EReal)) : FVec Ideal S320000x256 .f32) ((fun i => ((EA i : ℝ) : EReal)) : FVec Ideal S320000x256 .f32)) ((fun i => ((W1f i : ℝ) : EReal)) : FVec Ideal S768x256 .f32) ((fun i => ((b1f i : ℝ) : EReal)) : FVec Ideal S256 .f32) ((fun i => ((W2f i : ℝ) : EReal)) : FVec Ideal S256x256 .f32) ((fun i => ((b2f i : ℝ) : EReal)) : FVec Ideal S256 .f32))
          (mean1 (mlp (hcat ((fun i => ((XD i : ℝ) : EReal)) : FVec Ideal S320000x256 .f32) ((fun i => ((XS i : ℝ) : EReal)) : FVec Ideal S320000x256 .f32) ((fun i => ((EA i : ℝ) : EReal)) : FVec Ideal S320000x256 .f32)) ((fun i => ((W1f i : ℝ) : EReal)) : FVec Ideal S768x256 .f32) ((fun i => ((b1f i : ℝ) : EReal)) : FVec Ideal S256 .f32) ((fun i => ((W2f i : ℝ) : EReal)) : FVec Ideal S256x256 .f32) ((fun i => ((b2f i : ℝ) : EReal)) : FVec Ideal S256 .f32)))
          (var1 (mlp (hcat ((fun i => ((XD i : ℝ) : EReal)) : FVec Ideal S320000x256 .f32) ((fun i => ((XS i : ℝ) : EReal)) : FVec Ideal S320000x256 .f32) ((fun i => ((EA i : ℝ) : EReal)) : FVec Ideal S320000x256 .f32)) ((fun i => ((W1f i : ℝ) : EReal)) : FVec Ideal S768x256 .f32) ((fun i => ((b1f i : ℝ) : EReal)) : FVec Ideal S256 .f32) ((fun i => ((W2f i : ℝ) : EReal)) : FVec Ideal S256x256 .f32) ((fun i => ((b2f i : ℝ) : EReal)) : FVec Ideal S256 .f32)))
          ((fun i => ((γ i : ℝ) : EReal)) : FVec Ideal S256 .f32) ((fun i => ((β i : ℝ) : EReal)) : FVec Ideal S256 .f32))
        (hcat ((fun i => ((XD i : ℝ) : EReal)) : FVec Ideal S320000x256 .f32) ((fun i => ((XS i : ℝ) : EReal)) : FVec Ideal S320000x256 .f32) ((fun i => ((EA i : ℝ) : EReal)) : FVec Ideal S320000x256 .f32)) ((fun i => ((W1m i : ℝ) : EReal)) : FVec Ideal S768x256 .f32) ((fun i => ((b1m i : ℝ) : EReal)) : FVec Ideal S256 .f32) ((fun i => ((W2m i : ℝ) : EReal)) : FVec Ideal S256x256 .f32) ((fun i => ((b2m i : ℝ) : EReal)) : FVec Ideal S256 .f32)
      = fun (j : S320000x256.Idx) => ((Cert.Spec.msg eps (r2 XD) (r2 XS) (r2 EA) (r2 W1f) (r1 b1f) (r2 W2f) (r1 b2f)
          (r2 W1m) (r1 b1m) (r2 W2m) (r1 b2m) (r1 γ) (r1 β) (j 0) (j 1) : ℝ) : EReal) := by
  rw [hcat_coe, mlp_coe]
  funext j
  obtain ⟨e, f, rfl⟩ : ∃ (e : Fin 320000) (f : Fin 256), j = ix2 e f := ⟨j 0, j 1, eq_ix2 j⟩
  rw [msg_apply, gate_coe, mlpE_coe, ← EReal.coe_mul]
  rfl

/-- The output of real operands — the node features, any real aggregate with its own column statistics, and the
    second normalization's scale and shift — is the real output. -/
theorem result_coe (X AN : S20000x256.Idx → ℝ) (γ β : S256.Idx → ℝ) :
    result (F := Ideal) ((fun i => ((X i : ℝ) : EReal)) : FVec Ideal S20000x256 .f32) ((fun i => ((AN i : ℝ) : EReal)) : FVec Ideal S20000x256 .f32) (mean2 ((fun i => ((AN i : ℝ) : EReal)) : FVec Ideal S20000x256 .f32)) (var2 ((fun i => ((AN i : ℝ) : EReal)) : FVec Ideal S20000x256 .f32)) ((fun i => ((γ i : ℝ) : EReal)) : FVec Ideal S256 .f32) ((fun i => ((β i : ℝ) : EReal)) : FVec Ideal S256 .f32)
      = fun (j : S20000x256.Idx) => ((Cert.Spec.out eps (r2 X) (r2 AN) (r1 γ) (r1 β) (j 0) (j 1) : ℝ) : EReal) := by
  funext j
  obtain ⟨n, f, rfl⟩ : ∃ (n : Fin 20000) (f : Fin 256), j = ix2 n f := ⟨j 0, j 1, eq_ix2 j⟩
  rw [result_apply, bnN_coe, ← EReal.coe_add, ← EReal.coe_zero, max_coe]
  rfl

/-! ## The same statistics as whole vectors -/

theorem mean1_coe (G : S320000x256.Idx → ℝ) :
    mean1 (F := Ideal) ((fun i => ((G i : ℝ) : EReal)) : FVec Ideal S320000x256 .f32) = fun (i : S256.Idx) => ((Cert.Spec.mean 320000 (fun e => G (ix2 e (i 0))) : ℝ) : EReal) := by
  funext i
  obtain ⟨f, rfl⟩ : ∃ f : Fin 256, i = ix1 f := ⟨i 0, eq_ix1 i⟩
  exact mean1_coe_at G f

theorem var1_coe (G : S320000x256.Idx → ℝ) :
    var1 (F := Ideal) ((fun i => ((G i : ℝ) : EReal)) : FVec Ideal S320000x256 .f32) = fun (i : S256.Idx) => ((Cert.Spec.var 320000 (fun e => G (ix2 e (i 0))) : ℝ) : EReal) := by
  funext i
  obtain ⟨f, rfl⟩ : ∃ f : Fin 256, i = ix1 f := ⟨i 0, eq_ix1 i⟩
  exact var1_coe_at G f

theorem mean2_coe (AN : S20000x256.Idx → ℝ) :
    mean2 (F := Ideal) ((fun i => ((AN i : ℝ) : EReal)) : FVec Ideal S20000x256 .f32) = fun (i : S256.Idx) => ((Cert.Spec.mean 20000 (fun n => AN (ix2 n (i 0))) : ℝ) : EReal) := by
  funext i
  obtain ⟨f, rfl⟩ : ∃ f : Fin 256, i = ix1 f := ⟨i 0, eq_ix1 i⟩
  exact mean2_coe_at AN f

theorem var2_coe (AN : S20000x256.Idx → ℝ) :
    var2 (F := Ideal) ((fun i => ((AN i : ℝ) : EReal)) : FVec Ideal S20000x256 .f32) = fun (i : S256.Idx) => ((Cert.Spec.var 20000 (fun n => AN (ix2 n (i 0))) : ℝ) : EReal) := by
  funext i
  obtain ⟨f, rfl⟩ : ∃ f : Fin 256, i = ix1 f := ⟨i 0, eq_ix1 i⟩
  exact var2_coe_at AN f

/-! ## From the arguments -/

/-- The message array of the reference from real arguments: the gathered rows of the real node features stand for
    the two gathers (a gather of coerced entries is the coerced gather, by computation). -/
theorem msg_spec (X : S20000x256.Idx → ℝ) (ei : IVec S2x320000 32) (Ea : S320000x256.Idx → ℝ)
    (W1f : S768x256.Idx → ℝ) (b1f : S256.Idx → ℝ) (W2f : S256x256.Idx → ℝ) (b2f : S256.Idx → ℝ)
    (W1m : S768x256.Idx → ℝ) (b1m : S256.Idx → ℝ) (W2m : S256x256.Idx → ℝ) (b2m gi bi : S256.Idx → ℝ) :
    msg (F := Ideal) (gateOf ((fun i => ((X i : ℝ) : EReal)) : FVec Ideal S20000x256 .f32) ei ((fun i => ((Ea i : ℝ) : EReal)) : FVec Ideal S320000x256 .f32) ((fun i => ((W1f i : ℝ) : EReal)) : FVec Ideal S768x256 .f32) ((fun i => ((b1f i : ℝ) : EReal)) : FVec Ideal S256 .f32) ((fun i => ((W2f i : ℝ) : EReal)) : FVec Ideal S256x256 .f32) ((fun i => ((b2f i : ℝ) : EReal)) : FVec Ideal S256 .f32) ((fun i => ((gi i : ℝ) : EReal)) : FVec Ideal S256 .f32) ((fun i => ((bi i : ℝ) : EReal)) : FVec Ideal S256 .f32))
        (hcatOf ((fun i => ((X i : ℝ) : EReal)) : FVec Ideal S20000x256 .f32) ei ((fun i => ((Ea i : ℝ) : EReal)) : FVec Ideal S320000x256 .f32)) ((fun i => ((W1m i : ℝ) : EReal)) : FVec Ideal S768x256 .f32) ((fun i => ((b1m i : ℝ) : EReal)) : FVec Ideal S256 .f32) ((fun i => ((W2m i : ℝ) : EReal)) : FVec Ideal S256x256 .f32) ((fun i => ((b2m i : ℝ) : EReal)) : FVec Ideal S256 .f32)
      = fun (i : S320000x256.Idx) => ((Cert.Spec.msg eps
          (fun e j => X (gather_S20000x256_S320000x1_S320000x256_1_0_n_n_0_1_1256.operandIdx (ix2 e j) (wrapIdx (dstRow ei))))
          (fun e j => X (gather_S20000x256_S320000x1_S320000x256_1_0_n_n_0_1_1256.operandIdx (ix2 e j) (wrapIdx (srcRow ei))))
          (fun e j => Ea (ix2 e j)) (fun j k => W1f (ix2 j k)) (fun k => b1f (ix1 k)) (fun k f => W2f (ix2 k f)) (fun f => b2f (ix1 f))
          (fun j k => W1m (ix2 j k)) (fun k => b1m (ix1 k)) (fun k f => W2m (ix2 k f)) (fun f => b2m (ix1 f))
          (fun f => gi (ix1 f)) (fun f => bi (ix1 f)) (i 0) (i 1) : ℝ) : EReal) :=
  msg_coe (fun j => X (gather_S20000x256_S320000x1_S320000x256_1_0_n_n_0_1_1256.operandIdx j (wrapIdx (dstRow ei))))
    (fun j => X (gather_S20000x256_S320000x1_S320000x256_1_0_n_n_0_1_1256.operandIdx j (wrapIdx (srcRow ei)))) Ea W1f b1f W2f b2f W1m b1m W2m b2m gi bi

/-- The reference's output from real arguments and a real aggregate. -/
theorem result_spec (X AN : S20000x256.Idx → ℝ) (g b : S256.Idx → ℝ) :
    result (F := Ideal) ((fun i => ((X i : ℝ) : EReal)) : FVec Ideal S20000x256 .f32) ((fun i => ((AN i : ℝ) : EReal)) : FVec Ideal S20000x256 .f32) (mean2 ((fun i => ((AN i : ℝ) : EReal)) : FVec Ideal S20000x256 .f32)) (var2 ((fun i => ((AN i : ℝ) : EReal)) : FVec Ideal S20000x256 .f32)) ((fun i => ((g i : ℝ) : EReal)) : FVec Ideal S256 .f32) ((fun i => ((b i : ℝ) : EReal)) : FVec Ideal S256 .f32)
      = fun (i : S20000x256.Idx) => ((Cert.Spec.out eps (fun n f => X (ix2 n f)) (fun n f => AN (ix2 n f)) (fun f => g (ix1 f)) (fun f => b (ix1 f)) (i 0) (i 1) : ℝ) : EReal) :=
  result_coe X AN g b

end Cert.ReferenceIdeal.RefValue

end
-- ==== Proof.AggCoe.lean ====
/-
  The per-node message sums of a real message array are a real array: the scatter starts from the zero array and adds to
  each node row the finitely many edge rows that land on it.
-/
import proofs.«159511_j60833916780661_2_alg».proof.Proof.RefStages
import proofs.«159511_j60833916780661_2_alg».proof.Proof.LibCoe

noncomputable section

namespace Cert.Bridge

open Idealize.ShloMosaic Cert.ReferenceIdeal Cert.ReferenceIdeal.Gen Cert.ReferenceIdeal.RefValue Cert.LibCoe

/-- The aggregate of a real message array is a real array. -/
theorem agg_coe (d : IVec S320000 32) (U : S320000x256.Idx → ℝ) :
    ∃ A : S20000x256.Idx → ℝ, agg (F := Ideal) d (fun j => ((U j : ℝ) : EReal)) = fun i => ((A i : ℝ) : EReal) := by
  unfold agg
  have hz : (broadcastInDim S20000x256 ![] bcast_S_S20000x256 (constant (F := Ideal) S_ .f32 0x00000000#32))
      = fun _ => (((0 : ℝ) : ℝ) : EReal) := by
    funext i
    show Ideal.ofBits .f32 0x00000000#32 = _
    rw [ofBits_zero, EReal.coe_zero]
  rw [hz]
  exact scatterAdd_coe _ (fun _ => (0 : ℝ)) _ U

end Cert.Bridge

end
-- ==== Proof.RefValueEq.lean ====
/-
  The reference's result on real arguments. The message array is the coercion of the specification's messages; its
  per-node sums are a real array (whichever it is); the output stage of real arrays is the specification's output.
-/
import proofs.«159511_j60833916780661_2_alg».proof.Proof.RefSpec
import proofs.«159511_j60833916780661_2_alg».proof.Proof.AggCoe

noncomputable section

namespace Cert.Bridge

open Idealize.ShloMosaic Idealize.ShloMosaic.ValueIdx Cert.ReferenceIdeal Cert.ReferenceIdeal.Gen
  Cert.ReferenceIdeal.RefValue Cert.LibCoe

/-- The specification's message array of the real arguments, the two gathered arrays read off `X` through the gather's
    index map. -/
abbrev msgArr (X : S20000x256.Idx → ℝ) (ei : IVec S2x320000 32) (Ea : S320000x256.Idx → ℝ)
    (W1f : S768x256.Idx → ℝ) (b1f : S256.Idx → ℝ) (W2f : S256x256.Idx → ℝ) (b2f : S256.Idx → ℝ)
    (W1m : S768x256.Idx → ℝ) (b1m : S256.Idx → ℝ) (W2m : S256x256.Idx → ℝ) (b2m gi bi : S256.Idx → ℝ) : S320000x256.Idx → ℝ :=
  fun i => Cert.Spec.msg eps
    (fun e j => X (gather_S20000x256_S320000x1_S320000x256_1_0_n_n_0_1_1256.operandIdx (ix2 e j) (wrapIdx (dstRow ei))))
    (fun e j => X (gather_S20000x256_S320000x1_S320000x256_1_0_n_n_0_1_1256.operandIdx (ix2 e j) (wrapIdx (srcRow ei))))
    (fun e j => Ea (ix2 e j)) (fun j k => W1f (ix2 j k)) (fun k => b1f (ix1 k)) (fun k f => W2f (ix2 k f)) (fun f => b2f (ix1 f))
    (fun j k => W1m (ix2 j k)) (fun k => b1m (ix1 k)) (fun k f => W2m (ix2 k f)) (fun f => b2m (ix1 f))
    (fun f => gi (ix1 f)) (fun f => bi (ix1 f)) (i 0) (i 1)

/-- The reference's result of real arguments, given the real array `Agg` of per-node sums of the message array. -/
theorem ref_out (X : S20000x256.Idx → ℝ) (ei : IVec S2x320000 32) (Ea : S320000x256.Idx → ℝ)
    (W1f : S768x256.Idx → ℝ) (b1f : S256.Idx → ℝ) (W2f : S256x256.Idx → ℝ) (b2f : S256.Idx → ℝ)
    (W1m : S768x256.Idx → ℝ) (b1m : S256.Idx → ℝ) (W2m : S256x256.Idx → ℝ) (b2m gi bi : S256.Idx → ℝ) (gbn bbn : S256.Idx → ℝ) (Agg : S20000x256.Idx → ℝ)
    (hAgg : agg (F := Ideal) (dstRow ei) (fun i => ((msgArr X ei Ea W1f b1f W2f b2f W1m b1m W2m b2m gi bi i : ℝ) : EReal))
      = fun i => ((Agg i : ℝ) : EReal)) :
    out (F := Ideal) ((fun i => ((X i : ℝ) : EReal)) : FVec Ideal S20000x256 .f32) ei ((fun i => ((Ea i : ℝ) : EReal)) : FVec Ideal S320000x256 .f32)
        ((fun i => ((W1f i : ℝ) : EReal)) : FVec Ideal S768x256 .f32) ((fun i => ((b1f i : ℝ) : EReal)) : FVec Ideal S256 .f32) ((fun i => ((W2f i : ℝ) : EReal)) : FVec Ideal S256x256 .f32) ((fun i => ((b2f i : ℝ) : EReal)) : FVec Ideal S256 .f32)
        ((fun i => ((W1m i : ℝ) : EReal)) : FVec Ideal S768x256 .f32) ((fun i => ((b1m i : ℝ) : EReal)) : FVec Ideal S256 .f32) ((fun i => ((W2m i : ℝ) : EReal)) : FVec Ideal S256x256 .f32) ((fun i => ((b2m i : ℝ) : EReal)) : FVec Ideal S256 .f32)
        ((fun i => ((gi i : ℝ) : EReal)) : FVec Ideal S256 .f32) ((fun i => ((bi i : ℝ) : EReal)) : FVec Ideal S256 .f32) ((fun i => ((gbn i : ℝ) : EReal)) : FVec Ideal S256 .f32) ((fun i => ((bbn i : ℝ) : EReal)) : FVec Ideal S256 .f32)
      = fun (i : S20000x256.Idx) => ((Cert.Spec.out eps (fun n f => X (ix2 n f)) (fun n f => Agg (ix2 n f))
          (fun f => gbn (ix1 f)) (fun f => bbn (ix1 f)) (i 0) (i 1) : ℝ) : EReal) := by
  have hA : aggOf (F := Ideal) ((fun i => ((X i : ℝ) : EReal)) : FVec Ideal S20000x256 .f32) ei ((fun i => ((Ea i : ℝ) : EReal)) : FVec Ideal S320000x256 .f32)
        ((fun i => ((W1f i : ℝ) : EReal)) : FVec Ideal S768x256 .f32) ((fun i => ((b1f i : ℝ) : EReal)) : FVec Ideal S256 .f32) ((fun i => ((W2f i : ℝ) : EReal)) : FVec Ideal S256x256 .f32) ((fun i => ((b2f i : ℝ) : EReal)) : FVec Ideal S256 .f32)
        ((fun i => ((W1m i : ℝ) : EReal)) : FVec Ideal S768x256 .f32) ((fun i => ((b1m i : ℝ) : EReal)) : FVec Ideal S256 .f32) ((fun i => ((W2m i : ℝ) : EReal)) : FVec Ideal S256x256 .f32) ((fun i => ((b2m i : ℝ) : EReal)) : FVec Ideal S256 .f32)
        ((fun i => ((gi i : ℝ) : EReal)) : FVec Ideal S256 .f32) ((fun i => ((bi i : ℝ) : EReal)) : FVec Ideal S256 .f32) = fun i => ((Agg i : ℝ) : EReal) := by
    unfold aggOf
    rw [msg_spec]
    exact hAgg
  unfold out
  rw [hA]
  exact result_spec X Agg gbn bbn

end Cert.Bridge

end
-- ==== Proof.KernelValueEq.lean ====
/-
  The kernel's value on real arguments, given region 0's four arrays entry by entry: the two perceptron outputs at every
  edge, and per half the sums of the gate's pre-activation and of its square over the half's rows. The host's message
  array is then the specification's message array (the same real array the reference forms), so its per-node sums are the
  same real array `Agg`, and the last region's entries are the specification's output.
-/
import proofs.«159511_j60833916780661_2_alg».proof.Proof.KernelSpec
import proofs.«159511_j60833916780661_2_alg».proof.Proof.KernelFinal
import proofs.«159511_j60833916780661_2_alg».proof.Proof.RefValueEq

noncomputable section

namespace Cert.Bridge

open Idealize.ShloMosaic Idealize.ShloMosaic.ValueIdx Cert.KernelIdeal Cert.KernelIdeal.KValue Cert.KernelIdeal.R0Value
  Cert.Spec Cert.LibCoe

/-- The host's message array of the kernel's program is the coercion of the specification's message array. -/
theorem kernel_msg (X : (⟨2, ![20000, 256]⟩ : Shape).Idx → ℝ) (ei : IVec S2x320000 32) (Ea : (⟨2, ![320000, 256]⟩ : Shape).Idx → ℝ)
    (W1f : (⟨2, ![768, 256]⟩ : Shape).Idx → ℝ) (b1f : (⟨1, ![256]⟩ : Shape).Idx → ℝ) (W2f : (⟨2, ![256, 256]⟩ : Shape).Idx → ℝ) (b2f : (⟨1, ![256]⟩ : Shape).Idx → ℝ)
    (W1m : (⟨2, ![768, 256]⟩ : Shape).Idx → ℝ) (b1m : (⟨1, ![256]⟩ : Shape).Idx → ℝ) (W2m : (⟨2, ![256, 256]⟩ : Shape).Idx → ℝ) (b2m gi bi : (⟨1, ![256]⟩ : Shape).Idx → ℝ)
    (gp mp : FVec Ideal S320000x256 .bf16) (sg ssg : FVec Ideal S2x8x256 .f32)
    (hgp : ∀ (e : Fin 320000) (k : Fin 256), gp (ix2 e k) = mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) e k)
    (hmp : ∀ (e : Fin 320000) (k : Fin 256), mp (ix2 e k) = mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1m i : ℝ) : EReal)) (fun i => ((b1m i : ℝ) : EReal)) (fun i => ((W2m i : ℝ) : EReal)) (fun i => ((b2m i : ℝ) : EReal)) e k)
    (hsg : ∀ (c : Fin 2) (k : Fin 256), sg (ix3 c (0 : Fin 8) k)
      = ∑ t : Fin 80, ∑ r : Fin 2000, mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) ⟨(c.val * 80 + t.val) * 2000 + r.val, by have := c.isLt; have := t.isLt; have := r.isLt; omega⟩ k)
    (hssg : ∀ (c : Fin 2) (k : Fin 256), ssg (ix3 c (0 : Fin 8) k)
      = ∑ t : Fin 80, ∑ r : Fin 2000, mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) ⟨(c.val * 80 + t.val) * 2000 + r.val, by have := c.isLt; have := t.isLt; have := r.isLt; omega⟩ k * mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) ⟨(c.val * 80 + t.val) * 2000 + r.val, by have := c.isLt; have := t.isLt; have := r.isLt; omega⟩ k) :
    msgOf gp mp sg ssg (fun i => ((gi i : ℝ) : EReal)) (fun i => ((bi i : ℝ) : EReal))
      = fun i => ((msgArr X ei Ea W1f b1f W2f b2f W1m b1m W2m b2m gi bi i : ℝ) : EReal) := by
  have hF : ∀ (e : Fin 320000) (k : Fin 256), mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) e k
      = ((Spec.mlp (cur2 W1f) (cur1 b1f) (cur2 W2f) (cur1 b2f)
          (cat3 (cur2 (fun j => X (Cert.ReferenceIdeal.gather_S20000x256_S320000x1_S320000x256_1_0_n_n_0_1_1256.operandIdx j (Cert.ReferenceIdeal.RefValue.wrapIdx (Cert.ReferenceIdeal.RefValue.dstRow ei)))) e)
            (cur2 (fun j => X (Cert.ReferenceIdeal.gather_S20000x256_S320000x1_S320000x256_1_0_n_n_0_1_1256.operandIdx j (Cert.ReferenceIdeal.RefValue.wrapIdx (Cert.ReferenceIdeal.RefValue.srcRow ei)))) e)
            (cur2 Ea e)) k : ℝ) : EReal) := fun e k =>
    mlpAt_coe (fun j => X (Cert.ReferenceIdeal.gather_S20000x256_S320000x1_S320000x256_1_0_n_n_0_1_1256.operandIdx j (Cert.ReferenceIdeal.RefValue.wrapIdx (Cert.ReferenceIdeal.RefValue.dstRow ei))))
      (fun j => X (Cert.ReferenceIdeal.gather_S20000x256_S320000x1_S320000x256_1_0_n_n_0_1_1256.operandIdx j (Cert.ReferenceIdeal.RefValue.wrapIdx (Cert.ReferenceIdeal.RefValue.srcRow ei)))) Ea W1f b1f W2f b2f e k
  have hM : ∀ (e : Fin 320000) (k : Fin 256), mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1m i : ℝ) : EReal)) (fun i => ((b1m i : ℝ) : EReal)) (fun i => ((W2m i : ℝ) : EReal)) (fun i => ((b2m i : ℝ) : EReal)) e k
      = ((Spec.mlp (cur2 W1m) (cur1 b1m) (cur2 W2m) (cur1 b2m)
          (cat3 (cur2 (fun j => X (Cert.ReferenceIdeal.gather_S20000x256_S320000x1_S320000x256_1_0_n_n_0_1_1256.operandIdx j (Cert.ReferenceIdeal.RefValue.wrapIdx (Cert.ReferenceIdeal.RefValue.dstRow ei)))) e)
            (cur2 (fun j => X (Cert.ReferenceIdeal.gather_S20000x256_S320000x1_S320000x256_1_0_n_n_0_1_1256.operandIdx j (Cert.ReferenceIdeal.RefValue.wrapIdx (Cert.ReferenceIdeal.RefValue.srcRow ei)))) e)
            (cur2 Ea e)) k : ℝ) : EReal) := fun e k =>
    mlpAt_coe (fun j => X (Cert.ReferenceIdeal.gather_S20000x256_S320000x1_S320000x256_1_0_n_n_0_1_1256.operandIdx j (Cert.ReferenceIdeal.RefValue.wrapIdx (Cert.ReferenceIdeal.RefValue.dstRow ei))))
      (fun j => X (Cert.ReferenceIdeal.gather_S20000x256_S320000x1_S320000x256_1_0_n_n_0_1_1256.operandIdx j (Cert.ReferenceIdeal.RefValue.wrapIdx (Cert.ReferenceIdeal.RefValue.srcRow ei)))) Ea W1m b1m W2m b2m e k
  refine msgOf_coe _ _ gp mp sg ssg gi bi (fun e k => (hgp e k).trans (hF e k)) (fun e k => (hmp e k).trans (hM e k))
    (fun c k => ?_) (fun c k => ?_)
  · rw [hsg]; simp only [hF, ← coe_sum]; rfl
  · rw [hssg]; simp only [hF, ← EReal.coe_mul, ← coe_sum]; rfl

/-- The last region's entry on real arguments is the specification's output. -/
theorem kernel_out (X : (⟨2, ![20000, 256]⟩ : Shape).Idx → ℝ) (ei : IVec S2x320000 32) (Ea : (⟨2, ![320000, 256]⟩ : Shape).Idx → ℝ)
    (W1f : (⟨2, ![768, 256]⟩ : Shape).Idx → ℝ) (b1f : (⟨1, ![256]⟩ : Shape).Idx → ℝ) (W2f : (⟨2, ![256, 256]⟩ : Shape).Idx → ℝ) (b2f : (⟨1, ![256]⟩ : Shape).Idx → ℝ)
    (W1m : (⟨2, ![768, 256]⟩ : Shape).Idx → ℝ) (b1m : (⟨1, ![256]⟩ : Shape).Idx → ℝ) (W2m : (⟨2, ![256, 256]⟩ : Shape).Idx → ℝ) (b2m gi bi : (⟨1, ![256]⟩ : Shape).Idx → ℝ) (gbn bbn : (⟨1, ![256]⟩ : Shape).Idx → ℝ)
    (gp mp : FVec Ideal S320000x256 .bf16) (sg ssg : FVec Ideal S2x8x256 .f32)
    (hgp : ∀ (e : Fin 320000) (k : Fin 256), gp (ix2 e k) = mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) e k)
    (hmp : ∀ (e : Fin 320000) (k : Fin 256), mp (ix2 e k) = mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1m i : ℝ) : EReal)) (fun i => ((b1m i : ℝ) : EReal)) (fun i => ((W2m i : ℝ) : EReal)) (fun i => ((b2m i : ℝ) : EReal)) e k)
    (hsg : ∀ (c : Fin 2) (k : Fin 256), sg (ix3 c (0 : Fin 8) k)
      = ∑ t : Fin 80, ∑ r : Fin 2000, mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) ⟨(c.val * 80 + t.val) * 2000 + r.val, by have := c.isLt; have := t.isLt; have := r.isLt; omega⟩ k)
    (hssg : ∀ (c : Fin 2) (k : Fin 256), ssg (ix3 c (0 : Fin 8) k)
      = ∑ t : Fin 80, ∑ r : Fin 2000, mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) ⟨(c.val * 80 + t.val) * 2000 + r.val, by have := c.isLt; have := t.isLt; have := r.isLt; omega⟩ k * mlpAt (Cert.ReferenceIdeal.RefValue.xd (F := Ideal) (fun i => ((X i : ℝ) : EReal)) ei) (Cert.ReferenceIdeal.RefValue.xs (F := Ideal) (fun i => ((X i : ℝ) : EReal)) ei) (fun i => ((Ea i : ℝ) : EReal)) (fun i => ((W1f i : ℝ) : EReal)) (fun i => ((b1f i : ℝ) : EReal)) (fun i => ((W2f i : ℝ) : EReal)) (fun i => ((b2f i : ℝ) : EReal)) ⟨(c.val * 80 + t.val) * 2000 + r.val, by have := c.isLt; have := t.isLt; have := r.isLt; omega⟩ k)
    (Agg : (⟨2, ![20000, 256]⟩ : Shape).Idx → ℝ)
    (hAgg : Cert.ReferenceIdeal.RefValue.agg (F := Ideal) (Cert.ReferenceIdeal.RefValue.dstRow ei)
        (fun i => ((msgArr X ei Ea W1f b1f W2f b2f W1m b1m W2m b2m gi bi i : ℝ) : EReal)) = fun i => ((Agg i : ℝ) : EReal))
    (n : Fin 20000) (f : Fin 256) :
    max (((X (ix2 n f) : ℝ) : EReal)
          + (aggK ei gp mp sg ssg (fun i => ((gi i : ℝ) : EReal)) (fun i => ((bi i : ℝ) : EReal)) (ix2 n f)
              * scaleN (aggK ei gp mp sg ssg (fun i => ((gi i : ℝ) : EReal)) (fun i => ((bi i : ℝ) : EReal))) (fun i => ((gbn i : ℝ) : EReal)) (ix1 f)
            + shiftN (aggK ei gp mp sg ssg (fun i => ((gi i : ℝ) : EReal)) (fun i => ((bi i : ℝ) : EReal))) (fun i => ((gbn i : ℝ) : EReal)) (fun i => ((bbn i : ℝ) : EReal)) (ix1 f)))
        (Ideal.ofBits .f32 0x00000000#32)
      = ((Spec.out eps (cur2 X) (cur2 Agg) (cur1 gbn) (cur1 bbn) n f : ℝ) : EReal) := by
  have hagg : aggK ei gp mp sg ssg (fun i => ((gi i : ℝ) : EReal)) (fun i => ((bi i : ℝ) : EReal)) = fun i => ((Agg i : ℝ) : EReal) := by
    unfold aggK
    rw [kernel_msg X ei Ea W1f b1f W2f b2f W1m b1m W2m b2m gi bi gp mp sg ssg hgp hmp hsg hssg]
    exact hAgg
  rw [hagg]
  exact finalize_coe Agg gbn bbn X n f

end Cert.Bridge

end
-- ==== Proof.Claims.lean ====
/-
  The five claims. The two kernel frames are the generated ones. The reference's frame is its run with the result
  dropped. Nothing was rewritten by the idealisation, so `preserves` is trivial. For `algebraic`: both programs run; the
  kernel's result array is, entry by entry, the specification's output of the real arguments (its region 0 gives the two
  perceptrons and the per-half sums, its host stages the gate, the message, the per-node sums and the second
  normalisation's scale and shift, its region 1 the output), and so is the reference's.
-/
import proofs.«159511_j60833916780661_2_alg».proof.Defs
import proofs.«159511_j60833916780661_2_alg».proof.Proof.Gen.Kernel.Frame
import proofs.«159511_j60833916780661_2_alg».proof.Proof.Gen.KernelIdeal.Frame
import proofs.«159511_j60833916780661_2_alg».proof.Proof.Gen.Pre_finite_inputs
import proofs.«159511_j60833916780661_2_alg».proof.Proof.KRun
import proofs.«159511_j60833916780661_2_alg».proof.Proof.RefRun
import proofs.«159511_j60833916780661_2_alg».proof.Proof.Finite
import proofs.«159511_j60833916780661_2_alg».proof.Proof.Region1
import proofs.«159511_j60833916780661_2_alg».proof.Proof.Region0Gate
import proofs.«159511_j60833916780661_2_alg».proof.Proof.Region0Stats
import proofs.«159511_j60833916780661_2_alg».proof.Proof.KHost
import proofs.«159511_j60833916780661_2_alg».proof.Proof.KernelValueEq

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.RefValue.frame_ri

set_option maxHeartbeats 4000000 in
/-- The kernel's result array is the reference's result term of the same arguments, under the precondition. -/
theorem result_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = fun _ => 1#1) :
    Cert.ReferenceIdeal.RefValue.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = Cert.KernelIdeal.Gen.W6 m ρ c (Proc.devRef .tc Cert.KernelIdeal.main_v69) := by
  -- the float arguments are real arrays
  obtain ⟨⟨X, hX⟩, ⟨Ea, hEa⟩, ⟨W1f, hW1f⟩, ⟨b1f, hb1f⟩, ⟨W2f, hW2f⟩, ⟨b2f, hb2f⟩, ⟨W1m, hW1m⟩, ⟨b1m, hb1m⟩,
    ⟨W2m, hW2m⟩, ⟨b2m, hb2m⟩, ⟨gi, hgi⟩, ⟨bi, hbi⟩, ⟨gbn, hgbn⟩, ⟨bbn, hbbn⟩⟩ :=
    Cert.Finite.reals_of_pre _ _ _ _ _ _ _ _ _ _ _ _ _ _ _ hpre
  -- the per-node sums of the (common) real message array are a real array
  obtain ⟨Agg, hAgg⟩ := Cert.Bridge.agg_coe (Cert.ReferenceIdeal.RefValue.dstRow (m ((c.tc : Thread Cert.KernelIdeal.nD Cert.KernelIdeal.τ).loc Cert.KernelIdeal.main_arg1)))
    (Cert.Bridge.msgArr X (m ((c.tc : Thread Cert.KernelIdeal.nD Cert.KernelIdeal.τ).loc Cert.KernelIdeal.main_arg1)) Ea W1f b1f W2f b2f W1m b1m W2m b2m gi bi)
  -- region 0's four arrays, entry by entry, over the real arguments
  have hgp : ∀ (e : Fin 320000) (k : Fin 256), (Cert.KernelIdeal.Gen.W2 m ρ c (Proc.devRef .tc Cert.KernelIdeal.main_v18_0)) (ix2 e k) = Cert.KernelIdeal.R0Value.mlpAt (Cert.ReferenceIdeal.RefValue.xd (F := Ideal) (fun i => ((X i : ℝ) : EReal)) (m ((c.tc : Thread Cert.KernelIdeal.nD Cert.KernelIdeal.τ).loc Cert.KernelIdeal.main_arg1))) (Cert.ReferenceIdeal.RefValue.xs (F := Ideal) (fun i => ((X i : ℝ) : EReal)) (m ((c.tc : Thread Cert.KernelIdeal.nD Cert.KernelIdeal.τ).loc Cert.KernelIdeal.main_arg1))) (fun i => ((Ea i : ℝ) : EReal)) (fun i => ((W1f i : ℝ) : EReal)) (fun i => ((b1f i : ℝ) : EReal)) (fun i => ((W2f i : ℝ) : EReal)) (fun i => ((b2f i : ℝ) : EReal)) e k := fun e k => by
    have h := congrFun ((Cert.KernelIdeal.KValue.W2_out11 m ρ c).trans (Cert.KernelIdeal.R0Value.gate_arr (Cert.KernelIdeal.Gen.V1 m ρ) c)) (ix2 e k)
    rw [Cert.KernelIdeal.KValue.V1_win0 m ρ c, Cert.KernelIdeal.KValue.V1_win1 m ρ c, Cert.KernelIdeal.KValue.V1_win2 m ρ c, Cert.KernelIdeal.KValue.V1_win3 m ρ c, Cert.KernelIdeal.KValue.V1_win4 m ρ c, Cert.KernelIdeal.KValue.V1_win5 m ρ c, Cert.KernelIdeal.KValue.V1_win6 m ρ c, hX, hEa, hW1f, hb1f, hW2f, hb2f] at h
    exact h
  have hmp : ∀ (e : Fin 320000) (k : Fin 256), (Cert.KernelIdeal.Gen.W2 m ρ c (Proc.devRef .tc Cert.KernelIdeal.main_v18_1)) (ix2 e k) = Cert.KernelIdeal.R0Value.mlpAt (Cert.ReferenceIdeal.RefValue.xd (F := Ideal) (fun i => ((X i : ℝ) : EReal)) (m ((c.tc : Thread Cert.KernelIdeal.nD Cert.KernelIdeal.τ).loc Cert.KernelIdeal.main_arg1))) (Cert.ReferenceIdeal.RefValue.xs (F := Ideal) (fun i => ((X i : ℝ) : EReal)) (m ((c.tc : Thread Cert.KernelIdeal.nD Cert.KernelIdeal.τ).loc Cert.KernelIdeal.main_arg1))) (fun i => ((Ea i : ℝ) : EReal)) (fun i => ((W1m i : ℝ) : EReal)) (fun i => ((b1m i : ℝ) : EReal)) (fun i => ((W2m i : ℝ) : EReal)) (fun i => ((b2m i : ℝ) : EReal)) e k := fun e k => by
    have h := congrFun ((Cert.KernelIdeal.KValue.W2_out12 m ρ c).trans (Cert.KernelIdeal.R0Value.msg_arr (Cert.KernelIdeal.Gen.V1 m ρ) c)) (ix2 e k)
    rw [Cert.KernelIdeal.KValue.V1_win0 m ρ c, Cert.KernelIdeal.KValue.V1_win1 m ρ c, Cert.KernelIdeal.KValue.V1_win2 m ρ c, Cert.KernelIdeal.KValue.V1_win7 m ρ c, Cert.KernelIdeal.KValue.V1_win8 m ρ c, Cert.KernelIdeal.KValue.V1_win9 m ρ c, Cert.KernelIdeal.KValue.V1_win10 m ρ c, hX, hEa, hW1m, hb1m, hW2m, hb2m] at h
    exact h
  have hsg : ∀ (cc : Fin 2) (k : Fin 256), (Cert.KernelIdeal.Gen.W2 m ρ c (Proc.devRef .tc Cert.KernelIdeal.main_v18_2)) (ix3 cc (0 : Fin 8) k)
      = ∑ t : Fin 80, ∑ r : Fin 2000, Cert.KernelIdeal.R0Value.mlpAt (Cert.ReferenceIdeal.RefValue.xd (F := Ideal) (fun i => ((X i : ℝ) : EReal)) (m ((c.tc : Thread Cert.KernelIdeal.nD Cert.KernelIdeal.τ).loc Cert.KernelIdeal.main_arg1))) (Cert.ReferenceIdeal.RefValue.xs (F := Ideal) (fun i => ((X i : ℝ) : EReal)) (m ((c.tc : Thread Cert.KernelIdeal.nD Cert.KernelIdeal.τ).loc Cert.KernelIdeal.main_arg1))) (fun i => ((Ea i : ℝ) : EReal)) (fun i => ((W1f i : ℝ) : EReal)) (fun i => ((b1f i : ℝ) : EReal)) (fun i => ((W2f i : ℝ) : EReal)) (fun i => ((b2f i : ℝ) : EReal)) ⟨(cc.val * 80 + t.val) * 2000 + r.val, by have := cc.isLt; have := t.isLt; have := r.isLt; omega⟩ k := fun cc k => by
    have h := (congrFun (Cert.KernelIdeal.KValue.W2_out13 m ρ c) (ix3 cc (0 : Fin 8) k)).trans
      (Cert.KernelIdeal.R0Value.sum_at (Cert.KernelIdeal.Gen.V1 m ρ) c cc 0 k)
    rw [Cert.KernelIdeal.KValue.V1_win0 m ρ c, Cert.KernelIdeal.KValue.V1_win1 m ρ c, Cert.KernelIdeal.KValue.V1_win2 m ρ c, Cert.KernelIdeal.KValue.V1_win3 m ρ c, Cert.KernelIdeal.KValue.V1_win4 m ρ c, Cert.KernelIdeal.KValue.V1_win5 m ρ c, Cert.KernelIdeal.KValue.V1_win6 m ρ c, hX, hEa, hW1f, hb1f, hW2f, hb2f] at h
    exact h
  have hssg : ∀ (cc : Fin 2) (k : Fin 256), (Cert.KernelIdeal.Gen.W2 m ρ c (Proc.devRef .tc Cert.KernelIdeal.main_v18_3)) (ix3 cc (0 : Fin 8) k)
      = ∑ t : Fin 80, ∑ r : Fin 2000, Cert.KernelIdeal.R0Value.mlpAt (Cert.ReferenceIdeal.RefValue.xd (F := Ideal) (fun i => ((X i : ℝ) : EReal)) (m ((c.tc : Thread Cert.KernelIdeal.nD Cert.KernelIdeal.τ).loc Cert.KernelIdeal.main_arg1))) (Cert.ReferenceIdeal.RefValue.xs (F := Ideal) (fun i => ((X i : ℝ) : EReal)) (m ((c.tc : Thread Cert.KernelIdeal.nD Cert.KernelIdeal.τ).loc Cert.KernelIdeal.main_arg1))) (fun i => ((Ea i : ℝ) : EReal)) (fun i => ((W1f i : ℝ) : EReal)) (fun i => ((b1f i : ℝ) : EReal)) (fun i => ((W2f i : ℝ) : EReal)) (fun i => ((b2f i : ℝ) : EReal)) ⟨(cc.val * 80 + t.val) * 2000 + r.val, by have := cc.isLt; have := t.isLt; have := r.isLt; omega⟩ k * Cert.KernelIdeal.R0Value.mlpAt (Cert.ReferenceIdeal.RefValue.xd (F := Ideal) (fun i => ((X i : ℝ) : EReal)) (m ((c.tc : Thread Cert.KernelIdeal.nD Cert.KernelIdeal.τ).loc Cert.KernelIdeal.main_arg1))) (Cert.ReferenceIdeal.RefValue.xs (F := Ideal) (fun i => ((X i : ℝ) : EReal)) (m ((c.tc : Thread Cert.KernelIdeal.nD Cert.KernelIdeal.τ).loc Cert.KernelIdeal.main_arg1))) (fun i => ((Ea i : ℝ) : EReal)) (fun i => ((W1f i : ℝ) : EReal)) (fun i => ((b1f i : ℝ) : EReal)) (fun i => ((W2f i : ℝ) : EReal)) (fun i => ((b2f i : ℝ) : EReal)) ⟨(cc.val * 80 + t.val) * 2000 + r.val, by have := cc.isLt; have := t.isLt; have := r.isLt; omega⟩ k := fun cc k => by
    have h := (congrFun (Cert.KernelIdeal.KValue.W2_out14 m ρ c) (ix3 cc (0 : Fin 8) k)).trans
      (Cert.KernelIdeal.R0Value.sumsq_at (Cert.KernelIdeal.Gen.V1 m ρ) c cc 0 k)
    rw [Cert.KernelIdeal.KValue.V1_win0 m ρ c, Cert.KernelIdeal.KValue.V1_win1 m ρ c, Cert.KernelIdeal.KValue.V1_win2 m ρ c, Cert.KernelIdeal.KValue.V1_win3 m ρ c, Cert.KernelIdeal.KValue.V1_win4 m ρ c, Cert.KernelIdeal.KValue.V1_win5 m ρ c, Cert.KernelIdeal.KValue.V1_win6 m ρ c, hX, hEa, hW1f, hb1f, hW2f, hb2f] at h
    exact h
  -- the kernel's result array: the last region's entries of the host stages' arrays
  rw [Cert.KernelIdeal.KValue.result_arr m ρ c, Cert.KernelIdeal.KValue.fin_arr (Cert.KernelIdeal.Gen.V5 m ρ) c, Cert.KernelIdeal.KValue.V5_win0 m ρ c, Cert.KernelIdeal.KValue.V5_win1 m ρ c,
    Cert.KernelIdeal.KValue.V5_win2 m ρ c, Cert.KernelIdeal.KValue.V5_win3 m ρ c]
  rw [hX, hEa, hW1f, hb1f, hW2f, hb2f, hW1m, hb1m, hW2m, hb2m, hgi, hbi, hgbn, hbbn]
  rw [Cert.Bridge.ref_out X (m ((c.tc : Thread Cert.KernelIdeal.nD Cert.KernelIdeal.τ).loc Cert.KernelIdeal.main_arg1)) Ea W1f b1f W2f b2f W1m b1m W2m b2m gi bi gbn bbn Agg hAgg]
  funext i
  obtain ⟨n, f, rfl⟩ : ∃ (n : Fin 20000) (f : Fin 256), i = ix2 n f := ⟨i 0, i 1, eq_ix2 i⟩
  exact (Cert.Bridge.kernel_out X (m ((c.tc : Thread Cert.KernelIdeal.nD Cert.KernelIdeal.τ).loc Cert.KernelIdeal.main_arg1)) Ea W1f b1f W2f b2f W1m b1m W2m b2m gi bi gbn bbn
    (Cert.KernelIdeal.Gen.W2 m ρ c (Proc.devRef .tc Cert.KernelIdeal.main_v18_0)) (Cert.KernelIdeal.Gen.W2 m ρ c (Proc.devRef .tc Cert.KernelIdeal.main_v18_1)) (Cert.KernelIdeal.Gen.W2 m ρ c (Proc.devRef .tc Cert.KernelIdeal.main_v18_2)) (Cert.KernelIdeal.Gen.W2 m ρ c (Proc.devRef .tc Cert.KernelIdeal.main_v18_3)) hgp hmp hsg hssg Agg hAgg n f).symm

theorem algebraic : Cert.algebraic_KernelIdeal_ReferenceIdeal := by
  intro m ρ m' ρ' hpre hagree
  refine ⟨fun c => Cert.KernelIdeal.Gen.W6 m ρ c (Proc.devRef .tc Cert.KernelIdeal.main_v69), Cert.KernelIdeal.KValue.run_named m ρ, ?_⟩
  refine (θ_run Cert.ReferenceIdeal.defs _ _).mono (fun r h c => ⟨(h c).1.trans ?_, (h c).2⟩)
    (Cert.ReferenceIdeal.RefValue.run (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]
  exact result_eq m ρ c (hpre c)

end Cert.Proof.Claims

end
-- ==== Proof.lean ====
/-
  One message-passing layer against its reference, over the extended reals.

  An edge's features are its target node's row, its source node's row and its own attribute row side by side. Two
  perceptrons (768 → 256 → 256, activation z·σ(z)) give the gate's pre-activation and the message's. The gate's
  pre-activation is normalised column by column over all 320000 edges (mean, biased variance, epsilon, scale γ, shift β)
  and passed through the logistic function; gate times message is summed per target node; the sums are normalised over
  the 20000 nodes, added to the node rows and clipped below at zero.

  The kernel computes the perceptrons tile by tile (three 256-term products with the three row blocks of the first
  weight matrix), keeps per half of the edges the running column sums of the gate's pre-activation and of its square,
  forms the variance as E[h²] − (E h)² clipped at zero, and applies each normalisation as h·scale + shift. The reference
  computes one 768-term product, the variance as the mean of squared deviations, and the centred form. On finite inputs
  every intermediate value is a real number, and over the reals the two arrangements agree: a sum over 768 features is
  the sum of its three blocks; a sum over the edges is the sum over halves, tiles and rows; E[h²] − (E h)² is the mean
  of squared deviations when the divisor is the number of rows, and it is non-negative; h·(γ·r) + (β − μ·(γ·r)) =
  (h − μ)·r·γ + β. Both programs gather the node rows and scatter-add the messages with the same host operations, so
  those are never opened: a gather of a real array is a real array, and so is an accumulating scatter of real updates.

  Modules: Spec (the layer over ℝ), LibCoe (ℝ → EReal: sums, quotient, logistic, rsqrt, the float words, gather,
  scatter), Finite (the precondition makes every float argument a real array), Algebra, Algebra2 (the real identities),
  RefStages / RefRun / RefRead / RefSpec / RefValueEq (the reference: its stages, its run, each stage at an index, each
  stage on real inputs, its result), Region0Spec … Region0Stats and Region0Gate (the first region's four arrays entry by
  entry), Region1 (the last region's array), KRun (the kernel's run with its result named), KStages / KHost (the host
  stages between the regions), KernelMlp / KernelSpec / KernelFinal / KernelValueEq (the kernel's stages on real inputs),
  AggCoe, Claims (the five claims).
-/
import proofs.«159511_j60833916780661_2_alg».proof.Defs
import proofs.«159511_j60833916780661_2_alg».proof.Proof.Gen.Kernel
import proofs.«159511_j60833916780661_2_alg».proof.Proof.Gen.KernelIdeal
import proofs.«159511_j60833916780661_2_alg».proof.Proof.Gen.ReferenceIdeal
import proofs.«159511_j60833916780661_2_alg».proof.Proof.Gen.Pre_finite_inputs
import proofs.«159511_j60833916780661_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
